-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32x32 .f32) (main_arg12 : FVec F S64x32 .f32) (main_arg13 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S64x32 .f32 := Host.absf main_arg12
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg7 : FVec F S32 .f32) (main_arg8 : FVec F S64x32 .f32) (main_arg9 : FVec F S64x32 .f32) (main_arg10 : FVec F S32 .f32) (main_arg11 : FVec F S32x32 .f32) (main_arg12 : FVec F S64x32 .f32) (main_arg13 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_v48 main_v49 main_v50

def fn_part1 {F : FTy → Type} [FloatOps F] (main_arg4 : FVec F S32 .f32) (main_arg5 : FVec F S32x32 .f32) (main_arg6 : FVec F S64x32 .f32) (main_arg7 : FVec F S32 .f32) (main_arg8 : FVec F S64x32 .f32) (main_arg9 : FVec F S64x32 .f32) (main_arg10 : FVec F S32 .f32) (main_arg11 : FVec F S32x32 .f32) (main_arg12 : FVec F S64x32 .f32) (main_arg13 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x64 .f32) (main_arg1 : FVec F S16384x16384 .f32) (main_arg2 : FVec F S64x32 .f32) (main_arg3 : FVec F S64x32 .f32) (main_arg4 : FVec F S32 .f32) (main_arg5 : FVec F S32x32 .f32) (main_arg6 : FVec F S64x32 .f32) (main_arg7 : FVec F S32 .f32) (main_arg8 : FVec F S64x32 .f32) (main_arg9 : FVec F S64x32 .f32) (main_arg10 : FVec F S32 .f32) (main_arg11 : FVec F S32x32 .f32) (main_arg12 : FVec F S64x32 .f32) (main_arg13 : FVec F S32 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x64 : Shape := ⟨2, ![16384, 64]⟩
abbrev S16384x16384 : Shape := ⟨2, ![16384, 16384]⟩
abbrev S64x32 : Shape := ⟨2, ![64, 32]⟩
abbrev S32 : Shape := ⟨1, ![32]⟩
abbrev S32x32 : Shape := ⟨2, ![32, 32]⟩
abbrev S1x32 : Shape := ⟨2, ![1, 32]⟩
abbrev S16384x32 : Shape := ⟨2, ![16384, 32]⟩
abbrev S2048x1024 : Shape := ⟨2, ![2048, 1024]⟩
abbrev S1024x64 : Shape := ⟨2, ![1024, 64]⟩
abbrev S2048x64 : Shape := ⟨2, ![2048, 64]⟩
abbrev S2048x32 : Shape := ⟨2, ![2048, 32]⟩
abbrev S1024x32 : Shape := ⟨2, ![1024, 32]⟩

abbrev nBuf : Space → Nat
  | .hbm => 21
  | .vmem => 36
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S64x32, .f32⟩
  | .hbm, ⟨10, _⟩ => ⟨S32, .f32⟩
  | .hbm, ⟨11, _⟩ => ⟨S32x32, .f32⟩
  | .hbm, ⟨12, _⟩ => ⟨S64x32, .f32⟩
  | .hbm, ⟨13, _⟩ => ⟨S32, .f32⟩
  | .hbm, ⟨14, _⟩ => ⟨S1x32, .f32⟩
  | .hbm, ⟨15, _⟩ => ⟨S1x32, .f32⟩
  | .hbm, ⟨16, _⟩ => ⟨S16384x32, .f32⟩
  | .hbm, ⟨17, _⟩ => ⟨S16384x32, .f32⟩
  | .hbm, ⟨18, _⟩ => ⟨S1x32, .f32⟩
  | .hbm, ⟨19, _⟩ => ⟨S1x32, .f32⟩
  | .hbm, ⟨20, _⟩ => ⟨S16384x32, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S2048x64, .f32⟩
  | .local _ .vmem, ⟨5, _⟩ => ⟨S2048x64, .f32⟩
  | .local _ .vmem, ⟨6, _⟩ => ⟨S64x32, .f32⟩
  | .local _ .vmem, ⟨7, _⟩ => ⟨S64x32, .f32⟩
  | .local _ .vmem, ⟨8, _⟩ => ⟨S64x32, .f32⟩
  | .local _ .vmem, ⟨9, _⟩ => ⟨S64x32, .f32⟩
  | .local _ .vmem, ⟨10, _⟩ => ⟨S1x32, .f32⟩
  | .local _ .vmem, ⟨11, _⟩ => ⟨S1x32, .f32⟩
  | .local _ .vmem, ⟨12, _⟩ => ⟨S2048x32, .f32⟩
  | .local _ .vmem, ⟨13, _⟩ => ⟨S2048x32, .f32⟩
  | .local _ .vmem, ⟨14, _⟩ => ⟨S2048x32, .f32⟩
  | .local _ .vmem, ⟨15, _⟩ => ⟨S2048x32, .f32⟩
  | .local _ .vmem, ⟨16, _⟩ => ⟨S2048x32, .f32⟩
  | .local _ .vmem, ⟨17, _⟩ => ⟨S2048x32, .f32⟩
  | .local _ .vmem, ⟨18, _⟩ => ⟨S2048x1024, .f32⟩
  | .local _ .vmem, ⟨19, _⟩ => ⟨S2048x1024, .f32⟩
  | .local _ .vmem, ⟨20, _⟩ => ⟨S1024x32, .f32⟩
  | .local _ .vmem, ⟨21, _⟩ => ⟨S1024x32, .f32⟩
  | .local _ .vmem, ⟨22, _⟩ => ⟨S1024x32, .f32⟩
  | .local _ .vmem, ⟨23, _⟩ => ⟨S1024x32, .f32⟩
  | .local _ .vmem, ⟨24, _⟩ => ⟨S2048x64, .f32⟩
  | .local _ .vmem, ⟨25, _⟩ => ⟨S2048x64, .f32⟩
  | .local _ .vmem, ⟨26, _⟩ => ⟨S32x32, .f32⟩
  | .local _ .vmem, ⟨27, _⟩ => ⟨S32x32, .f32⟩
  | .local _ .vmem, ⟨28, _⟩ => ⟨S64x32, .f32⟩
  | .local _ .vmem, ⟨29, _⟩ => ⟨S64x32, .f32⟩
  | .local _ .vmem, ⟨30, _⟩ => ⟨S1x32, .f32⟩
  | .local _ .vmem, ⟨31, _⟩ => ⟨S1x32, .f32⟩
  | .local _ .vmem, ⟨32, _⟩ => ⟨S2048x32, .f32⟩
  | .local _ .vmem, ⟨33, _⟩ => ⟨S2048x32, .f32⟩
  | .local _ .vmem, ⟨34, _⟩ => ⟨S2048x32, .f32⟩
  | .local _ .vmem, ⟨35, _⟩ => ⟨S2048x32, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg10_1 : Ref sig .tc := ⟨.vmem, 33, rfl⟩
abbrev cc1_scratch0 : Ref sig .tc := ⟨.vmem, 34, rfl⟩
abbrev cc1_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_21 : BitVec 32 := 0#32
  let v33 : BitVec 1 := Scalar.cmpi .ne v32 c0_i32_21
  v33

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S2048x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

class Facts₀ : Prop where
  shapeCasts_S32_S1x32 : S32.ShapeCasts S1x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S2048x1024_S2048x1024_0_0 : ∀ a, (![0, 0] : Fin 2 → Nat) a + S2048x1024.size a ≤ S2048x1024.size a
  h_S2048x1024 : 0 < S2048x1024.numel
  inb_S2048x64_S2048x64_0_0 : ∀ a, (![0, 0] : Fin 2 → Nat) a + S2048x64.size a ≤ S2048x64.size a
  h_S2048x64 : 0 < S2048x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x32_S32x32_0_0 : ∀ a, (![0, 0] : Fin 2 → Nat) a + S32x32.size a ≤ S32x32.size a
  h_S32x32 : 0 < S32x32.numel
  dot_S1024x64_S64x32_S1024x32_1_0_0_1_n_n_wf : DotDims.WF S1024x64 S64x32 S1024x32 [1] [0] [0] [1] [] []
  dot_S2048x1024_S1024x32_S2048x32_1_0_0_1_n_n_wf : DotDims.WF S2048x1024 S1024x32 S2048x32 [1] [0] [0] [1] [] []
  dot_S2048x64_S64x32_S2048x32_1_0_0_1_n_n_wf : DotDims.WF S2048x64 S64x32 S2048x32 [1] [0] [0] [1] [] []
  dot_S1024x32_S32x32_S1024x32_1_0_0_1_n_n_wf : DotDims.WF S1024x32 S32x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x32.size a ≤ S16384x32.size a
  hwx0_9 : ∀ i : grid0.Coords, EltTy.bits .f32 = 32 ∨ (Rect.block (s := S16384x32) S2048x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x32.size a ≤ S16384x32.size a
  hwx0_10 : ∀ i : grid0.Coords, EltTy.bits .f32 = 32 ∨ (Rect.block (s := S16384x32) S2048x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S16384x32.size a
  hwx1_1 : ∀ i : grid1.Coords, EltTy.bits .f32 = 32 ∨ (Rect.block (s := S16384x32) S1024x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S16384x32.size a
  hwx1_2 : ∀ i : grid1.Coords, EltTy.bits .f32 = 32 ∨ (Rect.block (s := S16384x32) S1024x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2048x32.size a ≤ S16384x32.size a
  hwx1_10 : ∀ i : grid1.Coords, EltTy.bits .f32 = 32 ∨ (Rect.block (s := S16384x32) S2048x32.size (cc1_transform_10 i) (hinb1_10 i)).WholeWords (EltTy.packing .f32)

variable [Facts₀]

def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S2048x1024_S1024x32_S2048x32_1_0_0_1_n_n : DotDims S2048x1024 S1024x32 S2048x32 where
  lhsContracting := [1]
  rhsContracting := [0]
  lhsNonContracting := [0]
  rhsNonContracting := [1]
  lhsBatch := []
  rhsBatch := []
  wf := dot_S2048x1024_S1024x32_S2048x32_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S2048x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S2048x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1024x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v4) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v5) S2048x32.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S64x32 : Shape := ⟨2, ![64, 32]⟩
abbrev S32 : Shape := ⟨1, ![32]⟩
abbrev S32x32 : Shape := ⟨2, ![32, 32]⟩
abbrev S16384x32 : Shape := ⟨2, ![16384, 32]⟩
abbrev S1x32 : Shape := ⟨2, ![1, 32]⟩
abbrev S_ : Shape := ⟨0, ![]⟩
abbrev S16384x32x1 : Shape := ⟨3, ![16384, 32, 1]⟩
abbrev S16384x32x2 : Shape := ⟨3, ![16384, 32, 2]⟩

abbrev nBuf : Space → Nat
  | .hbm => 62
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S64x32, .f32⟩
  | .hbm, ⟨10, _⟩ => ⟨S32, .f32⟩
  | .hbm, ⟨11, _⟩ => ⟨S32x32, .f32⟩
  | .hbm, ⟨12, _⟩ => ⟨S64x32, .f32⟩
  | .hbm, ⟨13, _⟩ => ⟨S32, .f32⟩
  | .hbm, ⟨14, _⟩ => ⟨S16384x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S1x32, .f32⟩
  | .hbm, ⟨29, _⟩ => ⟨S16384x32, .f32⟩
  | .hbm, ⟨30, _⟩ => ⟨S16384x32, .f32⟩
  | .hbm, ⟨31, _⟩ => ⟨S_, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S16384x32, .f32⟩
  | .hbm, ⟨37, _⟩ => ⟨S16384x32, .f32⟩
  | .hbm, ⟨38, _⟩ => ⟨S1x32, .f32⟩
  | .hbm, ⟨39, _⟩ => ⟨S16384x32, .f32⟩
  | .hbm, ⟨40, _⟩ => ⟨S16384x32, .f32⟩
  | .hbm, ⟨41, _⟩ => ⟨S_, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S16384x32, .f32⟩
  | .hbm, ⟨47, _⟩ => ⟨S16384x32, .f32⟩
  | .hbm, ⟨48, _⟩ => ⟨S1x32, .f32⟩
  | .hbm, ⟨49, _⟩ => ⟨S16384x32, .f32⟩
  | .hbm, ⟨50, _⟩ => ⟨S16384x32, .f32⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S16384x32x1, .f32⟩
  | .hbm, ⟨55, _⟩ => ⟨S16384x32x1, .f32⟩
  | .hbm, ⟨56, _⟩ => ⟨S16384x32x2, .f32⟩
  | .hbm, ⟨57, _⟩ => ⟨S_, .f32⟩
  | .hbm, ⟨58, _⟩ => ⟨S16384x32, .f32⟩
  | .hbm, ⟨59, _⟩ => ⟨S_, .f32⟩
  | .hbm, ⟨60, _⟩ => ⟨S16384x32, .f32⟩
  | .hbm, ⟨61, _⟩ => ⟨S16384x32, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_cst : Ref sig .tc := ⟨.hbm, 21, rfl⟩
abbrev main_call0_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_cst : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call2_cst : Ref sig .tc := ⟨.hbm, 41, rfl⟩
abbrev main_call2_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call3_cst : Ref sig .tc := ⟨.hbm, 51, rfl⟩
abbrev main_call3_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_cst_0 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  reducesTo_S16384x32x2_S16384x32_d2 : S16384x32x2.ReducesTo [2] S16384x32
  h_S_ : 0 < S_.numel
  dot_S16384x64_S64x32_S16384x32_1_0_0_1_n_n_wf : DotDims.WF S16384x64 S64x32 S16384x32 [1] [0] [0] [1] [] []
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []

variable [Facts₀]

def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

class Facts : Prop extends Facts₀ where

variable [Facts]
-- ==== Proof.LibWholeStore.lean ====
/-
  One store through the whole-shape rectangle at zero offsets leaves its payload, whatever the buffer held: read
  back through the same view, the written contents are the stored value at every index. Stated over an abstract
  view and shape, so that a use at a large literal shape unifies the rectangle and nothing else.
-/
import Idealize.ShloMosaic.Lib.Pipeline.FrameBody
import Idealize.ShloMosaic.Lib.Pipeline.Value

noncomputable section

namespace Cert.LibWholeStore

open Idealize.ShloMosaic Idealize.SL.Sem

variable {Val : EltTy → Type} [∀ e, Nonempty (Val e)]

/-- What a buffer reads after ONE store of `w` through the whole-shape rectangle at zero offsets: `w`. -/
theorem read_writes_whole {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

end Cert.LibWholeStore

end
-- ==== Proof.BitsBody0.lean ====
import proofs.«160956_j71236327571877_2_alg».proof.Proof.Gen.Kernel.Launch
import proofs.«160956_j71236327571877_2_alg».proof.Proof.Gen.Kernel.Skeleton
import proofs.«160956_j71236327571877_2_alg».proof.Proof.Gen.Kernel.Points
import proofs.«160956_j71236327571877_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body on any whole staging buffers

The body reads nine input buffers (a 2048×1024 block of the operator, the 1024 rows of node features the block's
columns name, the 2048 rows of node features of the output block, four weight matrices and two bias rows), two
accumulators it owns, and two output buffers. What it does depends on the point's second coordinate only through
two tests, "is it 0" and "is it 15"; the three cases the grid meets are run here, each once, on arbitrary whole
buffers, with the arithmetic left as the named payload terms. -/

/-- "The second grid coordinate is 0", as the body computes it. -/
abbrev cond0_0 (i : grid0.Coords) : Prop := (Scalar.cmpi .ne (Scalar.extui (Scalar.cmpi .eq (BitVec.ofNat 32 (i 1).val) 0#32)) 0#32) = 1#1
/-- "The second grid coordinate is 15", as the body computes it. -/
abbrev cond0_1 (i : grid0.Coords) : Prop := k0_cond2 i = 1#1

/-- The zero offsets of a whole-buffer access. -/
theorem hz2 : (![0, 0] : Fin 2 → ℕ) = fun _ => 0 := by funext a; match a with | ⟨0, _⟩ => rfl | ⟨1, _⟩ => rfl

/-- Over any view and shape: a buffer read back after a store through the whole-shape rectangle at zero offsets holds
    the stored value, whatever was stored before it. (Stated abstractly, so that a use at a large literal shape
    unifies the rectangle and nothing else.) -/
theorem read_writes_cons_whole {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-- The same at the accumulators' and outputs' shape. -/
theorem rws (v : View sig .tc .vmem S2048x32 .f32) (f : v.ty.Contents (Elt F)) (inb) (w : S2048x32.Idx → Elt F .f32)
    (L : List (View.Piece (Elt F) S2048x32 .f32)) :
    v.read (Elt F) (v.writes (Elt F) f ((⟨Rect.unit (s := S2048x32) ![0, 0] ![2048, 32] inb, w⟩ : View.Piece (Elt F) S2048x32 .f32) :: L)) = w :=
  read_writes_cons_whole (S := S2048x32) v f hz2 inb w L

/-! A load through the whole rectangle reads the buffer's contents as they are. -/
theorem ldz_2048x1024 (inb) (X : S2048x1024.Idx → Elt F .f32) : View.ld X (Rect.unit (s := S2048x1024) ![0, 0] ![2048, 1024] inb) = X := View.ld_unit_zero (S := S2048x1024) hz2 inb X
theorem ldz_1024x64 (inb) (X : S1024x64.Idx → Elt F .f32) : View.ld X (Rect.unit (s := S1024x64) ![0, 0] ![1024, 64] inb) = X := View.ld_unit_zero (S := S1024x64) hz2 inb X
theorem ldz_2048x64 (inb) (X : S2048x64.Idx → Elt F .f32) : View.ld X (Rect.unit (s := S2048x64) ![0, 0] ![2048, 64] inb) = X := View.ld_unit_zero (S := S2048x64) hz2 inb X
theorem ldz_64x32 (inb) (X : S64x32.Idx → Elt F .f32) : View.ld X (Rect.unit (s := S64x32) ![0, 0] ![64, 32] inb) = X := View.ld_unit_zero (S := S64x32) hz2 inb X
theorem ldz_1x32 (inb) (X : S1x32.Idx → Elt F .f32) : View.ld X (Rect.unit (s := S1x32) ![0, 0] ![1, 32] inb) = X := View.ld_unit_zero (S := S1x32) hz2 inb X
theorem ldz_2048x32 (inb) (X : S2048x32.Idx → Elt F .f32) : View.ld X (Rect.unit (s := S2048x32) ![0, 0] ![2048, 32] inb) = X := View.ld_unit_zero (S := S2048x32) hz2 inb X

set_option maxHeartbeats 1000000 in
/-- At a grid point whose second coordinate is neither 0 nor 15 the body adds the point's block product to each accumulator; the output buffers are not touched. -/
theorem sound_kernel0_mid (c : Dev nD) (i : grid0.Coords) (hc0 : ¬ cond0_0 i) (hc1 : ¬ cond0_1 i) (E : Set ℕ)
    (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 : Vec F S1024x64 .f32) (x4 : Vec F S2048x64 .f32) (x5 x6 x7 x8 : Vec F S64x32 .f32) (x9 x10 : Vec F S1x32 .f32)
    (o11 o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare (k0_pay5 x3 x5 x2 s13)
        ∗ owns (c : Thread nD τ) arg14 fullShare (k0_pay6 x3 x6 x2 s14)) -∗ K ⟨⟩))
      ⊢ wp frame (wpE (defs₀ (F := F)) Variants.none c none) E (cc0__gcs_kernel0 i arg2 harg2 arg3 harg3 arg4 harg4 arg5 harg5 arg6 harg6 arg7 harg7 arg8 harg8 arg9 harg9 arg10 harg10 arg11 harg11 arg12 harg12 arg13 harg13 arg14 harg14) K := by
  simp only [cc0__gcs_kernel0_eq_skeleton]; unfold cc0__gcs_kernel0_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]

set_option maxHeartbeats 1000000 in
/-- At a grid point whose second coordinate is 0 (and not 15) the body clears both accumulators and adds the point's block product to each; the output buffers are not touched. -/
theorem sound_kernel0_first (c : Dev nD) (i : grid0.Coords) (hc0 : cond0_0 i) (hc1 : ¬ cond0_1 i) (E : Set ℕ)
    (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 : Vec F S1024x64 .f32) (x4 : Vec F S2048x64 .f32) (x5 x6 x7 x8 : Vec F S64x32 .f32) (x9 x10 : Vec F S1x32 .f32)
    (o11 o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare (k0_pay5 x3 x5 x2 k0_pay1)
        ∗ owns (c : Thread nD τ) arg14 fullShare (k0_pay6 x3 x6 x2 k0_pay2)) -∗ K ⟨⟩))
      ⊢ wp frame (wpE (defs₀ (F := F)) Variants.none c none) E (cc0__gcs_kernel0 i arg2 harg2 arg3 harg3 arg4 harg4 arg5 harg5 arg6 harg6 arg7 harg7 arg8 harg8 arg9 harg9 arg10 harg10 arg11 harg11 arg12 harg12 arg13 harg13 arg14 harg14) K := by
  simp only [cc0__gcs_kernel0_eq_skeleton]; unfold cc0__gcs_kernel0_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]

set_option maxHeartbeats 1000000 in
/-- At a grid point whose second coordinate is 15 (and not 0) the body adds the point's block product to each accumulator and then stores, into each output buffer, the rectified sum of the accumulator, the skip term and the bias. -/
theorem sound_kernel0_last (c : Dev nD) (i : grid0.Coords) (hc0 : ¬ cond0_0 i) (hc1 : cond0_1 i) (E : Set ℕ)
    (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 : Vec F S1024x64 .f32) (x4 : Vec F S2048x64 .f32) (x5 x6 x7 x8 : Vec F S64x32 .f32) (x9 x10 : Vec F S1x32 .f32)
    (o11 o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare (k0_pay8 x4 x7 (k0_pay5 x3 x5 x2 s13) x9)
        ∗ owns (c : Thread nD τ) arg12 fullShare (k0_pay9 x4 x8 (k0_pay6 x3 x6 x2 s14) x10)
        ∗ owns (c : Thread nD τ) arg13 fullShare (k0_pay5 x3 x5 x2 s13)
        ∗ owns (c : Thread nD τ) arg14 fullShare (k0_pay6 x3 x6 x2 s14)) -∗ K ⟨⟩))
      ⊢ wp frame (wpE (defs₀ (F := F)) Variants.none c none) E (cc0__gcs_kernel0 i arg2 harg2 arg3 harg3 arg4 harg4 arg5 harg5 arg6 harg6 arg7 harg7 arg8 harg8 arg9 harg9 arg10 harg10 arg11 harg11 arg12 harg12 arg13 harg13 arg14 harg14) K := by
  simp only [cc0__gcs_kernel0_eq_skeleton]; unfold cc0__gcs_kernel0_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  isplitl [H12]
  · iexists _; isplitr
    swap; · iexact H12
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  isplitl [H13]
  · iexists _; isplitr
    swap; · iexact H13
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]

end Cert.Kernel.Gen

end
-- ==== Proof.BitsData0.lean ====
import proofs.«160956_j71236327571877_2_alg».proof.Proof.Gen.Kernel.Launch
import proofs.«160956_j71236327571877_2_alg».proof.Proof.Gen.Kernel.Skeleton
import proofs.«160956_j71236327571877_2_alg».proof.Proof.Gen.Kernel.Points
import proofs.«160956_j71236327571877_2_alg».proof.Proof.BitsBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region: what every buffer holds at every grid point

The grid has 8 × 16 points; point t = 16·i + k works on the 2048 rows of row block i and the 1024 columns of
column block k. Every input window's buffer holds its block of the array the region found (V). The two
accumulators are cleared at k = 0 and gain one block product per point, so after point t they hold the partial
sum over the column blocks 0 … k of row block i; the output buffers are written at k = 15 only, from the full
sums. All of it is stated at the contents V the region is entered with, whatever they are. -/

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, fetched there or not: a window that is not fetched
    at a point has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The first accumulator after the points below n: cleared at the first column block of each row block, then one
    block product added per point. (Its value at 0 is never consulted.) -/
def acc0_0 (c : Dev nD) : ℕ → Vec F S2048x32 .f32
  | 0 => k0_pay1
  | n + 1 => if h : n < cfg0.N then
      k0_pay5 (iblk0 V c 1 ⟨n, h⟩) (iblk0 V c 3 ⟨n, h⟩) (iblk0 V c 0 ⟨n, h⟩) (if n % 16 = 0 then k0_pay1 else acc0_0 c n)
    else k0_pay1
/-- The second accumulator, likewise, through the second stack's weights. -/
def acc0_1 (c : Dev nD) : ℕ → Vec F S2048x32 .f32
  | 0 => k0_pay2
  | n + 1 => if h : n < cfg0.N then
      k0_pay6 (iblk0 V c 1 ⟨n, h⟩) (iblk0 V c 4 ⟨n, h⟩) (iblk0 V c 0 ⟨n, h⟩) (if n % 16 = 0 then k0_pay2 else acc0_1 c n)
    else k0_pay2

theorem acc0_0_succ (c : Dev nD) (t : Fin cfg0.N) : acc0_0 V c (t.val + 1)
    = k0_pay5 (iblk0 V c 1 t) (iblk0 V c 3 t) (iblk0 V c 0 t) (if t.val % 16 = 0 then k0_pay1 else acc0_0 V c t.val) := by
  rw [acc0_0, dif_pos t.isLt]
theorem acc0_1_succ (c : Dev nD) (t : Fin cfg0.N) : acc0_1 V c (t.val + 1)
    = k0_pay6 (iblk0 V c 1 t) (iblk0 V c 4 t) (iblk0 V c 0 t) (if t.val % 16 = 0 then k0_pay2 else acc0_1 V c t.val) := by
  rw [acc0_1, dif_pos t.isLt]

/-- The two accumulators as whole buffers of the kernel's own. -/
abbrev scM0_0 : Memref sig .tc .vmem S2048x32 .f32 := Memref.whole cc0_scratch0
abbrev scM0_1 : Memref sig .tc .vmem S2048x32 .f32 := Memref.whole cc0_scratch1

/-- The core's other scoped buffers (the second kernel's), each whole at some contents: untouched by this region. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg10_1), ((c : Thread nD τ).loc cc1_stg10_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- What is carried from point to point: the two accumulators, holding the partial sums except right after a row
    block's last point (where the next point clears them and nothing is claimed), and the untouched rest. -/
def Phi0 (c : Dev nD) (t : Fin (cfg0.N + 1)) : sProp 𝕄 :=
  iprop((∃ s, ⌜t.val % 16 ≠ 0 → s = acc0_0 V c t.val⌝ ∗ owns (c : Thread nD τ) scM0_0 fullShare s)
    ∗ (∃ s, ⌜t.val % 16 ≠ 0 → s = acc0_1 V c t.val⌝ ∗ owns (c : Thread nD τ) scM0_1 fullShare s)
    ∗ rest0 c)

/-- The region's proof data on core c. The node features reach the kernel through two windows (the rows a column
    block names, and the rows of the output block): each holds one half of the array's share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => k0_pay8 (iblk0 V c 2 t) (iblk0 V c 5 t) (acc0_0 V c (t.val + 1)) (iblk0 V c 7 t)
    | ⟨10, _⟩ => k0_pay9 (iblk0 V c 2 t) (iblk0 V c 6 t) (acc0_1 V c (t.val + 1)) (iblk0 V c 8 t)
  Φ t := Phi0 V c t
  q w := match w with
    | ⟨0, _⟩ => fullShare | ⟨1, _⟩ => fullShare.left | ⟨2, _⟩ => fullShare.right | ⟨3, _⟩ => fullShare | ⟨4, _⟩ => fullShare | ⟨5, _⟩ => fullShare
    | ⟨6, _⟩ => fullShare | ⟨7, _⟩ => fullShare | ⟨8, _⟩ => fullShare | ⟨9, _⟩ => fullShare | ⟨10, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = k0_pay8 (iblk0 V c 2 t) (iblk0 V c 5 t) (acc0_0 V c (t.val + 1)) (iblk0 V c 7 t) := by dsimp only [dat0]
theorem after0_10 (c : Dev nD) (t : Fin cfg0.N) : (dat0 V c).after 10 t = k0_pay9 (iblk0 V c 2 t) (iblk0 V c 6 t) (acc0_1 V c (t.val + 1)) (iblk0 V c 8 t) := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d
theorem before0_8 (c : Dev nD) (t : Fin cfg0.N) (d) : (dat0 V c).before 8 t d = iblk0 V c 8 t := before0_8_of V (dat0 V c) (A_eq0 V c 8) (after0_8 V c) t d

/-! ## The two tests over the grid -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)
/-- Away from a row block's last point the output windows are idle and not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

end Region0

end Cert.Kernel.Gen

end
-- ==== Proof.BitsOblig0.lean ====
import proofs.«160956_j71236327571877_2_alg».proof.Proof.Gen.Kernel.Launch
import proofs.«160956_j71236327571877_2_alg».proof.Proof.Gen.Kernel.Skeleton
import proofs.«160956_j71236327571877_2_alg».proof.Proof.Gen.Kernel.Points
import proofs.«160956_j71236327571877_2_alg».proof.Proof.BitsBody0
import proofs.«160956_j71236327571877_2_alg».proof.Proof.BitsData0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body at every grid point

At point t the pipeline hands the body each window's current buffer and the two accumulators; by the point's
second coordinate one of three runs applies. What it leaves is the proof data's next entry: the accumulators
with one more block product (from zero at a row block's first point), and at a row block's last point the two
output buffers at the rectified sums. -/

section Region0

variable (V : (c : Dev nD) → (b : Ref sig .tc) → Buf (Elt F) ((c : Thread nD τ).loc b))

/-- What the body is called with at point t, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns: the inputs in place, an output written at a row block's last point and handed back as found elsewhere. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ (dat0 V c).leavesExact 9 t ∗ (dat0 V c).leavesExact 10 t)

/-- A point inside a row block: one block product more in each accumulator. -/
theorem sound_body0_mid (c : Dev nD) (t : Fin cfg0.N) (h0 : ¬cond0_0 (grid0.coords t)) (h1 : ¬cond0_1 (grid0.coords t)) :
    bodyPre0 V c t ⊢ wp frame (wpE (defs₀ (F := F)) Variants.none c none) Set.univ (bodyAt0 t) (fun _ => bodyPost0 V c t) := by
  have hm0 : t.val % 16 ≠ 0 := fun e => h0 ((hcond0_0 t).mpr e)
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    show (dat0 V c).Φ t.succ = Phi0 V c t.succ from rfl, show (dat0 V c).Φ t.castSucc = Phi0 V c t.castSucc from rfl,
    after0_0, after0_1, after0_2, after0_3, after0_4, after0_5, after0_6, after0_7, after0_8,
    Dat.leavesExact_idle _ 9 t (idleAt0_9 t h1) (noFlush0_9 t h1), Dat.leavesExact_idle _ 10 t (idleAt0_10 t h1) (noFlush0_10 t h1)]
  unfold Phi0
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e0 := hs0 hm0; have e1 := hs1 hm0; subst e0; subst e1
  iapply (sound_kernel0_mid c (grid0.coords t) h0 h1 Set.univ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) (acc0_0 V c t.val) (acc0_1 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg0.N + 1)).val = t.val + 1 from rfl, acc0_0_succ, if_neg hm0]
    isplitl [HS1]
    · iexists _; isplitr; swap; · iexact HS1
      ipureintro; intro _; rw [show (t.succ : Fin (cfg0.N + 1)).val = t.val + 1 from rfl, acc0_1_succ, if_neg hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

/-- A row block's first point: the accumulators start from zero. -/
theorem sound_body0_first (c : Dev nD) (t : Fin cfg0.N) (h0 : cond0_0 (grid0.coords t)) (h1 : ¬cond0_1 (grid0.coords t)) :
    bodyPre0 V c t ⊢ wp frame (wpE (defs₀ (F := F)) Variants.none c none) Set.univ (bodyAt0 t) (fun _ => bodyPost0 V c t) := by
  have hm0 : t.val % 16 = 0 := (hcond0_0 t).mp h0
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    show (dat0 V c).Φ t.succ = Phi0 V c t.succ from rfl, show (dat0 V c).Φ t.castSucc = Phi0 V c t.castSucc from rfl,
    after0_0, after0_1, after0_2, after0_3, after0_4, after0_5, after0_6, after0_7, after0_8,
    Dat.leavesExact_idle _ 9 t (idleAt0_9 t h1) (noFlush0_9 t h1), Dat.leavesExact_idle _ 10 t (idleAt0_10 t h1) (noFlush0_10 t h1)]
  unfold Phi0
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0_first c (grid0.coords t) h0 h1 Set.univ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg0.N + 1)).val = t.val + 1 from rfl, acc0_0_succ, if_pos hm0]
    isplitl [HS1]
    · iexists _; isplitr; swap; · iexact HS1
      ipureintro; intro _; rw [show (t.succ : Fin (cfg0.N + 1)).val = t.val + 1 from rfl, acc0_1_succ, if_pos hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

/-- A row block's last point: the last block product, then the two outputs from the full sums. -/
theorem sound_body0_last (c : Dev nD) (t : Fin cfg0.N) (h0 : ¬cond0_0 (grid0.coords t)) (h1 : cond0_1 (grid0.coords t)) :
    bodyPre0 V c t ⊢ wp frame (wpE (defs₀ (F := F)) Variants.none c none) Set.univ (bodyAt0 t) (fun _ => bodyPost0 V c t) := by
  have hm0 : t.val % 16 ≠ 0 := fun e => h0 ((hcond0_0 t).mpr e)
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    show (dat0 V c).Φ t.succ = Phi0 V c t.succ from rfl, show (dat0 V c).Φ t.castSucc = Phi0 V c t.castSucc from rfl,
    after0_0, after0_1, after0_2, after0_3, after0_4, after0_5, after0_6, after0_7, after0_8,
    show (dat0 V c).leavesExact 9 t = owns (c : Thread nD τ) (st0_9 t) fullShare ((dat0 V c).after 9 t) from by unfold Dat.leavesExact; rw [liveAt0_9 t h1],
    show (dat0 V c).leavesExact 10 t = owns (c : Thread nD τ) (st0_10 t) fullShare ((dat0 V c).after 10 t) from by unfold Dat.leavesExact; rw [liveAt0_10 t h1],
    after0_9, after0_10, acc0_0_succ, acc0_1_succ, if_neg hm0, if_neg hm0]
  unfold Phi0
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e0 := hs0 hm0; have e1 := hs1 hm0; subst e0; subst e1
  iapply (sound_kernel0_last c (grid0.coords t) h0 h1 Set.univ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) (acc0_0 V c t.val) (acc0_1 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg0.N + 1)).val = t.val + 1 from rfl, acc0_0_succ, if_neg hm0]
    isplitl [HS1]
    · iexists _; isplitr; swap; · iexact HS1
      ipureintro; intro _; rw [show (t.succ : Fin (cfg0.N + 1)).val = t.val + 1 from rfl, acc0_1_succ, if_neg hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point: by the point's second coordinate. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : cond0_0 (grid0.coords t)
  · by_cases h1 : cond0_1 (grid0.coords t)
    · exact absurd ((hcond0_1 t).mp h1) (by have := (hcond0_0 t).mp h0; omega)
    · exact sound_body0_first V c t h0 h1
  · by_cases h1 : cond0_1 (grid0.coords t)
    · exact sound_body0_last V c t h0 h1
    · exact sound_body0_mid V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.BitsShare0.lean ====
import proofs.«160956_j71236327571877_2_alg».proof.Proof.Gen.Kernel.Launch
import proofs.«160956_j71236327571877_2_alg».proof.Proof.Gen.Kernel.Skeleton
import proofs.«160956_j71236327571877_2_alg».proof.Proof.Gen.Kernel.Points
import proofs.«160956_j71236327571877_2_alg».proof.Proof.BitsData0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One array behind two windows

The node features reach the first kernel through two windows. The region's ten distinct arrays, each held whole,
are the eleven windows' arrays once the node features' buffer is split into its two half shares; and back. -/

section Region0

variable (V : (c : Dev nD) → (b : Ref sig .tc) → Buf (Elt F) ((c : Thread nD τ).loc b))

/-- The ten distinct arrays behind the eleven windows, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg1) ↦{fullShare} V' main_arg1)
        ∗ (((c : Thread nD τ).loc main_arg0) ↦{fullShare} V' main_arg0)
        ∗ (((c : Thread nD τ).loc main_arg2) ↦{fullShare} V' main_arg2)
        ∗ (((c : Thread nD τ).loc main_arg8) ↦{fullShare} V' main_arg8)
        ∗ (((c : Thread nD τ).loc main_arg3) ↦{fullShare} V' main_arg3)
        ∗ (((c : Thread nD τ).loc main_arg9) ↦{fullShare} V' main_arg9)
        ∗ (((c : Thread nD τ).loc main_v0) ↦{fullShare} V' main_v0)
        ∗ (((c : Thread nD τ).loc main_v1) ↦{fullShare} V' main_v1)
        ∗ (((c : Thread nD τ).loc main_v2_0) ↦{fullShare} V' main_v2_0)
        ∗ (((c : Thread nD τ).loc main_v2_1) ↦{fullShare} V' main_v2_1)) := by
  unfold Pipeline.arrBufs
  exact bigSep_eq_bigSepL_of_eq [main_arg1, main_arg0, main_arg2, main_arg8, main_arg3, main_arg9, main_v0, main_v1, main_v2_0, main_v2_1] (by decide) (by decide) _

/-- A window's array, a whole buffer, held through its view is the buffer held. -/
theorem arr0_pt (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = (((c : Thread nD τ).loc (Pipeline.arrRef spec0 w)) ↦{q} f) := by
  rw [(arr_whole0 w).set_eq_univ]

/-! The share each window holds its array at: an output's is full; an input's is the proof data's. -/
theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl
theorem share0_9 (c : Dev nD) : (dat0 V c).share 9 = fullShare := rfl
theorem share0_10 (c : Dev nD) : (dat0 V c).share 10 = fullShare := rfl

/-- The eleven windows' arrays, one by one, each at its share: the node features at one half per window. -/
theorem arrays0_eq (c : Dev nD) (Fw : (w : Fin cfg0.W) → Buf (Elt F) ((cfg0.win w).arr.view.loc (c : Thread nD τ))) :
    ((dat0 V c).arrays Fw : sProp 𝕄)
      = iprop((((c : Thread nD τ).loc main_arg1) ↦{fullShare} Fw 0)
        ∗ (((c : Thread nD τ).loc main_arg0) ↦{fullShare.left} Fw 1)
        ∗ (((c : Thread nD τ).loc main_arg0) ↦{fullShare.right} Fw 2)
        ∗ (((c : Thread nD τ).loc main_arg2) ↦{fullShare} Fw 3)
        ∗ (((c : Thread nD τ).loc main_arg8) ↦{fullShare} Fw 4)
        ∗ (((c : Thread nD τ).loc main_arg3) ↦{fullShare} Fw 5)
        ∗ (((c : Thread nD τ).loc main_arg9) ↦{fullShare} Fw 6)
        ∗ (((c : Thread nD τ).loc main_v0) ↦{fullShare} Fw 7)
        ∗ (((c : Thread nD τ).loc main_v1) ↦{fullShare} Fw 8)
        ∗ (((c : Thread nD τ).loc main_v2_0) ↦{fullShare} Fw 9)
        ∗ (((c : Thread nD τ).loc main_v2_1) ↦{fullShare} Fw 10)) := by
  unfold Dat.arrays
  rw [bigSep_W0]
  simp only [Memref.view_whole, View.set_whole, share0_0, share0_1, share0_2, share0_3, share0_4, share0_5, share0_6, share0_7, share0_8, share0_9, share0_10]

/-- The arrays held whole make the windows' arrays, at any contents that are the buffers'. -/
theorem hsplit0 (c : Dev nD) (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w)) :
    (Pipeline.arrBufs (Ix := Unit) (Name := ℕ) (U := UR sig nD τ) (Lvl := ℕ) spec0 c V' : sProp 𝕄) ⊢ (dat0 V c).arrays Fw := by
  rw [arrBufs0_eq, arrays0_eq, hF 0, hF 1, hF 2, hF 3, hF 4, hF 5, hF 6, hF 7, hF 8, hF 9, hF 10]
  iintro ⟨H1, H0, H2, H8, H3, H9, Hv0, Hv1, Ho0, Ho1⟩
  ihave H0' := (pointsTo_share (PosShare.mem_left_op_right fullShare)).1 $$ H0
  icases H0' with ⟨Ha, Hb⟩
  isplitl [H1]; · iexact H1
  isplitl [Ha]; · iexact Ha
  isplitl [Hb]; · iexact Hb
  isplitl [H2]; · iexact H2
  isplitl [H8]; · iexact H8
  isplitl [H3]; · iexact H3
  isplitl [H9]; · iexact H9
  isplitl [Hv0]; · iexact Hv0
  isplitl [Hv1]; · iexact Hv1
  isplitl [Ho0]; · iexact Ho0
  iexact Ho1

/-- And back: the windows' arrays make the arrays held whole. -/
theorem hjoin0 (c : Dev nD) (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w)) :
    ((dat0 V c).arrays Fw : sProp 𝕄) ⊢ Pipeline.arrBufs (Ix := Unit) (Name := ℕ) (U := UR sig nD τ) (Lvl := ℕ) spec0 c V' := by
  rw [arrBufs0_eq, arrays0_eq, hF 0, hF 1, hF 2, hF 3, hF 4, hF 5, hF 6, hF 7, hF 8, hF 9, hF 10]
  iintro ⟨H1, Ha, Hb, H2, H8, H3, H9, Hv0, Hv1, Ho0, Ho1⟩
  isplitl [H1]; · iexact H1
  isplitl [Ha Hb]
  · iapply (pointsTo_share (PosShare.mem_left_op_right fullShare)).2
    isplitl [Ha]; · iexact Ha
    iexact Hb
  isplitl [H2]; · iexact H2
  isplitl [H8]; · iexact H8
  isplitl [H3]; · iexact H3
  isplitl [H9]; · iexact H9
  isplitl [Hv0]; · iexact Hv0
  isplitl [Hv1]; · iexact Hv1
  isplitl [Ho0]; · iexact Ho0
  iexact Ho1

end Region0

end Cert.Kernel.Gen

end
-- ==== Proof.BitsSeg0.lean ====
import proofs.«160956_j71236327571877_2_alg».proof.Proof.Gen.Kernel.Launch
import proofs.«160956_j71236327571877_2_alg».proof.Proof.Gen.Kernel.Skeleton
import proofs.«160956_j71236327571877_2_alg».proof.Proof.Gen.Kernel.Points
import proofs.«160956_j71236327571877_2_alg».proof.Proof.BitsOblig0
import proofs.«160956_j71236327571877_2_alg».proof.Proof.BitsShare0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving the first kernel's region

Between two items of the program a core holds every unscoped buffer whole at a valuation W. Entering the region
splits off the windows' arrays (the node features' buffer into its two halves); leaving it puts them back, the
two output arrays now at what the write-backs left and every other buffer as it was. The accumulators enter the
point-to-point invariant from the scoped buffers at contents nobody names, and go back there at the end. -/

section Region0

variable (W : Dev nD → Valuation τ sig (Elt F))

/-- The valuation read at the TensorCore's references: what the region's proof data take. -/
abbrev rdV (c : Dev nD) (b : Ref sig .tc) : Buf (Elt F) ((c : Thread nD τ).loc b) := W c b

/-- What the region leaves in its first output array, -/
def outA0 (c : Dev nD) : Buf (Elt F) ((c : Thread nD τ).loc main_v2_0) := (dat0 (rdV W) c).arrAt 9 cfg0.N
/-- and in its second. -/
def outB0 (c : Dev nD) : Buf (Elt F) ((c : Thread nD τ).loc main_v2_1) := (dat0 (rdV W) c).arrAt 10 cfg0.N

/-- The valuation after the region: the two output arrays replaced, everything else as entered. -/
def exitV0 (c : Dev nD) : Valuation τ sig (Elt F) :=
  Function.update (Function.update (W c) main_v2_0 (outA0 W c)) main_v2_1 (outB0 W c)

theorem exitV0_A (c : Dev nD) : exitV0 W c main_v2_0 = outA0 W c := by
  unfold exitV0
  rw [Function.update_of_ne (StableHlo.devRef_ne_of_ne (by decide) : (Proc.devRef .tc main_v2_0 : DevRef τ sig) ≠ Proc.devRef .tc main_v2_1), Function.update_self]
theorem exitV0_B (c : Dev nD) : exitV0 W c main_v2_1 = outB0 W c := by
  unfold exitV0; rw [Function.update_self]
theorem exitV0_of_ne (c : Dev nD) (b : Ref sig .tc) (h0 : b ≠ main_v2_0) (h1 : b ≠ main_v2_1) : exitV0 W c b = W c b := by
  unfold exitV0
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]

/-- ENTRY: the unscoped buffers at W are the windows' arrays at the entry contents and the rest. -/
theorem entry0 (c : Dev nD) :
    (StableHlo.held (c : Thread nD τ) (Pipeline.ucRefs τ sig) (W c) : sProp 𝕄)
      ⊢ iprop((dat0 (rdV W) c).arrays ((dat0 (rdV W) c).arrAt · 0)
          ∗ Pipeline.unscopedRest (Ix := Unit) (Name := ℕ) (U := UR sig nD τ) (Lvl := ℕ) spec0 c (rdV W c)) := by
  rw [← Pipeline.unscopedBufs_held (Ix := Unit) (Name := ℕ) (U := UR sig nD τ) (Lvl := ℕ) c (W c),
    Pipeline.unscopedBufs_split₀ cfgs 0 winFacts₀0.arr_unscoped c]
  exact sep_mono (hsplit0 (rdV W) c (rdV W c) _ (fun _ => rfl)) .rfl

/-- Each window's array after the last point is what the exit valuation holds there. -/
theorem exitF0 (c : Dev nD) : ∀ w : Fin cfg0.W, (dat0 (rdV W) c).arrAt w cfg0.N = exitV0 W c (Pipeline.arrRef spec0 w)
  | ⟨0, _⟩ => ((dat0 (rdV W) c).arrAt_in 0 rfl _).trans (exitV0_of_ne W c _ (by decide) (by decide)).symm
  | ⟨1, _⟩ => ((dat0 (rdV W) c).arrAt_in 1 rfl _).trans (exitV0_of_ne W c _ (by decide) (by decide)).symm
  | ⟨2, _⟩ => ((dat0 (rdV W) c).arrAt_in 2 rfl _).trans (exitV0_of_ne W c _ (by decide) (by decide)).symm
  | ⟨3, _⟩ => ((dat0 (rdV W) c).arrAt_in 3 rfl _).trans (exitV0_of_ne W c _ (by decide) (by decide)).symm
  | ⟨4, _⟩ => ((dat0 (rdV W) c).arrAt_in 4 rfl _).trans (exitV0_of_ne W c _ (by decide) (by decide)).symm
  | ⟨5, _⟩ => ((dat0 (rdV W) c).arrAt_in 5 rfl _).trans (exitV0_of_ne W c _ (by decide) (by decide)).symm
  | ⟨6, _⟩ => ((dat0 (rdV W) c).arrAt_in 6 rfl _).trans (exitV0_of_ne W c _ (by decide) (by decide)).symm
  | ⟨7, _⟩ => ((dat0 (rdV W) c).arrAt_in 7 rfl _).trans (exitV0_of_ne W c _ (by decide) (by decide)).symm
  | ⟨8, _⟩ => ((dat0 (rdV W) c).arrAt_in 8 rfl _).trans (exitV0_of_ne W c _ (by decide) (by decide)).symm
  | ⟨9, _⟩ => (exitV0_A W c).symm
  | ⟨10, _⟩ => (exitV0_B W c).symm

/-- EXIT: the windows' arrays after the last point and the rest are the unscoped buffers at the exit valuation. -/
theorem exit0 (c : Dev nD) :
    iprop((dat0 (rdV W) c).arrays ((dat0 (rdV W) c).arrAt · cfg0.N)
        ∗ Pipeline.unscopedRest (Ix := Unit) (Name := ℕ) (U := UR sig nD τ) (Lvl := ℕ) spec0 c (rdV W c))
      ⊢ (StableHlo.held (c : Thread nD τ) (Pipeline.ucRefs τ sig) (exitV0 W c) : sProp 𝕄) := by
  rw [← Pipeline.unscopedBufs_held (Ix := Unit) (Name := ℕ) (U := UR sig nD τ) (Lvl := ℕ) c (exitV0 W c),
    Pipeline.unscopedBufs_split₀ cfgs 0 winFacts₀0.arr_unscoped c]
  refine sep_mono (hjoin0 (rdV W) c (fun b => exitV0 W c b) _ (exitF0 W c)) (Entails.of_eq ?_)
  unfold Pipeline.unscopedRest
  refine bigSep_congr fun b hb => ?_
  have hb' := (Finset.mem_sdiff.mp hb).2
  dsimp only
  rw [exitV0_of_ne W c b (fun e => hb' (Finset.mem_image.mpr ⟨9, Finset.mem_univ _, e.symm⟩))
    (fun e => hb' (Finset.mem_image.mpr ⟨10, Finset.mem_univ _, e.symm⟩))]

variable (V : (c : Dev nD) → (b : Ref sig .tc) → Buf (Elt F) ((c : Thread nD τ).loc b))

/-- The scoped buffers no window stages, at contents nobody names, make the invariant before the first point. -/
theorem Phi0_of_scoped (c : Dev nD) :
    (Pipeline.scopedRest (Ix := Unit) (Name := ℕ) (U := UR sig nD τ) (Lvl := ℕ) (Val := Elt F) spec0 c : sProp 𝕄) ⊢ Phi0 V c 0 := by
  rw [scopedRest0_eq]; unfold Phi0 rest0
  simp only [scM0_0, scM0_1, owns_whole]
  iintro ⟨⟨%f0, H0⟩, ⟨%f1, H1⟩, HR⟩
  isplitl [H0]
  · iexists f0; isplitr; · ipureintro; intro h; exact absurd (by rw [Fin.val_zero]) h
    iexact H0
  isplitl [H1]
  · iexists f1; isplitr; · ipureintro; intro h; exact absurd (by rw [Fin.val_zero]) h
    iexact H1
  iexact HR

/-- The invariant at any point gives those buffers back. -/
theorem scoped_of_Phi0 (c : Dev nD) (t : Fin (cfg0.N + 1)) :
    Phi0 V c t ⊢ (Pipeline.scopedRest (Ix := Unit) (Name := ℕ) (U := UR sig nD τ) (Lvl := ℕ) (Val := Elt F) spec0 c : sProp 𝕄) := by
  rw [scopedRest0_eq]; unfold Phi0 rest0
  simp only [scM0_0, scM0_1, owns_whole]
  iintro ⟨⟨%s0, -, H0⟩, ⟨%s1, -, H1⟩, HR⟩
  isplitl [H0]; · iexists s0; iexact H0
  isplitl [H1]; · iexists s1; iexact H1
  iexact HR

end Region0

end Cert.Kernel.Gen

end
-- ==== Proof.BitsBody1.lean ====
import proofs.«160956_j71236327571877_2_alg».proof.Proof.BitsBody0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body on any whole staging buffers

The body reads ten input buffers (a 2048×1024 block of the operator, the 1024 rows of each stack's first-layer states the
block's columns name, the 2048 rows of node features of the output block, each stack's two weight matrices and its bias
row), two accumulators it owns, and one output buffer. What it does depends on the point's second coordinate only
through two tests, "is it 0" and "is it 15"; the three cases the grid meets are run here, each once, on arbitrary whole
buffers, with the arithmetic left as the named payload terms. -/

/-- "The second grid coordinate is 0", as the body computes it. -/
abbrev cond1_0 (i : grid1.Coords) : Prop := (Scalar.cmpi .ne (Scalar.extui (Scalar.cmpi .eq (BitVec.ofNat 32 (i 1).val) 0#32)) 0#32) = 1#1
/-- "The second grid coordinate is 15", as the body computes it. -/
abbrev cond1_1 (i : grid1.Coords) : Prop := k1_cond2 i = 1#1

/-! A load through the whole rectangle reads the buffer's contents as they are, at the two shapes only this body meets. -/
theorem ldz_1024x32 (inb) (X : S1024x32.Idx → Elt F .f32) : View.ld X (Rect.unit (s := S1024x32) ![0, 0] ![1024, 32] inb) = X := View.ld_unit_zero (S := S1024x32) hz2 inb X
theorem ldz_32x32 (inb) (X : S32x32.Idx → Elt F .f32) : View.ld X (Rect.unit (s := S32x32) ![0, 0] ![32, 32] inb) = X := View.ld_unit_zero (S := S32x32) hz2 inb X

set_option maxHeartbeats 1000000 in
/-- At a grid point whose second coordinate is neither 0 nor 15 the body adds the point's block product to each accumulator; the output buffer is not touched. -/
theorem sound_kernel1_mid (c : Dev nD) (i : grid1.Coords) (hc0 : ¬ cond1_0 i) (hc1 : ¬ cond1_1 i) (E : Set ℕ)
    (arg2 : Memref sig .tc .vmem S2048x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S2048x64 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S64x32 .f32) (harg8 : arg8.IsWhole) (arg9 : Memref sig .tc .vmem S64x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 x4 : Vec F S1024x32 .f32) (x5 : Vec F S2048x64 .f32) (x6 x7 : Vec F S32x32 .f32) (x8 x9 : Vec F S64x32 .f32) (x10 x11 : Vec F S1x32 .f32)
    (o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare (k1_pay5 x3 x6 x2 s13)
        ∗ owns (c : Thread nD τ) arg14 fullShare (k1_pay6 x4 x7 x2 s14)) -∗ K ⟨⟩))
      ⊢ wp frame (wpE (defs₀ (F := F)) Variants.none c none) E (cc1__gcs_kernel1 i arg2 harg2 arg3 harg3 arg4 harg4 arg5 harg5 arg6 harg6 arg7 harg7 arg8 harg8 arg9 harg9 arg10 harg10 arg11 harg11 arg12 harg12 arg13 harg13 arg14 harg14) K := by
  simp only [cc1__gcs_kernel1_eq_skeleton]; unfold cc1__gcs_kernel1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]

set_option maxHeartbeats 1000000 in
/-- At a grid point whose second coordinate is 0 (and not 15) the body clears both accumulators and adds the point's block product to each; the output buffer is not touched. -/
theorem sound_kernel1_first (c : Dev nD) (i : grid1.Coords) (hc0 : cond1_0 i) (hc1 : ¬ cond1_1 i) (E : Set ℕ)
    (arg2 : Memref sig .tc .vmem S2048x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S2048x64 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S64x32 .f32) (harg8 : arg8.IsWhole) (arg9 : Memref sig .tc .vmem S64x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 x4 : Vec F S1024x32 .f32) (x5 : Vec F S2048x64 .f32) (x6 x7 : Vec F S32x32 .f32) (x8 x9 : Vec F S64x32 .f32) (x10 x11 : Vec F S1x32 .f32)
    (o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare (k1_pay5 x3 x6 x2 k1_pay2)
        ∗ owns (c : Thread nD τ) arg14 fullShare (k1_pay6 x4 x7 x2 k1_pay3)) -∗ K ⟨⟩))
      ⊢ wp frame (wpE (defs₀ (F := F)) Variants.none c none) E (cc1__gcs_kernel1 i arg2 harg2 arg3 harg3 arg4 harg4 arg5 harg5 arg6 harg6 arg7 harg7 arg8 harg8 arg9 harg9 arg10 harg10 arg11 harg11 arg12 harg12 arg13 harg13 arg14 harg14) K := by
  simp only [cc1__gcs_kernel1_eq_skeleton]; unfold cc1__gcs_kernel1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]

set_option maxHeartbeats 1000000 in
/-- At a grid point whose second coordinate is 15 (and not 0) the body adds the point's block product to each accumulator and then stores, into the output buffer, the half of the sum of the two stacks' rectified sums of accumulator, skip term and bias. -/
theorem sound_kernel1_last (c : Dev nD) (i : grid1.Coords) (hc0 : ¬ cond1_0 i) (hc1 : cond1_1 i) (E : Set ℕ)
    (arg2 : Memref sig .tc .vmem S2048x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S2048x64 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S64x32 .f32) (harg8 : arg8.IsWhole) (arg9 : Memref sig .tc .vmem S64x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 x4 : Vec F S1024x32 .f32) (x5 : Vec F S2048x64 .f32) (x6 x7 : Vec F S32x32 .f32) (x8 x9 : Vec F S64x32 .f32) (x10 x11 : Vec F S1x32 .f32)
    (o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare (k1_pay1 x5 x8 x9 (k1_pay5 x3 x6 x2 s13) x10 (k1_pay6 x4 x7 x2 s14) x11)
        ∗ owns (c : Thread nD τ) arg13 fullShare (k1_pay5 x3 x6 x2 s13)
        ∗ owns (c : Thread nD τ) arg14 fullShare (k1_pay6 x4 x7 x2 s14)) -∗ K ⟨⟩))
      ⊢ wp frame (wpE (defs₀ (F := F)) Variants.none c none) E (cc1__gcs_kernel1 i arg2 harg2 arg3 harg3 arg4 harg4 arg5 harg5 arg6 harg6 arg7 harg7 arg8 harg8 arg9 harg9 arg10 harg10 arg11 harg11 arg12 harg12 arg13 harg13 arg14 harg14) K := by
  simp only [cc1__gcs_kernel1_eq_skeleton]; unfold cc1__gcs_kernel1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]
  isplitl [H13]
  · iexists _; isplitr
    swap; · iexact H13
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]

end Cert.Kernel.Gen

end
-- ==== Proof.BitsData1.lean ====
import proofs.«160956_j71236327571877_2_alg».proof.Proof.Gen.Kernel.Launch
import proofs.«160956_j71236327571877_2_alg».proof.Proof.Gen.Kernel.Skeleton
import proofs.«160956_j71236327571877_2_alg».proof.Proof.Gen.Kernel.Points
import proofs.«160956_j71236327571877_2_alg».proof.Proof.BitsBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's region: what every buffer holds at every grid point

The grid has 8 × 16 points; point t = 16·i + k works on the 2048 rows of row block i and the 1024 columns of
column block k. Every input window's buffer holds its block of the array the region found (V). The two
accumulators are cleared at k = 0 and gain one block product per point, so after point t they hold the partial
sum over the column blocks 0 … k of row block i; the output buffer is written at k = 15 only, with the half of
the sum of the two stacks' rectified full sums. All of it is stated at the contents V the region is entered with,
whatever they are. -/

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point, fetched there or not: a window that is not fetched
    at a point has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The first accumulator after the points below n: cleared at the first column block of each row block, then one
    block product added per point. (Its value at 0 is never consulted.) -/
def acc1_0 (c : Dev nD) : ℕ → Vec F S2048x32 .f32
  | 0 => k1_pay2
  | n + 1 => if h : n < cfg1.N then
      k1_pay5 (iblk1 V c 1 ⟨n, h⟩) (iblk1 V c 4 ⟨n, h⟩) (iblk1 V c 0 ⟨n, h⟩) (if n % 16 = 0 then k1_pay2 else acc1_0 c n)
    else k1_pay2
/-- The second accumulator, likewise, through the second stack's states and weights. -/
def acc1_1 (c : Dev nD) : ℕ → Vec F S2048x32 .f32
  | 0 => k1_pay3
  | n + 1 => if h : n < cfg1.N then
      k1_pay6 (iblk1 V c 2 ⟨n, h⟩) (iblk1 V c 5 ⟨n, h⟩) (iblk1 V c 0 ⟨n, h⟩) (if n % 16 = 0 then k1_pay3 else acc1_1 c n)
    else k1_pay3

theorem acc1_0_succ (c : Dev nD) (t : Fin cfg1.N) : acc1_0 V c (t.val + 1)
    = k1_pay5 (iblk1 V c 1 t) (iblk1 V c 4 t) (iblk1 V c 0 t) (if t.val % 16 = 0 then k1_pay2 else acc1_0 V c t.val) := by
  rw [acc1_0, dif_pos t.isLt]
theorem acc1_1_succ (c : Dev nD) (t : Fin cfg1.N) : acc1_1 V c (t.val + 1)
    = k1_pay6 (iblk1 V c 2 t) (iblk1 V c 5 t) (iblk1 V c 0 t) (if t.val % 16 = 0 then k1_pay3 else acc1_1 V c t.val) := by
  rw [acc1_1, dif_pos t.isLt]

/-- The two accumulators as whole buffers of the kernel's own. -/
abbrev scM1_0 : Memref sig .tc .vmem S2048x32 .f32 := Memref.whole cc1_scratch0
abbrev scM1_1 : Memref sig .tc .vmem S2048x32 .f32 := Memref.whole cc1_scratch1

/-- The core's other scoped buffers (the first kernel's), each whole at some contents: untouched by this region. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f)
    ∗ (∃ f : Buf (Elt F) ((c : Thread nD τ).loc cc0_stg10_0), ((c : Thread nD τ).loc cc0_stg10_0) ↦{fullShare} f)
    ∗ (∃ f : Buf (Elt F) ((c : Thread nD τ).loc cc0_stg10_1), ((c : Thread nD τ).loc cc0_stg10_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What is carried from point to point: the two accumulators, holding the partial sums except right after a row
    block's last point (where the next point clears them and nothing is claimed), and the untouched rest. -/
def Phi1 (c : Dev nD) (t : Fin (cfg1.N + 1)) : sProp 𝕄 :=
  iprop((∃ s, ⌜t.val % 16 ≠ 0 → s = acc1_0 V c t.val⌝ ∗ owns (c : Thread nD τ) scM1_0 fullShare s)
    ∗ (∃ s, ⌜t.val % 16 ≠ 0 → s = acc1_1 V c t.val⌝ ∗ owns (c : Thread nD τ) scM1_1 fullShare s)
    ∗ rest1 c)

/-- The region's proof data on core c. Every window has an array of its own, held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => k1_pay1 (iblk1 V c 3 t) (iblk1 V c 6 t) (iblk1 V c 7 t) (acc1_0 V c (t.val + 1)) (iblk1 V c 8 t) (acc1_1 V c (t.val + 1)) (iblk1 V c 9 t)
  Φ t := Phi1 V c t
  q w := match w with
    | ⟨0, _⟩ => fullShare | ⟨1, _⟩ => fullShare | ⟨2, _⟩ => fullShare | ⟨3, _⟩ => fullShare | ⟨4, _⟩ => fullShare | ⟨5, _⟩ => fullShare
    | ⟨6, _⟩ => fullShare | ⟨7, _⟩ => fullShare | ⟨8, _⟩ => fullShare | ⟨9, _⟩ => fullShare | ⟨10, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = k1_pay1 (iblk1 V c 3 t) (iblk1 V c 6 t) (iblk1 V c 7 t) (acc1_0 V c (t.val + 1)) (iblk1 V c 8 t) (acc1_1 V c (t.val + 1)) (iblk1 V c 9 t) := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d
theorem before1_6 (c : Dev nD) (t : Fin cfg1.N) (d) : (dat1 V c).before 6 t d = iblk1 V c 6 t := before1_6_of V (dat1 V c) (A_eq1 V c 6) (after1_6 V c) t d
theorem before1_7 (c : Dev nD) (t : Fin cfg1.N) (d) : (dat1 V c).before 7 t d = iblk1 V c 7 t := before1_7_of V (dat1 V c) (A_eq1 V c 7) (after1_7 V c) t d
theorem before1_8 (c : Dev nD) (t : Fin cfg1.N) (d) : (dat1 V c).before 8 t d = iblk1 V c 8 t := before1_8_of V (dat1 V c) (A_eq1 V c 8) (after1_8 V c) t d
theorem before1_9 (c : Dev nD) (t : Fin cfg1.N) (d) : (dat1 V c).before 9 t d = iblk1 V c 9 t := before1_9_of V (dat1 V c) (A_eq1 V c 9) (after1_9 V c) t d

/-! ## The two tests over the grid -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)
/-- Away from a row block's last point the output window is idle and not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel

end Region1

end Cert.Kernel.Gen

end
-- ==== Proof.BitsOblig1.lean ====
import proofs.«160956_j71236327571877_2_alg».proof.Proof.Gen.Kernel.Launch
import proofs.«160956_j71236327571877_2_alg».proof.Proof.Gen.Kernel.Skeleton
import proofs.«160956_j71236327571877_2_alg».proof.Proof.Gen.Kernel.Points
import proofs.«160956_j71236327571877_2_alg».proof.Proof.BitsBody1
import proofs.«160956_j71236327571877_2_alg».proof.Proof.BitsData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body at every grid point

At point t the pipeline hands the body each window's current buffer and the two accumulators; by the point's
second coordinate one of three runs applies. What it leaves is the proof data's next entry: the accumulators
with one more block product (from zero at a row block's first point), and at a row block's last point the
output buffer at the half of the sum of the two stacks' rectified sums. -/

section Region1

variable (V : (c : Dev nD) → (b : Ref sig .tc) → Buf (Elt F) ((c : Thread nD τ).loc b))

/-- What the body is called with at point t, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What it returns: the inputs in place, the output written at a row block's last point and handed back as found elsewhere. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ (dat1 V c).leavesExact 10 t)

/-- A point inside a row block: one block product more in each accumulator. -/
theorem sound_body1_mid (c : Dev nD) (t : Fin cfg1.N) (h0 : ¬cond1_0 (grid1.coords t)) (h1 : ¬cond1_1 (grid1.coords t)) :
    bodyPre1 V c t ⊢ wp frame (wpE (defs₀ (F := F)) Variants.none c none) Set.univ (bodyAt1 t) (fun _ => bodyPost1 V c t) := by
  have hm0 : t.val % 16 ≠ 0 := fun e => h0 ((hcond1_0 t).mpr e)
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    show (dat1 V c).Φ t.succ = Phi1 V c t.succ from rfl, show (dat1 V c).Φ t.castSucc = Phi1 V c t.castSucc from rfl,
    after1_0, after1_1, after1_2, after1_3, after1_4, after1_5, after1_6, after1_7, after1_8, after1_9,
    Dat.leavesExact_idle _ 10 t (idleAt1_10 t h1) (noFlush1_10 t h1)]
  unfold Phi1
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e0 := hs0 hm0; have e1 := hs1 hm0; subst e0; subst e1
  iapply (sound_kernel1_mid c (grid1.coords t) h0 h1 Set.univ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 10 t d10) (acc1_0 V c t.val) (acc1_1 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg1.N + 1)).val = t.val + 1 from rfl, acc1_0_succ, if_neg hm0]
    isplitl [HS1]
    · iexists _; isplitr; swap; · iexact HS1
      ipureintro; intro _; rw [show (t.succ : Fin (cfg1.N + 1)).val = t.val + 1 from rfl, acc1_1_succ, if_neg hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- A row block's first point: the accumulators start from zero. -/
theorem sound_body1_first (c : Dev nD) (t : Fin cfg1.N) (h0 : cond1_0 (grid1.coords t)) (h1 : ¬cond1_1 (grid1.coords t)) :
    bodyPre1 V c t ⊢ wp frame (wpE (defs₀ (F := F)) Variants.none c none) Set.univ (bodyAt1 t) (fun _ => bodyPost1 V c t) := by
  have hm0 : t.val % 16 = 0 := (hcond1_0 t).mp h0
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    show (dat1 V c).Φ t.succ = Phi1 V c t.succ from rfl, show (dat1 V c).Φ t.castSucc = Phi1 V c t.castSucc from rfl,
    after1_0, after1_1, after1_2, after1_3, after1_4, after1_5, after1_6, after1_7, after1_8, after1_9,
    Dat.leavesExact_idle _ 10 t (idleAt1_10 t h1) (noFlush1_10 t h1)]
  unfold Phi1
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1_first c (grid1.coords t) h0 h1 Set.univ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 10 t d10) s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg1.N + 1)).val = t.val + 1 from rfl, acc1_0_succ, if_pos hm0]
    isplitl [HS1]
    · iexists _; isplitr; swap; · iexact HS1
      ipureintro; intro _; rw [show (t.succ : Fin (cfg1.N + 1)).val = t.val + 1 from rfl, acc1_1_succ, if_pos hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- A row block's last point: the last block product, then the output from the two full sums. -/
theorem sound_body1_last (c : Dev nD) (t : Fin cfg1.N) (h0 : ¬cond1_0 (grid1.coords t)) (h1 : cond1_1 (grid1.coords t)) :
    bodyPre1 V c t ⊢ wp frame (wpE (defs₀ (F := F)) Variants.none c none) Set.univ (bodyAt1 t) (fun _ => bodyPost1 V c t) := by
  have hm0 : t.val % 16 ≠ 0 := fun e => h0 ((hcond1_0 t).mpr e)
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    show (dat1 V c).Φ t.succ = Phi1 V c t.succ from rfl, show (dat1 V c).Φ t.castSucc = Phi1 V c t.castSucc from rfl,
    after1_0, after1_1, after1_2, after1_3, after1_4, after1_5, after1_6, after1_7, after1_8, after1_9,
    show (dat1 V c).leavesExact 10 t = owns (c : Thread nD τ) (st1_10 t) fullShare ((dat1 V c).after 10 t) from by unfold Dat.leavesExact; rw [liveAt1_10 t h1],
    after1_10, acc1_0_succ, acc1_1_succ, if_neg hm0, if_neg hm0]
  unfold Phi1
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e0 := hs0 hm0; have e1 := hs1 hm0; subst e0; subst e1
  iapply (sound_kernel1_last c (grid1.coords t) h0 h1 Set.univ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 10 t d10) (acc1_0 V c t.val) (acc1_1 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg1.N + 1)).val = t.val + 1 from rfl, acc1_0_succ, if_neg hm0]
    isplitl [HS1]
    · iexists _; isplitr; swap; · iexact HS1
      ipureintro; intro _; rw [show (t.succ : Fin (cfg1.N + 1)).val = t.val + 1 from rfl, acc1_1_succ, if_neg hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point: by the point's second coordinate. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : cond1_0 (grid1.coords t)
  · by_cases h1 : cond1_1 (grid1.coords t)
    · exact absurd ((hcond1_1 t).mp h1) (by have := (hcond1_0 t).mp h0; omega)
    · exact sound_body1_first V c t h0 h1
  · by_cases h1 : cond1_1 (grid1.coords t)
    · exact sound_body1_last V c t h0 h1
    · exact sound_body1_mid V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.BitsSeg1.lean ====
import proofs.«160956_j71236327571877_2_alg».proof.Proof.Gen.Kernel.Launch
import proofs.«160956_j71236327571877_2_alg».proof.Proof.Gen.Kernel.Skeleton
import proofs.«160956_j71236327571877_2_alg».proof.Proof.Gen.Kernel.Points
import proofs.«160956_j71236327571877_2_alg».proof.Proof.BitsOblig1
import proofs.«160956_j71236327571877_2_alg».proof.Proof.BitsSeg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving the second kernel's region

Between two items of the program a core holds every unscoped buffer whole at a valuation W. The second region's
eleven windows have eleven distinct arrays, each held whole, so entering the region only sets them apart from the
other unscoped buffers; leaving it puts them back, the output array now at what the write-backs left and every
other buffer as it was. The accumulators enter the point-to-point invariant from the scoped buffers at contents
nobody names, and go back there at the end. -/

section Region1

variable (W : Dev nD → Valuation τ sig (Elt F))

section Arrays

variable (V : (c : Dev nD) → (b : Ref sig .tc) → Buf (Elt F) ((c : Thread nD τ).loc b))

/-- The eleven distinct arrays behind the eleven windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1)
        ∗ (((c : Thread nD τ).loc main_v2_0) ↦{fullShare} V' main_v2_0)
        ∗ (((c : Thread nD τ).loc main_v2_1) ↦{fullShare} V' main_v2_1)
        ∗ (((c : Thread nD τ).loc main_arg0) ↦{fullShare} V' main_arg0)
        ∗ (((c : Thread nD τ).loc main_arg5) ↦{fullShare} V' main_arg5)
        ∗ (((c : Thread nD τ).loc main_arg11) ↦{fullShare} V' main_arg11)
        ∗ (((c : Thread nD τ).loc main_arg6) ↦{fullShare} V' main_arg6)
        ∗ (((c : Thread nD τ).loc main_arg12) ↦{fullShare} V' main_arg12)
        ∗ (((c : Thread nD τ).loc main_v3) ↦{fullShare} V' main_v3)
        ∗ (((c : Thread nD τ).loc main_v4) ↦{fullShare} V' main_v4)
        ∗ (((c : Thread nD τ).loc main_v5) ↦{fullShare} V' main_v5)) := by
  unfold Pipeline.arrBufs
  exact bigSep_eq_bigSepL_of_eq [main_arg1, main_v2_0, main_v2_1, main_arg0, main_arg5, main_arg11, main_arg6, main_arg12, main_v3, main_v4, main_v5] (by decide) (by decide) _

/-- A window's array, a whole buffer, held through its view is the buffer held. -/
theorem arr1_pt (c : Dev nD) (w : Fin cfg1.W) (q : PosShare TreeShare) (f : Buf (Elt F) ((cfg1.win w).arr.view.loc (c : Thread nD τ))) :
    ((cfg1.win w).arr.view.loc (c : Thread nD τ) ↦[(cfg1.win w).arr.view.set]{q} f : sProp 𝕄)
      = (((c : Thread nD τ).loc (Pipeline.arrRef spec1 w)) ↦{q} f) := by
  rw [(arr_whole1 w).set_eq_univ]

/-! The share each window holds its array at: the full one, every array being one window's alone. -/
theorem share1_0 (c : Dev nD) : (dat1 V c).share 0 = fullShare := rfl
theorem share1_1 (c : Dev nD) : (dat1 V c).share 1 = fullShare := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl
theorem share1_10 (c : Dev nD) : (dat1 V c).share 10 = fullShare := rfl

/-- The eleven windows' arrays, one by one, each whole. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_arg1) ↦{fullShare} Fw 0)
        ∗ (((c : Thread nD τ).loc main_v2_0) ↦{fullShare} Fw 1)
        ∗ (((c : Thread nD τ).loc main_v2_1) ↦{fullShare} Fw 2)
        ∗ (((c : Thread nD τ).loc main_arg0) ↦{fullShare} Fw 3)
        ∗ (((c : Thread nD τ).loc main_arg5) ↦{fullShare} Fw 4)
        ∗ (((c : Thread nD τ).loc main_arg11) ↦{fullShare} Fw 5)
        ∗ (((c : Thread nD τ).loc main_arg6) ↦{fullShare} Fw 6)
        ∗ (((c : Thread nD τ).loc main_arg12) ↦{fullShare} Fw 7)
        ∗ (((c : Thread nD τ).loc main_v3) ↦{fullShare} Fw 8)
        ∗ (((c : Thread nD τ).loc main_v4) ↦{fullShare} Fw 9)
        ∗ (((c : Thread nD τ).loc main_v5) ↦{fullShare} Fw 10)) := by
  unfold Dat.arrays
  rw [bigSep_W1]
  simp only [Memref.view_whole, View.set_whole, share1_0, share1_1, share1_2, share1_3, share1_4, share1_5, share1_6, share1_7, share1_8, share1_9, share1_10]

/-- The arrays held whole make the windows' arrays, at any contents that are the buffers'. -/
theorem hsplit1 (c : Dev nD) (V' : (b : Ref sig .tc) → Buf (Elt F) ((c : Thread nD τ).loc b))
    (Fw : (w : Fin cfg1.W) → Buf (Elt F) ((cfg1.win w).arr.view.loc (c : Thread nD τ))) (hF : ∀ w, Fw w = V' (Pipeline.arrRef spec1 w)) :
    (Pipeline.arrBufs (Ix := Unit) (Name := ℕ) (U := UR sig nD τ) (Lvl := ℕ) spec1 c V' : sProp 𝕄) ⊢ (dat1 V c).arrays Fw := by
  rw [arrBufs1_eq, arrays1_eq, hF 0, hF 1, hF 2, hF 3, hF 4, hF 5, hF 6, hF 7, hF 8, hF 9, hF 10]

/-- And back: the windows' arrays make the arrays held whole. -/
theorem hjoin1 (c : Dev nD) (V' : (b : Ref sig .tc) → Buf (Elt F) ((c : Thread nD τ).loc b))
    (Fw : (w : Fin cfg1.W) → Buf (Elt F) ((cfg1.win w).arr.view.loc (c : Thread nD τ))) (hF : ∀ w, Fw w = V' (Pipeline.arrRef spec1 w)) :
    ((dat1 V c).arrays Fw : sProp 𝕄) ⊢ Pipeline.arrBufs (Ix := Unit) (Name := ℕ) (U := UR sig nD τ) (Lvl := ℕ) spec1 c V' := by
  rw [arrBufs1_eq, arrays1_eq, hF 0, hF 1, hF 2, hF 3, hF 4, hF 5, hF 6, hF 7, hF 8, hF 9, hF 10]

end Arrays

/-- What the region leaves in its output array. -/
def outA1 (c : Dev nD) : Buf (Elt F) ((c : Thread nD τ).loc main_v5) := (dat1 (rdV W) c).arrAt 10 cfg1.N

/-- The valuation after the region: the output array replaced, everything else as entered. -/
def exitV1 (c : Dev nD) : Valuation τ sig (Elt F) := Function.update (W c) main_v5 (outA1 W c)

theorem exitV1_A (c : Dev nD) : exitV1 W c main_v5 = outA1 W c := by
  unfold exitV1; rw [Function.update_self]
theorem exitV1_of_ne (c : Dev nD) (b : Ref sig .tc) (h : b ≠ main_v5) : exitV1 W c b = W c b := by
  unfold exitV1
  rw [Function.update_of_ne (StableHlo.devRef_ne_of_ne h : (Proc.devRef .tc b : DevRef τ sig) ≠ Proc.devRef .tc main_v5)]

/-- ENTRY: the unscoped buffers at W are the windows' arrays at the entry contents and the rest. -/
theorem entry1 (c : Dev nD) :
    (StableHlo.held (c : Thread nD τ) (Pipeline.ucRefs τ sig) (W c) : sProp 𝕄)
      ⊢ iprop((dat1 (rdV W) c).arrays ((dat1 (rdV W) c).arrAt · 0)
          ∗ Pipeline.unscopedRest (Ix := Unit) (Name := ℕ) (U := UR sig nD τ) (Lvl := ℕ) spec1 c (rdV W c)) := by
  rw [← Pipeline.unscopedBufs_held (Ix := Unit) (Name := ℕ) (U := UR sig nD τ) (Lvl := ℕ) c (W c),
    Pipeline.unscopedBufs_split₀ cfgs 1 winFacts1.arr_unscoped c]
  exact sep_mono (hsplit1 (rdV W) c (rdV W c) _ (fun _ => rfl)) .rfl

/-- Each window's array after the last point is what the exit valuation holds there. -/
theorem exitF1 (c : Dev nD) : ∀ w : Fin cfg1.W, (dat1 (rdV W) c).arrAt w cfg1.N = exitV1 W c (Pipeline.arrRef spec1 w)
  | ⟨0, _⟩ => ((dat1 (rdV W) c).arrAt_in 0 rfl _).trans (exitV1_of_ne W c _ (by decide)).symm
  | ⟨1, _⟩ => ((dat1 (rdV W) c).arrAt_in 1 rfl _).trans (exitV1_of_ne W c _ (by decide)).symm
  | ⟨2, _⟩ => ((dat1 (rdV W) c).arrAt_in 2 rfl _).trans (exitV1_of_ne W c _ (by decide)).symm
  | ⟨3, _⟩ => ((dat1 (rdV W) c).arrAt_in 3 rfl _).trans (exitV1_of_ne W c _ (by decide)).symm
  | ⟨4, _⟩ => ((dat1 (rdV W) c).arrAt_in 4 rfl _).trans (exitV1_of_ne W c _ (by decide)).symm
  | ⟨5, _⟩ => ((dat1 (rdV W) c).arrAt_in 5 rfl _).trans (exitV1_of_ne W c _ (by decide)).symm
  | ⟨6, _⟩ => ((dat1 (rdV W) c).arrAt_in 6 rfl _).trans (exitV1_of_ne W c _ (by decide)).symm
  | ⟨7, _⟩ => ((dat1 (rdV W) c).arrAt_in 7 rfl _).trans (exitV1_of_ne W c _ (by decide)).symm
  | ⟨8, _⟩ => ((dat1 (rdV W) c).arrAt_in 8 rfl _).trans (exitV1_of_ne W c _ (by decide)).symm
  | ⟨9, _⟩ => ((dat1 (rdV W) c).arrAt_in 9 rfl _).trans (exitV1_of_ne W c _ (by decide)).symm
  | ⟨10, _⟩ => (exitV1_A W c).symm

/-- EXIT: the windows' arrays after the last point and the rest are the unscoped buffers at the exit valuation. -/
theorem exit1 (c : Dev nD) :
    iprop((dat1 (rdV W) c).arrays ((dat1 (rdV W) c).arrAt · cfg1.N)
        ∗ Pipeline.unscopedRest (Ix := Unit) (Name := ℕ) (U := UR sig nD τ) (Lvl := ℕ) spec1 c (rdV W c))
      ⊢ (StableHlo.held (c : Thread nD τ) (Pipeline.ucRefs τ sig) (exitV1 W c) : sProp 𝕄) := by
  rw [← Pipeline.unscopedBufs_held (Ix := Unit) (Name := ℕ) (U := UR sig nD τ) (Lvl := ℕ) c (exitV1 W c),
    Pipeline.unscopedBufs_split₀ cfgs 1 winFacts1.arr_unscoped c]
  refine sep_mono (hjoin1 (rdV W) c (fun b => exitV1 W c b) _ (exitF1 W c)) (Entails.of_eq ?_)
  unfold Pipeline.unscopedRest
  refine bigSep_congr fun b hb => ?_
  have hb' := (Finset.mem_sdiff.mp hb).2
  dsimp only
  rw [exitV1_of_ne W c b (fun e => hb' (Finset.mem_image.mpr ⟨10, Finset.mem_univ _, e.symm⟩))]

variable (V : (c : Dev nD) → (b : Ref sig .tc) → Buf (Elt F) ((c : Thread nD τ).loc b))

/-- The scoped buffers no window stages, at contents nobody names, make the invariant before the first point. -/
theorem Phi1_of_scoped (c : Dev nD) :
    (Pipeline.scopedRest (Ix := Unit) (Name := ℕ) (U := UR sig nD τ) (Lvl := ℕ) (Val := Elt F) spec1 c : sProp 𝕄) ⊢ Phi1 V c 0 := by
  rw [scopedRest1_eq]; unfold Phi1 rest1
  simp only [scM1_0, scM1_1, owns_whole]
  iintro ⟨R0, R1, R2, R3, R4, R5, R6, R7, R8, R9, R10, R11, R12, R13, R14, R15, R16, R17, ⟨%f0, H0⟩, ⟨%f1, H1⟩⟩
  isplitl [H0]
  · iexists f0; isplitr; · ipureintro; intro h; exact absurd (by rw [Fin.val_zero]) h
    iexact H0
  isplitl [H1]
  · iexists f1; isplitr; · ipureintro; intro h; exact absurd (by rw [Fin.val_zero]) h
    iexact H1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexact R17

/-- The invariant at any point gives those buffers back. -/
theorem scoped_of_Phi1 (c : Dev nD) (t : Fin (cfg1.N + 1)) :
    Phi1 V c t ⊢ (Pipeline.scopedRest (Ix := Unit) (Name := ℕ) (U := UR sig nD τ) (Lvl := ℕ) (Val := Elt F) spec1 c : sProp 𝕄) := by
  rw [scopedRest1_eq]; unfold Phi1 rest1
  simp only [scM1_0, scM1_1, owns_whole]
  iintro ⟨⟨%s0, -, H0⟩, ⟨%s1, -, H1⟩, R0, R1, R2, R3, R4, R5, R6, R7, R8, R9, R10, R11, R12, R13, R14, R15, R16, R17⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [H0]; · iexists s0; iexact H0
  iexists s1; iexact H1

end Region1

end Cert.Kernel.Gen

end
-- ==== Proof.BitsRegions.lean ====
import proofs.«160956_j71236327571877_2_alg».proof.Proof.Gen.Kernel.Launch
import proofs.«160956_j71236327571877_2_alg».proof.Proof.Gen.Kernel.Skeleton
import proofs.«160956_j71236327571877_2_alg».proof.Proof.Gen.Kernel.Points
import proofs.«160956_j71236327571877_2_alg».proof.Proof.BitsSeg0
import proofs.«160956_j71236327571877_2_alg».proof.Proof.BitsSeg1
import proofs.«160956_j71236327571877_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two regions as segments of the program, and the program's run

The program is: two reshapes of bias vectors, the first kernel's region, two more reshapes, the second kernel's
region. The buffers' contents between the items are a fold from the launch memory: a host stretch applies its
operations, a region replaces its output arrays by what its write-backs leave. Each region is entered from "every
unscoped buffer whole at the contents before it, nothing owed" and left at the same with the contents after it. -/

variable (m : (ℓ : Loc nD τ sig) → Buf (Elt F) ℓ) (ρ : Dev nD → PrngReg)

/-- The buffers' contents when the first region is entered (after the first two reshapes), -/
abbrev W1 : Dev nD → Valuation τ sig (Elt F) := fun c => V1 m c
/-- when the second region is entered (the first region's outputs replaced, then the next two reshapes). -/
abbrev W3 : Dev nD → Valuation τ sig (Elt F) := fun c => StableHlo.after hostOps1 (exitV0 (W1 m) c)

/-- What the regions leave in their output arrays: the first region's two outputs, the second region's one. -/
def outs : Outs (F := F) := fun _ r c =>
  if h0 : r = main_v2_0 then h0 ▸ outA0 (W1 m) c
  else if h1 : r = main_v2_1 then h1 ▸ outB0 (W1 m) c
  else if h5 : r = main_v5 then h5 ▸ outA1 (W3 m) c
  else V0 m c r

theorem outs_A (J : ℕ) (c : Dev nD) : outs m J main_v2_0 c = outA0 (W1 m) c := by
  unfold outs; rw [dif_pos rfl]
theorem outs_B (J : ℕ) (c : Dev nD) : outs m J main_v2_1 c = outB0 (W1 m) c := by
  unfold outs; rw [dif_neg (by decide), dif_pos rfl]
theorem outs_5 (J : ℕ) (c : Dev nD) : outs m J main_v5 c = outA1 (W3 m) c := by
  unfold outs; rw [dif_neg (by decide), dif_neg (by decide), dif_pos rfl]

theorem V2_eq (c : Dev nD) : V2 m (outs m) c = exitV0 (W1 m) c := by
  show Function.update (Function.update (V1 m c) main_v2_0 (outs m 2 main_v2_0 c)) main_v2_1 (outs m 2 main_v2_1 c) = _
  rw [outs_A, outs_B]; rfl
theorem V3_eq (c : Dev nD) : V3 m (outs m) c = W3 m c := by
  show StableHlo.after hostOps1 (V2 m (outs m) c) = _; rw [V2_eq]
theorem V4_eq (c : Dev nD) : V4 m (outs m) c = exitV1 (W3 m) c := by
  show Function.update (V3 m (outs m) c) main_v5 (outs m 4 main_v5 c) = _
  rw [V3_eq, outs_5]; rfl

/-- No core owes another anything: no level is assigned. -/
abbrev L0 : GSem nD τ sig → Finset Unit := fun _ => ∅
abbrev lv0 : GSem nD τ sig → Unit → ℕ := fun _ _ => 0
/-- What rides beside the buffers through every item: the core owing nothing. -/
abbrev Eo (c : Dev nD) : sProp 𝕄 := iprop(∃ Wp, owes (c : Thread nD τ) (0 : CellTallies nD τ sig Unit) Wp)

/-- Both regions' proof data, each at its region's entry contents. -/
def pdats : (p : Fin 2) → (c : Dev nD) → Dat τ (Elt F) Unit ℕ (UR sig nD τ) ℕ (cfgs p) c
  | ⟨0, _⟩ => fun c => dat0 (rdV (W1 m)) c
  | ⟨1, _⟩ => fun c => dat1 (rdV (W3 m)) c

set_option backward.isDefEq.respectTransparency.types false in
/-- The first kernel's region as a segment. -/
def reg0 : Pipeline.RegionSeg (pcfgs (F := F)) adm (pdats m) () defs₀ Variants.none L0 lv0 0 where
  win := winFacts₀0
  block_pos := block_pos0
  stage_whole := stage_whole0
  K := PEmpty
  osem k := k.elim
  ho := Pipeline.OwnSemFacts.none _
  hbody c := (body_obligation0 (rdV (W1 m)) c).loose
  hwaits := Pipeline.hwaits_of_owed_zero _ _ _ _ L0 lv0 0 fun _ _ => rfl
  pre c := iprop(StableHlo.held (c : Thread nD τ) (Pipeline.ucRefs τ sig) (V1 m c) ∗ Eo c)
  post c := iprop(StableHlo.held (c : Thread nD τ) (Pipeline.ucRefs τ sig) (V2 m (outs m) c) ∗ Eo c)
  X _ := iprop(emp)
  Y _ := iprop(emp)
  Z c := Pipeline.unscopedRest (Ix := Unit) (Name := ℕ) (U := UR sig nD τ) (Lvl := ℕ) spec0 c (rdV (W1 m) c)
  hentry c := by
    rw [Pipeline.ownSems0_none]
    iintro ⟨⟨Hub, HO⟩, -, -⟩
    ihave H := (entry0 (W1 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wp, HO⟩; iexists Wp; isplitr; · ipureintro; exact fun _ _ => Or.inl trivial
      iexact HO
    isplitr; · iempintro
    iexact Hrest
  hin c := by
    rw [show (pdats m 0 c).Φ 0 = Phi0 (rdV (W1 m)) c 0 from rfl]
    iintro ⟨-, -, Hr⟩
    iapply (Phi0_of_scoped (rdV (W1 m)) c) $$ Hr
  hout c := by
    rw [Pipeline.ownSems0_none, show (pdats m 0 c).Φ (Fin.last _) = Phi0 (rdV (W1 m)) c (Fin.last _) from rfl]
    iintro H
    isplitr; · iempintro
    isplitr; · iempintro
    iapply (scoped_of_Phi0 (rdV (W1 m)) c _) $$ H
  hexit c := by
    rw [V2_eq]
    iintro ⟨Ha, HO, -, Hrest⟩
    imodintro
    isplitl [Ha Hrest]
    · iapply (exit0 (W1 m) c)
      isplitl [Ha]; · iexact Ha
      iexact Hrest
    unfold Pipeline.Dat.owesAt Pipeline.owesWithin
    icases HO with ⟨%Wp, -, HO⟩; iexists Wp; iexact HO

set_option backward.isDefEq.respectTransparency.types false in
/-- The second kernel's region as a segment. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (rdV (W3 m)) c).loose
  hwaits := Pipeline.hwaits_of_owed_zero _ _ _ _ L0 lv0 1 fun _ _ => rfl
  pre c := iprop(StableHlo.held (c : Thread nD τ) (Pipeline.ucRefs τ sig) (V3 m (outs m) c) ∗ Eo c)
  post c := iprop(StableHlo.held (c : Thread nD τ) (Pipeline.ucRefs τ sig) (V4 m (outs m) c) ∗ Eo c)
  X _ := iprop(emp)
  Y _ := iprop(emp)
  Z c := Pipeline.unscopedRest (Ix := Unit) (Name := ℕ) (U := UR sig nD τ) (Lvl := ℕ) spec1 c (rdV (W3 m) c)
  hentry c := by
    rw [Pipeline.ownSems0_none, V3_eq]
    iintro ⟨⟨Hub, HO⟩, -, -⟩
    ihave H := (entry1 (W3 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wp, HO⟩; iexists Wp; isplitr; · ipureintro; exact fun _ _ => Or.inl trivial
      iexact HO
    isplitr; · iempintro
    iexact Hrest
  hin c := by
    rw [show (pdats m 1 c).Φ 0 = Phi1 (rdV (W3 m)) c 0 from rfl]
    iintro ⟨-, -, Hr⟩
    iapply (Phi1_of_scoped (rdV (W3 m)) c) $$ Hr
  hout c := by
    rw [Pipeline.ownSems0_none, show (pdats m 1 c).Φ (Fin.last _) = Phi1 (rdV (W3 m)) c (Fin.last _) from rfl]
    iintro H
    isplitr; · iempintro
    isplitr; · iempintro
    iapply (scoped_of_Phi1 (rdV (W3 m)) c _) $$ H
  hexit c := by
    rw [V4_eq]
    iintro ⟨Ha, HO, -, Hrest⟩
    imodintro
    isplitl [Ha Hrest]
    · iapply (exit1 (W3 m) c)
      isplitl [Ha]; · iexact Ha
      iexact Hrest
    unfold Pipeline.Dat.owesAt Pipeline.owesWithin
    icases HO with ⟨%Wp, -, HO⟩; iexists Wp; iexact HO

/-- What the launch's ghost element yields: the pipeline library's own, and nothing besides. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the first thread state's rest on every core: each core owes nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L0 lv0)
    ⊢ (|={Set.univ}=> bigSep Finset.univ (fun c : Dev nD => Eo c) : sProp 𝕄) := by
  have hc : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))
      ⊢ (Eo c : sProp 𝕄) := fun c => by
    iintro ⟨-, HO, -⟩; iexists ∅; iexact HO
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => Eo c) : sProp 𝕄) :=
    bigSep_mono fun c _ => hc c
  iintro ⟨H, -⟩
  imodintro
  ihave H' := hmono $$ H
  iexact H'

set_option backward.isDefEq.respectTransparency.types false in
/-- THE FRAME, at any instance: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m emb₁ () Variants.none L0 lv0 (fun _ _ => rfl) ρ (outs m) (pdats m) 0 (fun _ => iprop(emp))
    (initOf (Pipeline.cells cfgs cellOf_inj) (Pipeline.launchToks cfgs cellOf_inj)) hu0
    (fun _ c => Eo c) (hE0 ρ) (fun _ => .rfl)
    (reg0 m) (fun _ => .rfl) (fun _ => .rfl) (reg1 m) (fun _ => .rfl) (fun _ => .rfl)

end Cert.Kernel.Gen

end
-- ==== Proof.IdealBody0.lean ====
import proofs.«160956_j71236327571877_2_alg».proof.Proof.Gen.KernelIdeal.Launch
import proofs.«160956_j71236327571877_2_alg».proof.Proof.Gen.KernelIdeal.Skeleton
import proofs.«160956_j71236327571877_2_alg».proof.Proof.Gen.KernelIdeal.Points
import proofs.«160956_j71236327571877_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body on any whole staging buffers

The body reads nine input buffers (a 2048×1024 block of the operator, the 1024 rows of node features the block's
columns name, the 2048 rows of node features of the output block, four weight matrices and two bias rows), two
accumulators it owns, and two output buffers. What it does depends on the point's second coordinate only through
two tests, "is it 0" and "is it 15"; the three cases the grid meets are run here, each once, on arbitrary whole
buffers, with the arithmetic left as the named payload terms. -/

/-- "The second grid coordinate is 0", as the body computes it. -/
abbrev cond0_0 (i : grid0.Coords) : Prop := (Scalar.cmpi .ne (Scalar.extui (Scalar.cmpi .eq (BitVec.ofNat 32 (i 1).val) 0#32)) 0#32) = 1#1
/-- "The second grid coordinate is 15", as the body computes it. -/
abbrev cond0_1 (i : grid0.Coords) : Prop := k0_cond2 i = 1#1

/-- The zero offsets of a whole-buffer access. -/
theorem hz2 : (![0, 0] : Fin 2 → ℕ) = fun _ => 0 := by funext a; match a with | ⟨0, _⟩ => rfl | ⟨1, _⟩ => rfl

/-- Over any view and shape: a buffer read back after a store through the whole-shape rectangle at zero offsets holds
    the stored value, whatever was stored before it. (Stated abstractly, so that a use at a large literal shape
    unifies the rectangle and nothing else.) -/
theorem read_writes_cons_whole {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-- The same at the accumulators' and outputs' shape. -/
theorem rws (v : View sig .tc .vmem S2048x32 .f32) (f : v.ty.Contents (Elt F)) (inb) (w : S2048x32.Idx → Elt F .f32)
    (L : List (View.Piece (Elt F) S2048x32 .f32)) :
    v.read (Elt F) (v.writes (Elt F) f ((⟨Rect.unit (s := S2048x32) ![0, 0] ![2048, 32] inb, w⟩ : View.Piece (Elt F) S2048x32 .f32) :: L)) = w :=
  read_writes_cons_whole (S := S2048x32) v f hz2 inb w L

/-! A load through the whole rectangle reads the buffer's contents as they are. -/
theorem ldz_2048x1024 (inb) (X : S2048x1024.Idx → Elt F .f32) : View.ld X (Rect.unit (s := S2048x1024) ![0, 0] ![2048, 1024] inb) = X := View.ld_unit_zero (S := S2048x1024) hz2 inb X
theorem ldz_1024x64 (inb) (X : S1024x64.Idx → Elt F .f32) : View.ld X (Rect.unit (s := S1024x64) ![0, 0] ![1024, 64] inb) = X := View.ld_unit_zero (S := S1024x64) hz2 inb X
theorem ldz_2048x64 (inb) (X : S2048x64.Idx → Elt F .f32) : View.ld X (Rect.unit (s := S2048x64) ![0, 0] ![2048, 64] inb) = X := View.ld_unit_zero (S := S2048x64) hz2 inb X
theorem ldz_64x32 (inb) (X : S64x32.Idx → Elt F .f32) : View.ld X (Rect.unit (s := S64x32) ![0, 0] ![64, 32] inb) = X := View.ld_unit_zero (S := S64x32) hz2 inb X
theorem ldz_1x32 (inb) (X : S1x32.Idx → Elt F .f32) : View.ld X (Rect.unit (s := S1x32) ![0, 0] ![1, 32] inb) = X := View.ld_unit_zero (S := S1x32) hz2 inb X
theorem ldz_2048x32 (inb) (X : S2048x32.Idx → Elt F .f32) : View.ld X (Rect.unit (s := S2048x32) ![0, 0] ![2048, 32] inb) = X := View.ld_unit_zero (S := S2048x32) hz2 inb X

set_option maxHeartbeats 1000000 in
/-- At a grid point whose second coordinate is neither 0 nor 15 the body adds the point's block product to each accumulator; the output buffers are not touched. -/
theorem sound_kernel0_mid (c : Dev nD) (i : grid0.Coords) (hc0 : ¬ cond0_0 i) (hc1 : ¬ cond0_1 i) (E : Set ℕ)
    (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 : Vec F S1024x64 .f32) (x4 : Vec F S2048x64 .f32) (x5 x6 x7 x8 : Vec F S64x32 .f32) (x9 x10 : Vec F S1x32 .f32)
    (o11 o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare (k0_pay5 x3 x5 x2 s13)
        ∗ owns (c : Thread nD τ) arg14 fullShare (k0_pay6 x3 x6 x2 s14)) -∗ K ⟨⟩))
      ⊢ wp frame (wpE (defs₀ (F := F)) Variants.none c none) E (cc0__gcs_kernel0 i arg2 harg2 arg3 harg3 arg4 harg4 arg5 harg5 arg6 harg6 arg7 harg7 arg8 harg8 arg9 harg9 arg10 harg10 arg11 harg11 arg12 harg12 arg13 harg13 arg14 harg14) K := by
  simp only [cc0__gcs_kernel0_eq_skeleton]; unfold cc0__gcs_kernel0_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]

set_option maxHeartbeats 1000000 in
/-- At a grid point whose second coordinate is 0 (and not 15) the body clears both accumulators and adds the point's block product to each; the output buffers are not touched. -/
theorem sound_kernel0_first (c : Dev nD) (i : grid0.Coords) (hc0 : cond0_0 i) (hc1 : ¬ cond0_1 i) (E : Set ℕ)
    (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 : Vec F S1024x64 .f32) (x4 : Vec F S2048x64 .f32) (x5 x6 x7 x8 : Vec F S64x32 .f32) (x9 x10 : Vec F S1x32 .f32)
    (o11 o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare (k0_pay5 x3 x5 x2 k0_pay1)
        ∗ owns (c : Thread nD τ) arg14 fullShare (k0_pay6 x3 x6 x2 k0_pay2)) -∗ K ⟨⟩))
      ⊢ wp frame (wpE (defs₀ (F := F)) Variants.none c none) E (cc0__gcs_kernel0 i arg2 harg2 arg3 harg3 arg4 harg4 arg5 harg5 arg6 harg6 arg7 harg7 arg8 harg8 arg9 harg9 arg10 harg10 arg11 harg11 arg12 harg12 arg13 harg13 arg14 harg14) K := by
  simp only [cc0__gcs_kernel0_eq_skeleton]; unfold cc0__gcs_kernel0_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]

set_option maxHeartbeats 1000000 in
/-- At a grid point whose second coordinate is 15 (and not 0) the body adds the point's block product to each accumulator and then stores, into each output buffer, the rectified sum of the accumulator, the skip term and the bias. -/
theorem sound_kernel0_last (c : Dev nD) (i : grid0.Coords) (hc0 : ¬ cond0_0 i) (hc1 : cond0_1 i) (E : Set ℕ)
    (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 : Vec F S1024x64 .f32) (x4 : Vec F S2048x64 .f32) (x5 x6 x7 x8 : Vec F S64x32 .f32) (x9 x10 : Vec F S1x32 .f32)
    (o11 o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare o11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare (k0_pay8 x4 x7 (k0_pay5 x3 x5 x2 s13) x9)
        ∗ owns (c : Thread nD τ) arg12 fullShare (k0_pay9 x4 x8 (k0_pay6 x3 x6 x2 s14) x10)
        ∗ owns (c : Thread nD τ) arg13 fullShare (k0_pay5 x3 x5 x2 s13)
        ∗ owns (c : Thread nD τ) arg14 fullShare (k0_pay6 x3 x6 x2 s14)) -∗ K ⟨⟩))
      ⊢ wp frame (wpE (defs₀ (F := F)) Variants.none c none) E (cc0__gcs_kernel0 i arg2 harg2 arg3 harg3 arg4 harg4 arg5 harg5 arg6 harg6 arg7 harg7 arg8 harg8 arg9 harg9 arg10 harg10 arg11 harg11 arg12 harg12 arg13 harg13 arg14 harg14) K := by
  simp only [cc0__gcs_kernel0_eq_skeleton]; unfold cc0__gcs_kernel0_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  isplitl [H12]
  · iexists _; isplitr
    swap; · iexact H12
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  isplitl [H13]
  · iexists _; isplitr
    swap; · iexact H13
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x64, ldz_2048x64, ldz_64x32, ldz_1x32, ldz_2048x32]

end Cert.KernelIdeal.Gen

end
-- ==== Proof.IdealData0.lean ====
import proofs.«160956_j71236327571877_2_alg».proof.Proof.Gen.KernelIdeal.Launch
import proofs.«160956_j71236327571877_2_alg».proof.Proof.Gen.KernelIdeal.Skeleton
import proofs.«160956_j71236327571877_2_alg».proof.Proof.Gen.KernelIdeal.Points
import proofs.«160956_j71236327571877_2_alg».proof.Proof.IdealBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region: what every buffer holds at every grid point

The grid has 8 × 16 points; point t = 16·i + k works on the 2048 rows of row block i and the 1024 columns of
column block k. Every input window's buffer holds its block of the array the region found (V). The two
accumulators are cleared at k = 0 and gain one block product per point, so after point t they hold the partial
sum over the column blocks 0 … k of row block i; the output buffers are written at k = 15 only, from the full
sums. All of it is stated at the contents V the region is entered with, whatever they are. -/

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, fetched there or not: a window that is not fetched
    at a point has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The first accumulator after the points below n: cleared at the first column block of each row block, then one
    block product added per point. (Its value at 0 is never consulted.) -/
def acc0_0 (c : Dev nD) : ℕ → Vec F S2048x32 .f32
  | 0 => k0_pay1
  | n + 1 => if h : n < cfg0.N then
      k0_pay5 (iblk0 V c 1 ⟨n, h⟩) (iblk0 V c 3 ⟨n, h⟩) (iblk0 V c 0 ⟨n, h⟩) (if n % 16 = 0 then k0_pay1 else acc0_0 c n)
    else k0_pay1
/-- The second accumulator, likewise, through the second stack's weights. -/
def acc0_1 (c : Dev nD) : ℕ → Vec F S2048x32 .f32
  | 0 => k0_pay2
  | n + 1 => if h : n < cfg0.N then
      k0_pay6 (iblk0 V c 1 ⟨n, h⟩) (iblk0 V c 4 ⟨n, h⟩) (iblk0 V c 0 ⟨n, h⟩) (if n % 16 = 0 then k0_pay2 else acc0_1 c n)
    else k0_pay2

theorem acc0_0_succ (c : Dev nD) (t : Fin cfg0.N) : acc0_0 V c (t.val + 1)
    = k0_pay5 (iblk0 V c 1 t) (iblk0 V c 3 t) (iblk0 V c 0 t) (if t.val % 16 = 0 then k0_pay1 else acc0_0 V c t.val) := by
  rw [acc0_0, dif_pos t.isLt]
theorem acc0_1_succ (c : Dev nD) (t : Fin cfg0.N) : acc0_1 V c (t.val + 1)
    = k0_pay6 (iblk0 V c 1 t) (iblk0 V c 4 t) (iblk0 V c 0 t) (if t.val % 16 = 0 then k0_pay2 else acc0_1 V c t.val) := by
  rw [acc0_1, dif_pos t.isLt]

/-- The two accumulators as whole buffers of the kernel's own. -/
abbrev scM0_0 : Memref sig .tc .vmem S2048x32 .f32 := Memref.whole cc0_scratch0
abbrev scM0_1 : Memref sig .tc .vmem S2048x32 .f32 := Memref.whole cc0_scratch1

/-- The core's other scoped buffers (the second kernel's), each whole at some contents: untouched by this region. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg10_1), ((c : Thread nD τ).loc cc1_stg10_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- What is carried from point to point: the two accumulators, holding the partial sums except right after a row
    block's last point (where the next point clears them and nothing is claimed), and the untouched rest. -/
def Phi0 (c : Dev nD) (t : Fin (cfg0.N + 1)) : sProp 𝕄 :=
  iprop((∃ s, ⌜t.val % 16 ≠ 0 → s = acc0_0 V c t.val⌝ ∗ owns (c : Thread nD τ) scM0_0 fullShare s)
    ∗ (∃ s, ⌜t.val % 16 ≠ 0 → s = acc0_1 V c t.val⌝ ∗ owns (c : Thread nD τ) scM0_1 fullShare s)
    ∗ rest0 c)

/-- The region's proof data on core c. The node features reach the kernel through two windows (the rows a column
    block names, and the rows of the output block): each holds one half of the array's share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => k0_pay8 (iblk0 V c 2 t) (iblk0 V c 5 t) (acc0_0 V c (t.val + 1)) (iblk0 V c 7 t)
    | ⟨10, _⟩ => k0_pay9 (iblk0 V c 2 t) (iblk0 V c 6 t) (acc0_1 V c (t.val + 1)) (iblk0 V c 8 t)
  Φ t := Phi0 V c t
  q w := match w with
    | ⟨0, _⟩ => fullShare | ⟨1, _⟩ => fullShare.left | ⟨2, _⟩ => fullShare.right | ⟨3, _⟩ => fullShare | ⟨4, _⟩ => fullShare | ⟨5, _⟩ => fullShare
    | ⟨6, _⟩ => fullShare | ⟨7, _⟩ => fullShare | ⟨8, _⟩ => fullShare | ⟨9, _⟩ => fullShare | ⟨10, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = k0_pay8 (iblk0 V c 2 t) (iblk0 V c 5 t) (acc0_0 V c (t.val + 1)) (iblk0 V c 7 t) := by dsimp only [dat0]
theorem after0_10 (c : Dev nD) (t : Fin cfg0.N) : (dat0 V c).after 10 t = k0_pay9 (iblk0 V c 2 t) (iblk0 V c 6 t) (acc0_1 V c (t.val + 1)) (iblk0 V c 8 t) := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d
theorem before0_8 (c : Dev nD) (t : Fin cfg0.N) (d) : (dat0 V c).before 8 t d = iblk0 V c 8 t := before0_8_of V (dat0 V c) (A_eq0 V c 8) (after0_8 V c) t d

/-! ## The two tests over the grid -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)
/-- Away from a row block's last point the output windows are idle and not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

end Region0

end Cert.KernelIdeal.Gen

end
-- ==== Proof.IdealOblig0.lean ====
import proofs.«160956_j71236327571877_2_alg».proof.Proof.Gen.KernelIdeal.Launch
import proofs.«160956_j71236327571877_2_alg».proof.Proof.Gen.KernelIdeal.Skeleton
import proofs.«160956_j71236327571877_2_alg».proof.Proof.Gen.KernelIdeal.Points
import proofs.«160956_j71236327571877_2_alg».proof.Proof.IdealBody0
import proofs.«160956_j71236327571877_2_alg».proof.Proof.IdealData0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body at every grid point

At point t the pipeline hands the body each window's current buffer and the two accumulators; by the point's
second coordinate one of three runs applies. What it leaves is the proof data's next entry: the accumulators
with one more block product (from zero at a row block's first point), and at a row block's last point the two
output buffers at the rectified sums. -/

section Region0

variable (V : (c : Dev nD) → (b : Ref sig .tc) → Buf (Elt F) ((c : Thread nD τ).loc b))

/-- What the body is called with at point t, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns: the inputs in place, an output written at a row block's last point and handed back as found elsewhere. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ (dat0 V c).leavesExact 9 t ∗ (dat0 V c).leavesExact 10 t)

/-- A point inside a row block: one block product more in each accumulator. -/
theorem sound_body0_mid (c : Dev nD) (t : Fin cfg0.N) (h0 : ¬cond0_0 (grid0.coords t)) (h1 : ¬cond0_1 (grid0.coords t)) :
    bodyPre0 V c t ⊢ wp frame (wpE (defs₀ (F := F)) Variants.none c none) Set.univ (bodyAt0 t) (fun _ => bodyPost0 V c t) := by
  have hm0 : t.val % 16 ≠ 0 := fun e => h0 ((hcond0_0 t).mpr e)
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    show (dat0 V c).Φ t.succ = Phi0 V c t.succ from rfl, show (dat0 V c).Φ t.castSucc = Phi0 V c t.castSucc from rfl,
    after0_0, after0_1, after0_2, after0_3, after0_4, after0_5, after0_6, after0_7, after0_8,
    Dat.leavesExact_idle _ 9 t (idleAt0_9 t h1) (noFlush0_9 t h1), Dat.leavesExact_idle _ 10 t (idleAt0_10 t h1) (noFlush0_10 t h1)]
  unfold Phi0
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e0 := hs0 hm0; have e1 := hs1 hm0; subst e0; subst e1
  iapply (sound_kernel0_mid c (grid0.coords t) h0 h1 Set.univ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) (acc0_0 V c t.val) (acc0_1 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg0.N + 1)).val = t.val + 1 from rfl, acc0_0_succ, if_neg hm0]
    isplitl [HS1]
    · iexists _; isplitr; swap; · iexact HS1
      ipureintro; intro _; rw [show (t.succ : Fin (cfg0.N + 1)).val = t.val + 1 from rfl, acc0_1_succ, if_neg hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

/-- A row block's first point: the accumulators start from zero. -/
theorem sound_body0_first (c : Dev nD) (t : Fin cfg0.N) (h0 : cond0_0 (grid0.coords t)) (h1 : ¬cond0_1 (grid0.coords t)) :
    bodyPre0 V c t ⊢ wp frame (wpE (defs₀ (F := F)) Variants.none c none) Set.univ (bodyAt0 t) (fun _ => bodyPost0 V c t) := by
  have hm0 : t.val % 16 = 0 := (hcond0_0 t).mp h0
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    show (dat0 V c).Φ t.succ = Phi0 V c t.succ from rfl, show (dat0 V c).Φ t.castSucc = Phi0 V c t.castSucc from rfl,
    after0_0, after0_1, after0_2, after0_3, after0_4, after0_5, after0_6, after0_7, after0_8,
    Dat.leavesExact_idle _ 9 t (idleAt0_9 t h1) (noFlush0_9 t h1), Dat.leavesExact_idle _ 10 t (idleAt0_10 t h1) (noFlush0_10 t h1)]
  unfold Phi0
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0_first c (grid0.coords t) h0 h1 Set.univ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg0.N + 1)).val = t.val + 1 from rfl, acc0_0_succ, if_pos hm0]
    isplitl [HS1]
    · iexists _; isplitr; swap; · iexact HS1
      ipureintro; intro _; rw [show (t.succ : Fin (cfg0.N + 1)).val = t.val + 1 from rfl, acc0_1_succ, if_pos hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

/-- A row block's last point: the last block product, then the two outputs from the full sums. -/
theorem sound_body0_last (c : Dev nD) (t : Fin cfg0.N) (h0 : ¬cond0_0 (grid0.coords t)) (h1 : cond0_1 (grid0.coords t)) :
    bodyPre0 V c t ⊢ wp frame (wpE (defs₀ (F := F)) Variants.none c none) Set.univ (bodyAt0 t) (fun _ => bodyPost0 V c t) := by
  have hm0 : t.val % 16 ≠ 0 := fun e => h0 ((hcond0_0 t).mpr e)
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    show (dat0 V c).Φ t.succ = Phi0 V c t.succ from rfl, show (dat0 V c).Φ t.castSucc = Phi0 V c t.castSucc from rfl,
    after0_0, after0_1, after0_2, after0_3, after0_4, after0_5, after0_6, after0_7, after0_8,
    show (dat0 V c).leavesExact 9 t = owns (c : Thread nD τ) (st0_9 t) fullShare ((dat0 V c).after 9 t) from by unfold Dat.leavesExact; rw [liveAt0_9 t h1],
    show (dat0 V c).leavesExact 10 t = owns (c : Thread nD τ) (st0_10 t) fullShare ((dat0 V c).after 10 t) from by unfold Dat.leavesExact; rw [liveAt0_10 t h1],
    after0_9, after0_10, acc0_0_succ, acc0_1_succ, if_neg hm0, if_neg hm0]
  unfold Phi0
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e0 := hs0 hm0; have e1 := hs1 hm0; subst e0; subst e1
  iapply (sound_kernel0_last c (grid0.coords t) h0 h1 Set.univ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) (acc0_0 V c t.val) (acc0_1 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg0.N + 1)).val = t.val + 1 from rfl, acc0_0_succ, if_neg hm0]
    isplitl [HS1]
    · iexists _; isplitr; swap; · iexact HS1
      ipureintro; intro _; rw [show (t.succ : Fin (cfg0.N + 1)).val = t.val + 1 from rfl, acc0_1_succ, if_neg hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point: by the point's second coordinate. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : cond0_0 (grid0.coords t)
  · by_cases h1 : cond0_1 (grid0.coords t)
    · exact absurd ((hcond0_1 t).mp h1) (by have := (hcond0_0 t).mp h0; omega)
    · exact sound_body0_first V c t h0 h1
  · by_cases h1 : cond0_1 (grid0.coords t)
    · exact sound_body0_last V c t h0 h1
    · exact sound_body0_mid V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.IdealShare0.lean ====
import proofs.«160956_j71236327571877_2_alg».proof.Proof.Gen.KernelIdeal.Launch
import proofs.«160956_j71236327571877_2_alg».proof.Proof.Gen.KernelIdeal.Skeleton
import proofs.«160956_j71236327571877_2_alg».proof.Proof.Gen.KernelIdeal.Points
import proofs.«160956_j71236327571877_2_alg».proof.Proof.IdealData0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One array behind two windows

The node features reach the first kernel through two windows. The region's ten distinct arrays, each held whole,
are the eleven windows' arrays once the node features' buffer is split into its two half shares; and back. -/

section Region0

variable (V : (c : Dev nD) → (b : Ref sig .tc) → Buf (Elt F) ((c : Thread nD τ).loc b))

/-- The ten distinct arrays behind the eleven windows, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg1) ↦{fullShare} V' main_arg1)
        ∗ (((c : Thread nD τ).loc main_arg0) ↦{fullShare} V' main_arg0)
        ∗ (((c : Thread nD τ).loc main_arg2) ↦{fullShare} V' main_arg2)
        ∗ (((c : Thread nD τ).loc main_arg8) ↦{fullShare} V' main_arg8)
        ∗ (((c : Thread nD τ).loc main_arg3) ↦{fullShare} V' main_arg3)
        ∗ (((c : Thread nD τ).loc main_arg9) ↦{fullShare} V' main_arg9)
        ∗ (((c : Thread nD τ).loc main_v0) ↦{fullShare} V' main_v0)
        ∗ (((c : Thread nD τ).loc main_v1) ↦{fullShare} V' main_v1)
        ∗ (((c : Thread nD τ).loc main_v2_0) ↦{fullShare} V' main_v2_0)
        ∗ (((c : Thread nD τ).loc main_v2_1) ↦{fullShare} V' main_v2_1)) := by
  unfold Pipeline.arrBufs
  exact bigSep_eq_bigSepL_of_eq [main_arg1, main_arg0, main_arg2, main_arg8, main_arg3, main_arg9, main_v0, main_v1, main_v2_0, main_v2_1] (by decide) (by decide) _

/-- A window's array, a whole buffer, held through its view is the buffer held. -/
theorem arr0_pt (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = (((c : Thread nD τ).loc (Pipeline.arrRef spec0 w)) ↦{q} f) := by
  rw [(arr_whole0 w).set_eq_univ]

/-! The share each window holds its array at: an output's is full; an input's is the proof data's. -/
theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl
theorem share0_9 (c : Dev nD) : (dat0 V c).share 9 = fullShare := rfl
theorem share0_10 (c : Dev nD) : (dat0 V c).share 10 = fullShare := rfl

/-- The eleven windows' arrays, one by one, each at its share: the node features at one half per window. -/
theorem arrays0_eq (c : Dev nD) (Fw : (w : Fin cfg0.W) → Buf (Elt F) ((cfg0.win w).arr.view.loc (c : Thread nD τ))) :
    ((dat0 V c).arrays Fw : sProp 𝕄)
      = iprop((((c : Thread nD τ).loc main_arg1) ↦{fullShare} Fw 0)
        ∗ (((c : Thread nD τ).loc main_arg0) ↦{fullShare.left} Fw 1)
        ∗ (((c : Thread nD τ).loc main_arg0) ↦{fullShare.right} Fw 2)
        ∗ (((c : Thread nD τ).loc main_arg2) ↦{fullShare} Fw 3)
        ∗ (((c : Thread nD τ).loc main_arg8) ↦{fullShare} Fw 4)
        ∗ (((c : Thread nD τ).loc main_arg3) ↦{fullShare} Fw 5)
        ∗ (((c : Thread nD τ).loc main_arg9) ↦{fullShare} Fw 6)
        ∗ (((c : Thread nD τ).loc main_v0) ↦{fullShare} Fw 7)
        ∗ (((c : Thread nD τ).loc main_v1) ↦{fullShare} Fw 8)
        ∗ (((c : Thread nD τ).loc main_v2_0) ↦{fullShare} Fw 9)
        ∗ (((c : Thread nD τ).loc main_v2_1) ↦{fullShare} Fw 10)) := by
  unfold Dat.arrays
  rw [bigSep_W0]
  simp only [Memref.view_whole, View.set_whole, share0_0, share0_1, share0_2, share0_3, share0_4, share0_5, share0_6, share0_7, share0_8, share0_9, share0_10]

/-- The arrays held whole make the windows' arrays, at any contents that are the buffers'. -/
theorem hsplit0 (c : Dev nD) (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w)) :
    (Pipeline.arrBufs (Ix := Unit) (Name := ℕ) (U := UR sig nD τ) (Lvl := ℕ) spec0 c V' : sProp 𝕄) ⊢ (dat0 V c).arrays Fw := by
  rw [arrBufs0_eq, arrays0_eq, hF 0, hF 1, hF 2, hF 3, hF 4, hF 5, hF 6, hF 7, hF 8, hF 9, hF 10]
  iintro ⟨H1, H0, H2, H8, H3, H9, Hv0, Hv1, Ho0, Ho1⟩
  ihave H0' := (pointsTo_share (PosShare.mem_left_op_right fullShare)).1 $$ H0
  icases H0' with ⟨Ha, Hb⟩
  isplitl [H1]; · iexact H1
  isplitl [Ha]; · iexact Ha
  isplitl [Hb]; · iexact Hb
  isplitl [H2]; · iexact H2
  isplitl [H8]; · iexact H8
  isplitl [H3]; · iexact H3
  isplitl [H9]; · iexact H9
  isplitl [Hv0]; · iexact Hv0
  isplitl [Hv1]; · iexact Hv1
  isplitl [Ho0]; · iexact Ho0
  iexact Ho1

/-- And back: the windows' arrays make the arrays held whole. -/
theorem hjoin0 (c : Dev nD) (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w)) :
    ((dat0 V c).arrays Fw : sProp 𝕄) ⊢ Pipeline.arrBufs (Ix := Unit) (Name := ℕ) (U := UR sig nD τ) (Lvl := ℕ) spec0 c V' := by
  rw [arrBufs0_eq, arrays0_eq, hF 0, hF 1, hF 2, hF 3, hF 4, hF 5, hF 6, hF 7, hF 8, hF 9, hF 10]
  iintro ⟨H1, Ha, Hb, H2, H8, H3, H9, Hv0, Hv1, Ho0, Ho1⟩
  isplitl [H1]; · iexact H1
  isplitl [Ha Hb]
  · iapply (pointsTo_share (PosShare.mem_left_op_right fullShare)).2
    isplitl [Ha]; · iexact Ha
    iexact Hb
  isplitl [H2]; · iexact H2
  isplitl [H8]; · iexact H8
  isplitl [H3]; · iexact H3
  isplitl [H9]; · iexact H9
  isplitl [Hv0]; · iexact Hv0
  isplitl [Hv1]; · iexact Hv1
  isplitl [Ho0]; · iexact Ho0
  iexact Ho1

end Region0

end Cert.KernelIdeal.Gen

end
-- ==== Proof.IdealSeg0.lean ====
import proofs.«160956_j71236327571877_2_alg».proof.Proof.Gen.KernelIdeal.Launch
import proofs.«160956_j71236327571877_2_alg».proof.Proof.Gen.KernelIdeal.Skeleton
import proofs.«160956_j71236327571877_2_alg».proof.Proof.Gen.KernelIdeal.Points
import proofs.«160956_j71236327571877_2_alg».proof.Proof.IdealOblig0
import proofs.«160956_j71236327571877_2_alg».proof.Proof.IdealShare0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving the first kernel's region

Between two items of the program a core holds every unscoped buffer whole at a valuation W. Entering the region
splits off the windows' arrays (the node features' buffer into its two halves); leaving it puts them back, the
two output arrays now at what the write-backs left and every other buffer as it was. The accumulators enter the
point-to-point invariant from the scoped buffers at contents nobody names, and go back there at the end. -/

section Region0

variable (W : Dev nD → Valuation τ sig (Elt F))

/-- The valuation read at the TensorCore's references: what the region's proof data take. -/
abbrev rdV (c : Dev nD) (b : Ref sig .tc) : Buf (Elt F) ((c : Thread nD τ).loc b) := W c b

/-- What the region leaves in its first output array, -/
def outA0 (c : Dev nD) : Buf (Elt F) ((c : Thread nD τ).loc main_v2_0) := (dat0 (rdV W) c).arrAt 9 cfg0.N
/-- and in its second. -/
def outB0 (c : Dev nD) : Buf (Elt F) ((c : Thread nD τ).loc main_v2_1) := (dat0 (rdV W) c).arrAt 10 cfg0.N

/-- The valuation after the region: the two output arrays replaced, everything else as entered. -/
def exitV0 (c : Dev nD) : Valuation τ sig (Elt F) :=
  Function.update (Function.update (W c) main_v2_0 (outA0 W c)) main_v2_1 (outB0 W c)

theorem exitV0_A (c : Dev nD) : exitV0 W c main_v2_0 = outA0 W c := by
  unfold exitV0
  rw [Function.update_of_ne (StableHlo.devRef_ne_of_ne (by decide) : (Proc.devRef .tc main_v2_0 : DevRef τ sig) ≠ Proc.devRef .tc main_v2_1), Function.update_self]
theorem exitV0_B (c : Dev nD) : exitV0 W c main_v2_1 = outB0 W c := by
  unfold exitV0; rw [Function.update_self]
theorem exitV0_of_ne (c : Dev nD) (b : Ref sig .tc) (h0 : b ≠ main_v2_0) (h1 : b ≠ main_v2_1) : exitV0 W c b = W c b := by
  unfold exitV0
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]

/-- ENTRY: the unscoped buffers at W are the windows' arrays at the entry contents and the rest. -/
theorem entry0 (c : Dev nD) :
    (StableHlo.held (c : Thread nD τ) (Pipeline.ucRefs τ sig) (W c) : sProp 𝕄)
      ⊢ iprop((dat0 (rdV W) c).arrays ((dat0 (rdV W) c).arrAt · 0)
          ∗ Pipeline.unscopedRest (Ix := Unit) (Name := ℕ) (U := UR sig nD τ) (Lvl := ℕ) spec0 c (rdV W c)) := by
  rw [← Pipeline.unscopedBufs_held (Ix := Unit) (Name := ℕ) (U := UR sig nD τ) (Lvl := ℕ) c (W c),
    Pipeline.unscopedBufs_split₀ cfgs 0 winFacts₀0.arr_unscoped c]
  exact sep_mono (hsplit0 (rdV W) c (rdV W c) _ (fun _ => rfl)) .rfl

/-- Each window's array after the last point is what the exit valuation holds there. -/
theorem exitF0 (c : Dev nD) : ∀ w : Fin cfg0.W, (dat0 (rdV W) c).arrAt w cfg0.N = exitV0 W c (Pipeline.arrRef spec0 w)
  | ⟨0, _⟩ => ((dat0 (rdV W) c).arrAt_in 0 rfl _).trans (exitV0_of_ne W c _ (by decide) (by decide)).symm
  | ⟨1, _⟩ => ((dat0 (rdV W) c).arrAt_in 1 rfl _).trans (exitV0_of_ne W c _ (by decide) (by decide)).symm
  | ⟨2, _⟩ => ((dat0 (rdV W) c).arrAt_in 2 rfl _).trans (exitV0_of_ne W c _ (by decide) (by decide)).symm
  | ⟨3, _⟩ => ((dat0 (rdV W) c).arrAt_in 3 rfl _).trans (exitV0_of_ne W c _ (by decide) (by decide)).symm
  | ⟨4, _⟩ => ((dat0 (rdV W) c).arrAt_in 4 rfl _).trans (exitV0_of_ne W c _ (by decide) (by decide)).symm
  | ⟨5, _⟩ => ((dat0 (rdV W) c).arrAt_in 5 rfl _).trans (exitV0_of_ne W c _ (by decide) (by decide)).symm
  | ⟨6, _⟩ => ((dat0 (rdV W) c).arrAt_in 6 rfl _).trans (exitV0_of_ne W c _ (by decide) (by decide)).symm
  | ⟨7, _⟩ => ((dat0 (rdV W) c).arrAt_in 7 rfl _).trans (exitV0_of_ne W c _ (by decide) (by decide)).symm
  | ⟨8, _⟩ => ((dat0 (rdV W) c).arrAt_in 8 rfl _).trans (exitV0_of_ne W c _ (by decide) (by decide)).symm
  | ⟨9, _⟩ => (exitV0_A W c).symm
  | ⟨10, _⟩ => (exitV0_B W c).symm

/-- EXIT: the windows' arrays after the last point and the rest are the unscoped buffers at the exit valuation. -/
theorem exit0 (c : Dev nD) :
    iprop((dat0 (rdV W) c).arrays ((dat0 (rdV W) c).arrAt · cfg0.N)
        ∗ Pipeline.unscopedRest (Ix := Unit) (Name := ℕ) (U := UR sig nD τ) (Lvl := ℕ) spec0 c (rdV W c))
      ⊢ (StableHlo.held (c : Thread nD τ) (Pipeline.ucRefs τ sig) (exitV0 W c) : sProp 𝕄) := by
  rw [← Pipeline.unscopedBufs_held (Ix := Unit) (Name := ℕ) (U := UR sig nD τ) (Lvl := ℕ) c (exitV0 W c),
    Pipeline.unscopedBufs_split₀ cfgs 0 winFacts₀0.arr_unscoped c]
  refine sep_mono (hjoin0 (rdV W) c (fun b => exitV0 W c b) _ (exitF0 W c)) (Entails.of_eq ?_)
  unfold Pipeline.unscopedRest
  refine bigSep_congr fun b hb => ?_
  have hb' := (Finset.mem_sdiff.mp hb).2
  dsimp only
  rw [exitV0_of_ne W c b (fun e => hb' (Finset.mem_image.mpr ⟨9, Finset.mem_univ _, e.symm⟩))
    (fun e => hb' (Finset.mem_image.mpr ⟨10, Finset.mem_univ _, e.symm⟩))]

variable (V : (c : Dev nD) → (b : Ref sig .tc) → Buf (Elt F) ((c : Thread nD τ).loc b))

/-- The scoped buffers no window stages, at contents nobody names, make the invariant before the first point. -/
theorem Phi0_of_scoped (c : Dev nD) :
    (Pipeline.scopedRest (Ix := Unit) (Name := ℕ) (U := UR sig nD τ) (Lvl := ℕ) (Val := Elt F) spec0 c : sProp 𝕄) ⊢ Phi0 V c 0 := by
  rw [scopedRest0_eq]; unfold Phi0 rest0
  simp only [scM0_0, scM0_1, owns_whole]
  iintro ⟨⟨%f0, H0⟩, ⟨%f1, H1⟩, HR⟩
  isplitl [H0]
  · iexists f0; isplitr; · ipureintro; intro h; exact absurd (by rw [Fin.val_zero]) h
    iexact H0
  isplitl [H1]
  · iexists f1; isplitr; · ipureintro; intro h; exact absurd (by rw [Fin.val_zero]) h
    iexact H1
  iexact HR

/-- The invariant at any point gives those buffers back. -/
theorem scoped_of_Phi0 (c : Dev nD) (t : Fin (cfg0.N + 1)) :
    Phi0 V c t ⊢ (Pipeline.scopedRest (Ix := Unit) (Name := ℕ) (U := UR sig nD τ) (Lvl := ℕ) (Val := Elt F) spec0 c : sProp 𝕄) := by
  rw [scopedRest0_eq]; unfold Phi0 rest0
  simp only [scM0_0, scM0_1, owns_whole]
  iintro ⟨⟨%s0, -, H0⟩, ⟨%s1, -, H1⟩, HR⟩
  isplitl [H0]; · iexists s0; iexact H0
  isplitl [H1]; · iexists s1; iexact H1
  iexact HR

end Region0

end Cert.KernelIdeal.Gen

end
-- ==== Proof.IdealBody1.lean ====
import proofs.«160956_j71236327571877_2_alg».proof.Proof.IdealBody0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body on any whole staging buffers

The body reads ten input buffers (a 2048×1024 block of the operator, the 1024 rows of each stack's first-layer states the
block's columns name, the 2048 rows of node features of the output block, each stack's two weight matrices and its bias
row), two accumulators it owns, and one output buffer. What it does depends on the point's second coordinate only
through two tests, "is it 0" and "is it 15"; the three cases the grid meets are run here, each once, on arbitrary whole
buffers, with the arithmetic left as the named payload terms. -/

/-- "The second grid coordinate is 0", as the body computes it. -/
abbrev cond1_0 (i : grid1.Coords) : Prop := (Scalar.cmpi .ne (Scalar.extui (Scalar.cmpi .eq (BitVec.ofNat 32 (i 1).val) 0#32)) 0#32) = 1#1
/-- "The second grid coordinate is 15", as the body computes it. -/
abbrev cond1_1 (i : grid1.Coords) : Prop := k1_cond2 i = 1#1

/-! A load through the whole rectangle reads the buffer's contents as they are, at the two shapes only this body meets. -/
theorem ldz_1024x32 (inb) (X : S1024x32.Idx → Elt F .f32) : View.ld X (Rect.unit (s := S1024x32) ![0, 0] ![1024, 32] inb) = X := View.ld_unit_zero (S := S1024x32) hz2 inb X
theorem ldz_32x32 (inb) (X : S32x32.Idx → Elt F .f32) : View.ld X (Rect.unit (s := S32x32) ![0, 0] ![32, 32] inb) = X := View.ld_unit_zero (S := S32x32) hz2 inb X

set_option maxHeartbeats 1000000 in
/-- At a grid point whose second coordinate is neither 0 nor 15 the body adds the point's block product to each accumulator; the output buffer is not touched. -/
theorem sound_kernel1_mid (c : Dev nD) (i : grid1.Coords) (hc0 : ¬ cond1_0 i) (hc1 : ¬ cond1_1 i) (E : Set ℕ)
    (arg2 : Memref sig .tc .vmem S2048x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S2048x64 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S64x32 .f32) (harg8 : arg8.IsWhole) (arg9 : Memref sig .tc .vmem S64x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 x4 : Vec F S1024x32 .f32) (x5 : Vec F S2048x64 .f32) (x6 x7 : Vec F S32x32 .f32) (x8 x9 : Vec F S64x32 .f32) (x10 x11 : Vec F S1x32 .f32)
    (o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare (k1_pay5 x3 x6 x2 s13)
        ∗ owns (c : Thread nD τ) arg14 fullShare (k1_pay6 x4 x7 x2 s14)) -∗ K ⟨⟩))
      ⊢ wp frame (wpE (defs₀ (F := F)) Variants.none c none) E (cc1__gcs_kernel1 i arg2 harg2 arg3 harg3 arg4 harg4 arg5 harg5 arg6 harg6 arg7 harg7 arg8 harg8 arg9 harg9 arg10 harg10 arg11 harg11 arg12 harg12 arg13 harg13 arg14 harg14) K := by
  simp only [cc1__gcs_kernel1_eq_skeleton]; unfold cc1__gcs_kernel1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]

set_option maxHeartbeats 1000000 in
/-- At a grid point whose second coordinate is 0 (and not 15) the body clears both accumulators and adds the point's block product to each; the output buffer is not touched. -/
theorem sound_kernel1_first (c : Dev nD) (i : grid1.Coords) (hc0 : cond1_0 i) (hc1 : ¬ cond1_1 i) (E : Set ℕ)
    (arg2 : Memref sig .tc .vmem S2048x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S2048x64 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S64x32 .f32) (harg8 : arg8.IsWhole) (arg9 : Memref sig .tc .vmem S64x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 x4 : Vec F S1024x32 .f32) (x5 : Vec F S2048x64 .f32) (x6 x7 : Vec F S32x32 .f32) (x8 x9 : Vec F S64x32 .f32) (x10 x11 : Vec F S1x32 .f32)
    (o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare (k1_pay5 x3 x6 x2 k1_pay2)
        ∗ owns (c : Thread nD τ) arg14 fullShare (k1_pay6 x4 x7 x2 k1_pay3)) -∗ K ⟨⟩))
      ⊢ wp frame (wpE (defs₀ (F := F)) Variants.none c none) E (cc1__gcs_kernel1 i arg2 harg2 arg3 harg3 arg4 harg4 arg5 harg5 arg6 harg6 arg7 harg7 arg8 harg8 arg9 harg9 arg10 harg10 arg11 harg11 arg12 harg12 arg13 harg13 arg14 harg14) K := by
  simp only [cc1__gcs_kernel1_eq_skeleton]; unfold cc1__gcs_kernel1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]

set_option maxHeartbeats 1000000 in
/-- At a grid point whose second coordinate is 15 (and not 0) the body adds the point's block product to each accumulator and then stores, into the output buffer, the half of the sum of the two stacks' rectified sums of accumulator, skip term and bias. -/
theorem sound_kernel1_last (c : Dev nD) (i : grid1.Coords) (hc0 : ¬ cond1_0 i) (hc1 : cond1_1 i) (E : Set ℕ)
    (arg2 : Memref sig .tc .vmem S2048x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S2048x64 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S64x32 .f32) (harg8 : arg8.IsWhole) (arg9 : Memref sig .tc .vmem S64x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x32 .f32) (harg13 : arg13.IsWhole) (arg14 : Memref sig .tc .vmem S2048x32 .f32) (harg14 : arg14.IsWhole)
    (x2 : Vec F S2048x1024 .f32) (x3 x4 : Vec F S1024x32 .f32) (x5 : Vec F S2048x64 .f32) (x6 x7 : Vec F S32x32 .f32) (x8 x9 : Vec F S64x32 .f32) (x10 x11 : Vec F S1x32 .f32)
    (o12 s13 s14 : Vec F S2048x32 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare o12
        ∗ owns (c : Thread nD τ) arg13 fullShare s13
        ∗ owns (c : Thread nD τ) arg14 fullShare s14
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare (k1_pay1 x5 x8 x9 (k1_pay5 x3 x6 x2 s13) x10 (k1_pay6 x4 x7 x2 s14) x11)
        ∗ owns (c : Thread nD τ) arg13 fullShare (k1_pay5 x3 x6 x2 s13)
        ∗ owns (c : Thread nD τ) arg14 fullShare (k1_pay6 x4 x7 x2 s14)) -∗ K ⟨⟩))
      ⊢ wp frame (wpE (defs₀ (F := F)) Variants.none c none) E (cc1__gcs_kernel1 i arg2 harg2 arg3 harg3 arg4 harg4 arg5 harg5 arg6 harg6 arg7 harg7 arg8 harg8 arg9 harg9 arg10 harg10 arg11 harg11 arg12 harg12 arg13 harg13 arg14 harg14) K := by
  simp only [cc1__gcs_kernel1_eq_skeleton]; unfold cc1__gcs_kernel1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]
  isplitl [H13]
  · iexists _; isplitr
    swap; · iexact H13
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]
  · iexists _; isplitr
    swap; · iexact H14
    ipureintro
    try sl_unfold_run_names
    simp only [rws, View.readCov_cons_toLoadRect, View.readAt_eq_ld, Memref.IsWhole.read_unread, ldz_2048x1024, ldz_1024x32, ldz_2048x64, ldz_64x32, ldz_32x32, ldz_1x32, ldz_2048x32]

end Cert.KernelIdeal.Gen

end
-- ==== Proof.IdealData1.lean ====
import proofs.«160956_j71236327571877_2_alg».proof.Proof.Gen.KernelIdeal.Launch
import proofs.«160956_j71236327571877_2_alg».proof.Proof.Gen.KernelIdeal.Skeleton
import proofs.«160956_j71236327571877_2_alg».proof.Proof.Gen.KernelIdeal.Points
import proofs.«160956_j71236327571877_2_alg».proof.Proof.IdealBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's region: what every buffer holds at every grid point

The grid has 8 × 16 points; point t = 16·i + k works on the 2048 rows of row block i and the 1024 columns of
column block k. Every input window's buffer holds its block of the array the region found (V). The two
accumulators are cleared at k = 0 and gain one block product per point, so after point t they hold the partial
sum over the column blocks 0 … k of row block i; the output buffer is written at k = 15 only, with the half of
the sum of the two stacks' rectified full sums. All of it is stated at the contents V the region is entered with,
whatever they are. -/

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point, fetched there or not: a window that is not fetched
    at a point has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The first accumulator after the points below n: cleared at the first column block of each row block, then one
    block product added per point. (Its value at 0 is never consulted.) -/
def acc1_0 (c : Dev nD) : ℕ → Vec F S2048x32 .f32
  | 0 => k1_pay2
  | n + 1 => if h : n < cfg1.N then
      k1_pay5 (iblk1 V c 1 ⟨n, h⟩) (iblk1 V c 4 ⟨n, h⟩) (iblk1 V c 0 ⟨n, h⟩) (if n % 16 = 0 then k1_pay2 else acc1_0 c n)
    else k1_pay2
/-- The second accumulator, likewise, through the second stack's states and weights. -/
def acc1_1 (c : Dev nD) : ℕ → Vec F S2048x32 .f32
  | 0 => k1_pay3
  | n + 1 => if h : n < cfg1.N then
      k1_pay6 (iblk1 V c 2 ⟨n, h⟩) (iblk1 V c 5 ⟨n, h⟩) (iblk1 V c 0 ⟨n, h⟩) (if n % 16 = 0 then k1_pay3 else acc1_1 c n)
    else k1_pay3

theorem acc1_0_succ (c : Dev nD) (t : Fin cfg1.N) : acc1_0 V c (t.val + 1)
    = k1_pay5 (iblk1 V c 1 t) (iblk1 V c 4 t) (iblk1 V c 0 t) (if t.val % 16 = 0 then k1_pay2 else acc1_0 V c t.val) := by
  rw [acc1_0, dif_pos t.isLt]
theorem acc1_1_succ (c : Dev nD) (t : Fin cfg1.N) : acc1_1 V c (t.val + 1)
    = k1_pay6 (iblk1 V c 2 t) (iblk1 V c 5 t) (iblk1 V c 0 t) (if t.val % 16 = 0 then k1_pay3 else acc1_1 V c t.val) := by
  rw [acc1_1, dif_pos t.isLt]

/-- The two accumulators as whole buffers of the kernel's own. -/
abbrev scM1_0 : Memref sig .tc .vmem S2048x32 .f32 := Memref.whole cc1_scratch0
abbrev scM1_1 : Memref sig .tc .vmem S2048x32 .f32 := Memref.whole cc1_scratch1

/-- The core's other scoped buffers (the first kernel's), each whole at some contents: untouched by this region. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f)
    ∗ (∃ f : Buf (Elt F) ((c : Thread nD τ).loc cc0_stg10_0), ((c : Thread nD τ).loc cc0_stg10_0) ↦{fullShare} f)
    ∗ (∃ f : Buf (Elt F) ((c : Thread nD τ).loc cc0_stg10_1), ((c : Thread nD τ).loc cc0_stg10_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What is carried from point to point: the two accumulators, holding the partial sums except right after a row
    block's last point (where the next point clears them and nothing is claimed), and the untouched rest. -/
def Phi1 (c : Dev nD) (t : Fin (cfg1.N + 1)) : sProp 𝕄 :=
  iprop((∃ s, ⌜t.val % 16 ≠ 0 → s = acc1_0 V c t.val⌝ ∗ owns (c : Thread nD τ) scM1_0 fullShare s)
    ∗ (∃ s, ⌜t.val % 16 ≠ 0 → s = acc1_1 V c t.val⌝ ∗ owns (c : Thread nD τ) scM1_1 fullShare s)
    ∗ rest1 c)

/-- The region's proof data on core c. Every window has an array of its own, held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => k1_pay1 (iblk1 V c 3 t) (iblk1 V c 6 t) (iblk1 V c 7 t) (acc1_0 V c (t.val + 1)) (iblk1 V c 8 t) (acc1_1 V c (t.val + 1)) (iblk1 V c 9 t)
  Φ t := Phi1 V c t
  q w := match w with
    | ⟨0, _⟩ => fullShare | ⟨1, _⟩ => fullShare | ⟨2, _⟩ => fullShare | ⟨3, _⟩ => fullShare | ⟨4, _⟩ => fullShare | ⟨5, _⟩ => fullShare
    | ⟨6, _⟩ => fullShare | ⟨7, _⟩ => fullShare | ⟨8, _⟩ => fullShare | ⟨9, _⟩ => fullShare | ⟨10, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = k1_pay1 (iblk1 V c 3 t) (iblk1 V c 6 t) (iblk1 V c 7 t) (acc1_0 V c (t.val + 1)) (iblk1 V c 8 t) (acc1_1 V c (t.val + 1)) (iblk1 V c 9 t) := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d
theorem before1_6 (c : Dev nD) (t : Fin cfg1.N) (d) : (dat1 V c).before 6 t d = iblk1 V c 6 t := before1_6_of V (dat1 V c) (A_eq1 V c 6) (after1_6 V c) t d
theorem before1_7 (c : Dev nD) (t : Fin cfg1.N) (d) : (dat1 V c).before 7 t d = iblk1 V c 7 t := before1_7_of V (dat1 V c) (A_eq1 V c 7) (after1_7 V c) t d
theorem before1_8 (c : Dev nD) (t : Fin cfg1.N) (d) : (dat1 V c).before 8 t d = iblk1 V c 8 t := before1_8_of V (dat1 V c) (A_eq1 V c 8) (after1_8 V c) t d
theorem before1_9 (c : Dev nD) (t : Fin cfg1.N) (d) : (dat1 V c).before 9 t d = iblk1 V c 9 t := before1_9_of V (dat1 V c) (A_eq1 V c 9) (after1_9 V c) t d

/-! ## The two tests over the grid -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)
/-- Away from a row block's last point the output window is idle and not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel

end Region1

end Cert.KernelIdeal.Gen

end
-- ==== Proof.IdealOblig1.lean ====
import proofs.«160956_j71236327571877_2_alg».proof.Proof.Gen.KernelIdeal.Launch
import proofs.«160956_j71236327571877_2_alg».proof.Proof.Gen.KernelIdeal.Skeleton
import proofs.«160956_j71236327571877_2_alg».proof.Proof.Gen.KernelIdeal.Points
import proofs.«160956_j71236327571877_2_alg».proof.Proof.IdealBody1
import proofs.«160956_j71236327571877_2_alg».proof.Proof.IdealData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body at every grid point

At point t the pipeline hands the body each window's current buffer and the two accumulators; by the point's
second coordinate one of three runs applies. What it leaves is the proof data's next entry: the accumulators
with one more block product (from zero at a row block's first point), and at a row block's last point the
output buffer at the half of the sum of the two stacks' rectified sums. -/

section Region1

variable (V : (c : Dev nD) → (b : Ref sig .tc) → Buf (Elt F) ((c : Thread nD τ).loc b))

/-- What the body is called with at point t, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What it returns: the inputs in place, the output written at a row block's last point and handed back as found elsewhere. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ (dat1 V c).leavesExact 10 t)

/-- A point inside a row block: one block product more in each accumulator. -/
theorem sound_body1_mid (c : Dev nD) (t : Fin cfg1.N) (h0 : ¬cond1_0 (grid1.coords t)) (h1 : ¬cond1_1 (grid1.coords t)) :
    bodyPre1 V c t ⊢ wp frame (wpE (defs₀ (F := F)) Variants.none c none) Set.univ (bodyAt1 t) (fun _ => bodyPost1 V c t) := by
  have hm0 : t.val % 16 ≠ 0 := fun e => h0 ((hcond1_0 t).mpr e)
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    show (dat1 V c).Φ t.succ = Phi1 V c t.succ from rfl, show (dat1 V c).Φ t.castSucc = Phi1 V c t.castSucc from rfl,
    after1_0, after1_1, after1_2, after1_3, after1_4, after1_5, after1_6, after1_7, after1_8, after1_9,
    Dat.leavesExact_idle _ 10 t (idleAt1_10 t h1) (noFlush1_10 t h1)]
  unfold Phi1
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e0 := hs0 hm0; have e1 := hs1 hm0; subst e0; subst e1
  iapply (sound_kernel1_mid c (grid1.coords t) h0 h1 Set.univ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 10 t d10) (acc1_0 V c t.val) (acc1_1 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg1.N + 1)).val = t.val + 1 from rfl, acc1_0_succ, if_neg hm0]
    isplitl [HS1]
    · iexists _; isplitr; swap; · iexact HS1
      ipureintro; intro _; rw [show (t.succ : Fin (cfg1.N + 1)).val = t.val + 1 from rfl, acc1_1_succ, if_neg hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- A row block's first point: the accumulators start from zero. -/
theorem sound_body1_first (c : Dev nD) (t : Fin cfg1.N) (h0 : cond1_0 (grid1.coords t)) (h1 : ¬cond1_1 (grid1.coords t)) :
    bodyPre1 V c t ⊢ wp frame (wpE (defs₀ (F := F)) Variants.none c none) Set.univ (bodyAt1 t) (fun _ => bodyPost1 V c t) := by
  have hm0 : t.val % 16 = 0 := (hcond1_0 t).mp h0
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    show (dat1 V c).Φ t.succ = Phi1 V c t.succ from rfl, show (dat1 V c).Φ t.castSucc = Phi1 V c t.castSucc from rfl,
    after1_0, after1_1, after1_2, after1_3, after1_4, after1_5, after1_6, after1_7, after1_8, after1_9,
    Dat.leavesExact_idle _ 10 t (idleAt1_10 t h1) (noFlush1_10 t h1)]
  unfold Phi1
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1_first c (grid1.coords t) h0 h1 Set.univ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 10 t d10) s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg1.N + 1)).val = t.val + 1 from rfl, acc1_0_succ, if_pos hm0]
    isplitl [HS1]
    · iexists _; isplitr; swap; · iexact HS1
      ipureintro; intro _; rw [show (t.succ : Fin (cfg1.N + 1)).val = t.val + 1 from rfl, acc1_1_succ, if_pos hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- A row block's last point: the last block product, then the output from the two full sums. -/
theorem sound_body1_last (c : Dev nD) (t : Fin cfg1.N) (h0 : ¬cond1_0 (grid1.coords t)) (h1 : cond1_1 (grid1.coords t)) :
    bodyPre1 V c t ⊢ wp frame (wpE (defs₀ (F := F)) Variants.none c none) Set.univ (bodyAt1 t) (fun _ => bodyPost1 V c t) := by
  have hm0 : t.val % 16 ≠ 0 := fun e => h0 ((hcond1_0 t).mpr e)
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    show (dat1 V c).Φ t.succ = Phi1 V c t.succ from rfl, show (dat1 V c).Φ t.castSucc = Phi1 V c t.castSucc from rfl,
    after1_0, after1_1, after1_2, after1_3, after1_4, after1_5, after1_6, after1_7, after1_8, after1_9,
    show (dat1 V c).leavesExact 10 t = owns (c : Thread nD τ) (st1_10 t) fullShare ((dat1 V c).after 10 t) from by unfold Dat.leavesExact; rw [liveAt1_10 t h1],
    after1_10, acc1_0_succ, acc1_1_succ, if_neg hm0, if_neg hm0]
  unfold Phi1
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e0 := hs0 hm0; have e1 := hs1 hm0; subst e0; subst e1
  iapply (sound_kernel1_last c (grid1.coords t) h0 h1 Set.univ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 10 t d10) (acc1_0 V c t.val) (acc1_1 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 HR]
  · isplitl [HS0]
    · iexists _; isplitr; swap; · iexact HS0
      ipureintro; intro _; rw [show (t.succ : Fin (cfg1.N + 1)).val = t.val + 1 from rfl, acc1_0_succ, if_neg hm0]
    isplitl [HS1]
    · iexists _; isplitr; swap; · iexact HS1
      ipureintro; intro _; rw [show (t.succ : Fin (cfg1.N + 1)).val = t.val + 1 from rfl, acc1_1_succ, if_neg hm0]
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point: by the point's second coordinate. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : cond1_0 (grid1.coords t)
  · by_cases h1 : cond1_1 (grid1.coords t)
    · exact absurd ((hcond1_1 t).mp h1) (by have := (hcond1_0 t).mp h0; omega)
    · exact sound_body1_first V c t h0 h1
  · by_cases h1 : cond1_1 (grid1.coords t)
    · exact sound_body1_last V c t h0 h1
    · exact sound_body1_mid V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.IdealSeg1.lean ====
import proofs.«160956_j71236327571877_2_alg».proof.Proof.Gen.KernelIdeal.Launch
import proofs.«160956_j71236327571877_2_alg».proof.Proof.Gen.KernelIdeal.Skeleton
import proofs.«160956_j71236327571877_2_alg».proof.Proof.Gen.KernelIdeal.Points
import proofs.«160956_j71236327571877_2_alg».proof.Proof.IdealOblig1
import proofs.«160956_j71236327571877_2_alg».proof.Proof.IdealSeg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving the second kernel's region

Between two items of the program a core holds every unscoped buffer whole at a valuation W. The second region's
eleven windows have eleven distinct arrays, each held whole, so entering the region only sets them apart from the
other unscoped buffers; leaving it puts them back, the output array now at what the write-backs left and every
other buffer as it was. The accumulators enter the point-to-point invariant from the scoped buffers at contents
nobody names, and go back there at the end. -/

section Region1

variable (W : Dev nD → Valuation τ sig (Elt F))

section Arrays

variable (V : (c : Dev nD) → (b : Ref sig .tc) → Buf (Elt F) ((c : Thread nD τ).loc b))

/-- The eleven distinct arrays behind the eleven windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1)
        ∗ (((c : Thread nD τ).loc main_v2_0) ↦{fullShare} V' main_v2_0)
        ∗ (((c : Thread nD τ).loc main_v2_1) ↦{fullShare} V' main_v2_1)
        ∗ (((c : Thread nD τ).loc main_arg0) ↦{fullShare} V' main_arg0)
        ∗ (((c : Thread nD τ).loc main_arg5) ↦{fullShare} V' main_arg5)
        ∗ (((c : Thread nD τ).loc main_arg11) ↦{fullShare} V' main_arg11)
        ∗ (((c : Thread nD τ).loc main_arg6) ↦{fullShare} V' main_arg6)
        ∗ (((c : Thread nD τ).loc main_arg12) ↦{fullShare} V' main_arg12)
        ∗ (((c : Thread nD τ).loc main_v3) ↦{fullShare} V' main_v3)
        ∗ (((c : Thread nD τ).loc main_v4) ↦{fullShare} V' main_v4)
        ∗ (((c : Thread nD τ).loc main_v5) ↦{fullShare} V' main_v5)) := by
  unfold Pipeline.arrBufs
  exact bigSep_eq_bigSepL_of_eq [main_arg1, main_v2_0, main_v2_1, main_arg0, main_arg5, main_arg11, main_arg6, main_arg12, main_v3, main_v4, main_v5] (by decide) (by decide) _

/-- A window's array, a whole buffer, held through its view is the buffer held. -/
theorem arr1_pt (c : Dev nD) (w : Fin cfg1.W) (q : PosShare TreeShare) (f : Buf (Elt F) ((cfg1.win w).arr.view.loc (c : Thread nD τ))) :
    ((cfg1.win w).arr.view.loc (c : Thread nD τ) ↦[(cfg1.win w).arr.view.set]{q} f : sProp 𝕄)
      = (((c : Thread nD τ).loc (Pipeline.arrRef spec1 w)) ↦{q} f) := by
  rw [(arr_whole1 w).set_eq_univ]

/-! The share each window holds its array at: the full one, every array being one window's alone. -/
theorem share1_0 (c : Dev nD) : (dat1 V c).share 0 = fullShare := rfl
theorem share1_1 (c : Dev nD) : (dat1 V c).share 1 = fullShare := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl
theorem share1_10 (c : Dev nD) : (dat1 V c).share 10 = fullShare := rfl

/-- The eleven windows' arrays, one by one, each whole. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_arg1) ↦{fullShare} Fw 0)
        ∗ (((c : Thread nD τ).loc main_v2_0) ↦{fullShare} Fw 1)
        ∗ (((c : Thread nD τ).loc main_v2_1) ↦{fullShare} Fw 2)
        ∗ (((c : Thread nD τ).loc main_arg0) ↦{fullShare} Fw 3)
        ∗ (((c : Thread nD τ).loc main_arg5) ↦{fullShare} Fw 4)
        ∗ (((c : Thread nD τ).loc main_arg11) ↦{fullShare} Fw 5)
        ∗ (((c : Thread nD τ).loc main_arg6) ↦{fullShare} Fw 6)
        ∗ (((c : Thread nD τ).loc main_arg12) ↦{fullShare} Fw 7)
        ∗ (((c : Thread nD τ).loc main_v3) ↦{fullShare} Fw 8)
        ∗ (((c : Thread nD τ).loc main_v4) ↦{fullShare} Fw 9)
        ∗ (((c : Thread nD τ).loc main_v5) ↦{fullShare} Fw 10)) := by
  unfold Dat.arrays
  rw [bigSep_W1]
  simp only [Memref.view_whole, View.set_whole, share1_0, share1_1, share1_2, share1_3, share1_4, share1_5, share1_6, share1_7, share1_8, share1_9, share1_10]

/-- The arrays held whole make the windows' arrays, at any contents that are the buffers'. -/
theorem hsplit1 (c : Dev nD) (V' : (b : Ref sig .tc) → Buf (Elt F) ((c : Thread nD τ).loc b))
    (Fw : (w : Fin cfg1.W) → Buf (Elt F) ((cfg1.win w).arr.view.loc (c : Thread nD τ))) (hF : ∀ w, Fw w = V' (Pipeline.arrRef spec1 w)) :
    (Pipeline.arrBufs (Ix := Unit) (Name := ℕ) (U := UR sig nD τ) (Lvl := ℕ) spec1 c V' : sProp 𝕄) ⊢ (dat1 V c).arrays Fw := by
  rw [arrBufs1_eq, arrays1_eq, hF 0, hF 1, hF 2, hF 3, hF 4, hF 5, hF 6, hF 7, hF 8, hF 9, hF 10]

/-- And back: the windows' arrays make the arrays held whole. -/
theorem hjoin1 (c : Dev nD) (V' : (b : Ref sig .tc) → Buf (Elt F) ((c : Thread nD τ).loc b))
    (Fw : (w : Fin cfg1.W) → Buf (Elt F) ((cfg1.win w).arr.view.loc (c : Thread nD τ))) (hF : ∀ w, Fw w = V' (Pipeline.arrRef spec1 w)) :
    ((dat1 V c).arrays Fw : sProp 𝕄) ⊢ Pipeline.arrBufs (Ix := Unit) (Name := ℕ) (U := UR sig nD τ) (Lvl := ℕ) spec1 c V' := by
  rw [arrBufs1_eq, arrays1_eq, hF 0, hF 1, hF 2, hF 3, hF 4, hF 5, hF 6, hF 7, hF 8, hF 9, hF 10]

end Arrays

/-- What the region leaves in its output array. -/
def outA1 (c : Dev nD) : Buf (Elt F) ((c : Thread nD τ).loc main_v5) := (dat1 (rdV W) c).arrAt 10 cfg1.N

/-- The valuation after the region: the output array replaced, everything else as entered. -/
def exitV1 (c : Dev nD) : Valuation τ sig (Elt F) := Function.update (W c) main_v5 (outA1 W c)

theorem exitV1_A (c : Dev nD) : exitV1 W c main_v5 = outA1 W c := by
  unfold exitV1; rw [Function.update_self]
theorem exitV1_of_ne (c : Dev nD) (b : Ref sig .tc) (h : b ≠ main_v5) : exitV1 W c b = W c b := by
  unfold exitV1
  rw [Function.update_of_ne (StableHlo.devRef_ne_of_ne h : (Proc.devRef .tc b : DevRef τ sig) ≠ Proc.devRef .tc main_v5)]

/-- ENTRY: the unscoped buffers at W are the windows' arrays at the entry contents and the rest. -/
theorem entry1 (c : Dev nD) :
    (StableHlo.held (c : Thread nD τ) (Pipeline.ucRefs τ sig) (W c) : sProp 𝕄)
      ⊢ iprop((dat1 (rdV W) c).arrays ((dat1 (rdV W) c).arrAt · 0)
          ∗ Pipeline.unscopedRest (Ix := Unit) (Name := ℕ) (U := UR sig nD τ) (Lvl := ℕ) spec1 c (rdV W c)) := by
  rw [← Pipeline.unscopedBufs_held (Ix := Unit) (Name := ℕ) (U := UR sig nD τ) (Lvl := ℕ) c (W c),
    Pipeline.unscopedBufs_split₀ cfgs 1 winFacts1.arr_unscoped c]
  exact sep_mono (hsplit1 (rdV W) c (rdV W c) _ (fun _ => rfl)) .rfl

/-- Each window's array after the last point is what the exit valuation holds there. -/
theorem exitF1 (c : Dev nD) : ∀ w : Fin cfg1.W, (dat1 (rdV W) c).arrAt w cfg1.N = exitV1 W c (Pipeline.arrRef spec1 w)
  | ⟨0, _⟩ => ((dat1 (rdV W) c).arrAt_in 0 rfl _).trans (exitV1_of_ne W c _ (by decide)).symm
  | ⟨1, _⟩ => ((dat1 (rdV W) c).arrAt_in 1 rfl _).trans (exitV1_of_ne W c _ (by decide)).symm
  | ⟨2, _⟩ => ((dat1 (rdV W) c).arrAt_in 2 rfl _).trans (exitV1_of_ne W c _ (by decide)).symm
  | ⟨3, _⟩ => ((dat1 (rdV W) c).arrAt_in 3 rfl _).trans (exitV1_of_ne W c _ (by decide)).symm
  | ⟨4, _⟩ => ((dat1 (rdV W) c).arrAt_in 4 rfl _).trans (exitV1_of_ne W c _ (by decide)).symm
  | ⟨5, _⟩ => ((dat1 (rdV W) c).arrAt_in 5 rfl _).trans (exitV1_of_ne W c _ (by decide)).symm
  | ⟨6, _⟩ => ((dat1 (rdV W) c).arrAt_in 6 rfl _).trans (exitV1_of_ne W c _ (by decide)).symm
  | ⟨7, _⟩ => ((dat1 (rdV W) c).arrAt_in 7 rfl _).trans (exitV1_of_ne W c _ (by decide)).symm
  | ⟨8, _⟩ => ((dat1 (rdV W) c).arrAt_in 8 rfl _).trans (exitV1_of_ne W c _ (by decide)).symm
  | ⟨9, _⟩ => ((dat1 (rdV W) c).arrAt_in 9 rfl _).trans (exitV1_of_ne W c _ (by decide)).symm
  | ⟨10, _⟩ => (exitV1_A W c).symm

/-- EXIT: the windows' arrays after the last point and the rest are the unscoped buffers at the exit valuation. -/
theorem exit1 (c : Dev nD) :
    iprop((dat1 (rdV W) c).arrays ((dat1 (rdV W) c).arrAt · cfg1.N)
        ∗ Pipeline.unscopedRest (Ix := Unit) (Name := ℕ) (U := UR sig nD τ) (Lvl := ℕ) spec1 c (rdV W c))
      ⊢ (StableHlo.held (c : Thread nD τ) (Pipeline.ucRefs τ sig) (exitV1 W c) : sProp 𝕄) := by
  rw [← Pipeline.unscopedBufs_held (Ix := Unit) (Name := ℕ) (U := UR sig nD τ) (Lvl := ℕ) c (exitV1 W c),
    Pipeline.unscopedBufs_split₀ cfgs 1 winFacts1.arr_unscoped c]
  refine sep_mono (hjoin1 (rdV W) c (fun b => exitV1 W c b) _ (exitF1 W c)) (Entails.of_eq ?_)
  unfold Pipeline.unscopedRest
  refine bigSep_congr fun b hb => ?_
  have hb' := (Finset.mem_sdiff.mp hb).2
  dsimp only
  rw [exitV1_of_ne W c b (fun e => hb' (Finset.mem_image.mpr ⟨10, Finset.mem_univ _, e.symm⟩))]

variable (V : (c : Dev nD) → (b : Ref sig .tc) → Buf (Elt F) ((c : Thread nD τ).loc b))

/-- The scoped buffers no window stages, at contents nobody names, make the invariant before the first point. -/
theorem Phi1_of_scoped (c : Dev nD) :
    (Pipeline.scopedRest (Ix := Unit) (Name := ℕ) (U := UR sig nD τ) (Lvl := ℕ) (Val := Elt F) spec1 c : sProp 𝕄) ⊢ Phi1 V c 0 := by
  rw [scopedRest1_eq]; unfold Phi1 rest1
  simp only [scM1_0, scM1_1, owns_whole]
  iintro ⟨R0, R1, R2, R3, R4, R5, R6, R7, R8, R9, R10, R11, R12, R13, R14, R15, R16, R17, ⟨%f0, H0⟩, ⟨%f1, H1⟩⟩
  isplitl [H0]
  · iexists f0; isplitr; · ipureintro; intro h; exact absurd (by rw [Fin.val_zero]) h
    iexact H0
  isplitl [H1]
  · iexists f1; isplitr; · ipureintro; intro h; exact absurd (by rw [Fin.val_zero]) h
    iexact H1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexact R17

/-- The invariant at any point gives those buffers back. -/
theorem scoped_of_Phi1 (c : Dev nD) (t : Fin (cfg1.N + 1)) :
    Phi1 V c t ⊢ (Pipeline.scopedRest (Ix := Unit) (Name := ℕ) (U := UR sig nD τ) (Lvl := ℕ) (Val := Elt F) spec1 c : sProp 𝕄) := by
  rw [scopedRest1_eq]; unfold Phi1 rest1
  simp only [scM1_0, scM1_1, owns_whole]
  iintro ⟨⟨%s0, -, H0⟩, ⟨%s1, -, H1⟩, R0, R1, R2, R3, R4, R5, R6, R7, R8, R9, R10, R11, R12, R13, R14, R15, R16, R17⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [H0]; · iexists s0; iexact H0
  iexists s1; iexact H1

end Region1

end Cert.KernelIdeal.Gen

end
-- ==== Proof.IdealRunCond.lean ====
import proofs.«160956_j71236327571877_2_alg».proof.Proof.Gen.KernelIdeal.Regions

/-! # The program's run with its result named

The host side of the two-region program (its host stretches, the chaining of the thread states, the launch's first
state, the read-back at the end) composed exactly as for the frame claim, reading one more buffer off the last
valuation: the result array. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The program's run, given the two regions' records: as the conditional frame, with the result array named as well. Every weakly
    fair execution from memory m with zero counters terminates, and every final memory holds the result buffer at what
    the last valuation has there and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v5) = V4 m outs c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v5) = V4 m outs c main_v5 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v5) (Finset.mem_filter.mpr ⟨StableHlo.devRef_mem_tcRefs main_v5, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_arg5) (Finset.mem_filter.mpr ⟨StableHlo.devRef_mem_tcRefs main_arg5, by decide⟩)).trans (V4_main_arg5 m outs c),
        (h (Proc.devRef .tc main_arg6) (Finset.mem_filter.mpr ⟨StableHlo.devRef_mem_tcRefs main_arg6, by decide⟩)).trans (V4_main_arg6 m outs c),
        (h (Proc.devRef .tc main_arg7) (Finset.mem_filter.mpr ⟨StableHlo.devRef_mem_tcRefs main_arg7, by decide⟩)).trans (V4_main_arg7 m outs c),
        (h (Proc.devRef .tc main_arg8) (Finset.mem_filter.mpr ⟨StableHlo.devRef_mem_tcRefs main_arg8, by decide⟩)).trans (V4_main_arg8 m outs c),
        (h (Proc.devRef .tc main_arg9) (Finset.mem_filter.mpr ⟨StableHlo.devRef_mem_tcRefs main_arg9, by decide⟩)).trans (V4_main_arg9 m outs c),
        (h (Proc.devRef .tc main_arg10) (Finset.mem_filter.mpr ⟨StableHlo.devRef_mem_tcRefs main_arg10, by decide⟩)).trans (V4_main_arg10 m outs c),
        (h (Proc.devRef .tc main_arg11) (Finset.mem_filter.mpr ⟨StableHlo.devRef_mem_tcRefs main_arg11, by decide⟩)).trans (V4_main_arg11 m outs c),
        (h (Proc.devRef .tc main_arg12) (Finset.mem_filter.mpr ⟨StableHlo.devRef_mem_tcRefs main_arg12, by decide⟩)).trans (V4_main_arg12 m outs c),
        (h (Proc.devRef .tc main_arg13) (Finset.mem_filter.mpr ⟨StableHlo.devRef_mem_tcRefs main_arg13, by decide⟩)).trans (V4_main_arg13 m outs c)⟩
    · iexact HSI

end Cert.KernelIdeal.Gen

end
-- ==== Proof.IdealRegions.lean ====
import proofs.«160956_j71236327571877_2_alg».proof.Proof.Gen.KernelIdeal.Launch
import proofs.«160956_j71236327571877_2_alg».proof.Proof.Gen.KernelIdeal.Skeleton
import proofs.«160956_j71236327571877_2_alg».proof.Proof.Gen.KernelIdeal.Points
import proofs.«160956_j71236327571877_2_alg».proof.Proof.IdealSeg0
import proofs.«160956_j71236327571877_2_alg».proof.Proof.IdealSeg1
import proofs.«160956_j71236327571877_2_alg».proof.Proof.IdealRunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two regions as segments of the program, and the program's run

The program is: two reshapes of bias vectors, the first kernel's region, two more reshapes, the second kernel's
region. The buffers' contents between the items are a fold from the launch memory: a host stretch applies its
operations, a region replaces its output arrays by what its write-backs leave. Each region is entered from "every
unscoped buffer whole at the contents before it, nothing owed" and left at the same with the contents after it. -/

variable (m : (ℓ : Loc nD τ sig) → Buf (Elt F) ℓ) (ρ : Dev nD → PrngReg)

/-- The buffers' contents when the first region is entered (after the first two reshapes), -/
abbrev W1 : Dev nD → Valuation τ sig (Elt F) := fun c => V1 m c
/-- when the second region is entered (the first region's outputs replaced, then the next two reshapes). -/
abbrev W3 : Dev nD → Valuation τ sig (Elt F) := fun c => StableHlo.after hostOps1 (exitV0 (W1 m) c)

/-- What the regions leave in their output arrays: the first region's two outputs, the second region's one. -/
def outs : Outs (F := F) := fun _ r c =>
  if h0 : r = main_v2_0 then h0 ▸ outA0 (W1 m) c
  else if h1 : r = main_v2_1 then h1 ▸ outB0 (W1 m) c
  else if h5 : r = main_v5 then h5 ▸ outA1 (W3 m) c
  else V0 m c r

theorem outs_A (J : ℕ) (c : Dev nD) : outs m J main_v2_0 c = outA0 (W1 m) c := by
  unfold outs; rw [dif_pos rfl]
theorem outs_B (J : ℕ) (c : Dev nD) : outs m J main_v2_1 c = outB0 (W1 m) c := by
  unfold outs; rw [dif_neg (by decide), dif_pos rfl]
theorem outs_5 (J : ℕ) (c : Dev nD) : outs m J main_v5 c = outA1 (W3 m) c := by
  unfold outs; rw [dif_neg (by decide), dif_neg (by decide), dif_pos rfl]

theorem V2_eq (c : Dev nD) : V2 m (outs m) c = exitV0 (W1 m) c := by
  show Function.update (Function.update (V1 m c) main_v2_0 (outs m 2 main_v2_0 c)) main_v2_1 (outs m 2 main_v2_1 c) = _
  rw [outs_A, outs_B]; rfl
theorem V3_eq (c : Dev nD) : V3 m (outs m) c = W3 m c := by
  show StableHlo.after hostOps1 (V2 m (outs m) c) = _; rw [V2_eq]
theorem V4_eq (c : Dev nD) : V4 m (outs m) c = exitV1 (W3 m) c := by
  show Function.update (V3 m (outs m) c) main_v5 (outs m 4 main_v5 c) = _
  rw [V3_eq, outs_5]; rfl

/-- No core owes another anything: no level is assigned. -/
abbrev L0 : GSem nD τ sig → Finset Unit := fun _ => ∅
abbrev lv0 : GSem nD τ sig → Unit → ℕ := fun _ _ => 0
/-- What rides beside the buffers through every item: the core owing nothing. -/
abbrev Eo (c : Dev nD) : sProp 𝕄 := iprop(∃ Wp, owes (c : Thread nD τ) (0 : CellTallies nD τ sig Unit) Wp)

/-- Both regions' proof data, each at its region's entry contents. -/
def pdats : (p : Fin 2) → (c : Dev nD) → Dat τ (Elt F) Unit ℕ (UR sig nD τ) ℕ (cfgs p) c
  | ⟨0, _⟩ => fun c => dat0 (rdV (W1 m)) c
  | ⟨1, _⟩ => fun c => dat1 (rdV (W3 m)) c

set_option backward.isDefEq.respectTransparency.types false in
/-- The first kernel's region as a segment. -/
def reg0 : Pipeline.RegionSeg (pcfgs (F := F)) adm (pdats m) () defs₀ Variants.none L0 lv0 0 where
  win := winFacts₀0
  block_pos := block_pos0
  stage_whole := stage_whole0
  K := PEmpty
  osem k := k.elim
  ho := Pipeline.OwnSemFacts.none _
  hbody c := (body_obligation0 (rdV (W1 m)) c).loose
  hwaits := Pipeline.hwaits_of_owed_zero _ _ _ _ L0 lv0 0 fun _ _ => rfl
  pre c := iprop(StableHlo.held (c : Thread nD τ) (Pipeline.ucRefs τ sig) (V1 m c) ∗ Eo c)
  post c := iprop(StableHlo.held (c : Thread nD τ) (Pipeline.ucRefs τ sig) (V2 m (outs m) c) ∗ Eo c)
  X _ := iprop(emp)
  Y _ := iprop(emp)
  Z c := Pipeline.unscopedRest (Ix := Unit) (Name := ℕ) (U := UR sig nD τ) (Lvl := ℕ) spec0 c (rdV (W1 m) c)
  hentry c := by
    rw [Pipeline.ownSems0_none]
    iintro ⟨⟨Hub, HO⟩, -, -⟩
    ihave H := (entry0 (W1 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wp, HO⟩; iexists Wp; isplitr; · ipureintro; exact fun _ _ => Or.inl trivial
      iexact HO
    isplitr; · iempintro
    iexact Hrest
  hin c := by
    rw [show (pdats m 0 c).Φ 0 = Phi0 (rdV (W1 m)) c 0 from rfl]
    iintro ⟨-, -, Hr⟩
    iapply (Phi0_of_scoped (rdV (W1 m)) c) $$ Hr
  hout c := by
    rw [Pipeline.ownSems0_none, show (pdats m 0 c).Φ (Fin.last _) = Phi0 (rdV (W1 m)) c (Fin.last _) from rfl]
    iintro H
    isplitr; · iempintro
    isplitr; · iempintro
    iapply (scoped_of_Phi0 (rdV (W1 m)) c _) $$ H
  hexit c := by
    rw [V2_eq]
    iintro ⟨Ha, HO, -, Hrest⟩
    imodintro
    isplitl [Ha Hrest]
    · iapply (exit0 (W1 m) c)
      isplitl [Ha]; · iexact Ha
      iexact Hrest
    unfold Pipeline.Dat.owesAt Pipeline.owesWithin
    icases HO with ⟨%Wp, -, HO⟩; iexists Wp; iexact HO

set_option backward.isDefEq.respectTransparency.types false in
/-- The second kernel's region as a segment. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (rdV (W3 m)) c).loose
  hwaits := Pipeline.hwaits_of_owed_zero _ _ _ _ L0 lv0 1 fun _ _ => rfl
  pre c := iprop(StableHlo.held (c : Thread nD τ) (Pipeline.ucRefs τ sig) (V3 m (outs m) c) ∗ Eo c)
  post c := iprop(StableHlo.held (c : Thread nD τ) (Pipeline.ucRefs τ sig) (V4 m (outs m) c) ∗ Eo c)
  X _ := iprop(emp)
  Y _ := iprop(emp)
  Z c := Pipeline.unscopedRest (Ix := Unit) (Name := ℕ) (U := UR sig nD τ) (Lvl := ℕ) spec1 c (rdV (W3 m) c)
  hentry c := by
    rw [Pipeline.ownSems0_none, V3_eq]
    iintro ⟨⟨Hub, HO⟩, -, -⟩
    ihave H := (entry1 (W3 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wp, HO⟩; iexists Wp; isplitr; · ipureintro; exact fun _ _ => Or.inl trivial
      iexact HO
    isplitr; · iempintro
    iexact Hrest
  hin c := by
    rw [show (pdats m 1 c).Φ 0 = Phi1 (rdV (W3 m)) c 0 from rfl]
    iintro ⟨-, -, Hr⟩
    iapply (Phi1_of_scoped (rdV (W3 m)) c) $$ Hr
  hout c := by
    rw [Pipeline.ownSems0_none, show (pdats m 1 c).Φ (Fin.last _) = Phi1 (rdV (W3 m)) c (Fin.last _) from rfl]
    iintro H
    isplitr; · iempintro
    isplitr; · iempintro
    iapply (scoped_of_Phi1 (rdV (W3 m)) c _) $$ H
  hexit c := by
    rw [V4_eq]
    iintro ⟨Ha, HO, -, Hrest⟩
    imodintro
    isplitl [Ha Hrest]
    · iapply (exit1 (W3 m) c)
      isplitl [Ha]; · iexact Ha
      iexact Hrest
    unfold Pipeline.Dat.owesAt Pipeline.owesWithin
    icases HO with ⟨%Wp, -, HO⟩; iexists Wp; iexact HO

/-- What the launch's ghost element yields: the pipeline library's own, and nothing besides. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the first thread state's rest on every core: each core owes nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L0 lv0)
    ⊢ (|={Set.univ}=> bigSep Finset.univ (fun c : Dev nD => Eo c) : sProp 𝕄) := by
  have hc : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))
      ⊢ (Eo c : sProp 𝕄) := fun c => by
    iintro ⟨-, HO, -⟩; iexists ∅; iexact HO
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => Eo c) : sProp 𝕄) :=
    bigSep_mono fun c _ => hc c
  iintro ⟨H, -⟩
  imodintro
  ihave H' := hmono $$ H
  iexact H'

set_option backward.isDefEq.respectTransparency.types false in
/-- THE FRAME, at any instance: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m emb₁ () Variants.none L0 lv0 (fun _ _ => rfl) ρ (outs m) (pdats m) 0 (fun _ => iprop(emp))
    (initOf (Pipeline.cells cfgs cellOf_inj) (Pipeline.launchToks cfgs cellOf_inj)) hu0
    (fun _ c => Eo c) (hE0 ρ) (fun _ => .rfl)
    (reg0 m) (fun _ => .rfl) (fun _ => .rfl) (reg1 m) (fun _ => .rfl) (fun _ => .rfl)

set_option backward.isDefEq.respectTransparency.types false in
/-- THE RUN with the result named: as the frame, and the result array ends at what the second region's write-backs leave. -/
theorem run_named : θ_run defs (onTc (τ := τ) (main (F := F))) ⟨m, fun _ => 0, ρ⟩ (fun r => ∀ c : Dev nD,
      r.2.mem ((c.tc : Thread nD τ).loc main_v5) = outA1 (W3 m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans (by rw [V4_eq]; exact exitV1_A (W3 m) c), (h c).2⟩)
    (run_cond m emb₁ () Variants.none L0 lv0 (fun _ _ => rfl) ρ (outs m) (pdats m) 0 (fun _ => iprop(emp))
      (initOf (Pipeline.cells cfgs cellOf_inj) (Pipeline.launchToks cfgs cellOf_inj)) hu0
      (fun _ c => Eo c) (hE0 ρ) (fun _ => .rfl)
      (reg0 m) (fun _ => .rfl) (fun _ => .rfl) (reg1 m) (fun _ => .rfl) (fun _ => .rfl))

end Cert.KernelIdeal.Gen

end
-- ==== Proof.Spec.lean ====
/-
  The function both programs compute, over the extended reals.

  A node p of a graph with 16384 nodes carries 64 input features x p ·. One graph-convolutional skip layer sends
  node states xb (of width D) to

      relu ( Σ_j L p j · (Σ_f xb j f · w1 f q)  +  Σ_f x p f · w2 f q  +  b q ),

  the propagation through the dense operator L of the projected states, plus a skip term from the input features,
  plus a bias, cut off below at zero. Two stacks of two such layers run side by side: each stack's first layer
  reads the input features themselves as states (width 64), its second layer reads the first layer's 32 channels.
  The result is the mean of the two stacks' outputs, written here as the half of their sum.

  Everything is stated over functions of coordinates (Fin 16384, Fin 64, Fin 32), so that neither program's own
  shape names enter; an array v of a program is read as fun p q => v (ix2 p q).
-/
import Idealize.ShloMosaic.PureOps.Ideal
import Idealize.ShloMosaic.Lib.ValueIdx

noncomputable section

open scoped BigOperators

namespace Cert.Arma

/-- A first layer: the states are the 64 input features. -/
def layerA (L : Fin 16384 → Fin 16384 → EReal) (x xb : Fin 16384 → Fin 64 → EReal)
    (w1 w2 : Fin 64 → Fin 32 → EReal) (b : Fin 32 → EReal) (p : Fin 16384) (q : Fin 32) : EReal :=
  max (((∑ j : Fin 16384, L p j * ∑ f : Fin 64, xb j f * w1 f q) + ∑ f : Fin 64, x p f * w2 f q) + b q) 0

/-- A second layer: the states are a first layer's 32 channels; the skip term still reads the 64 input features. -/
def layerB (L : Fin 16384 → Fin 16384 → EReal) (x : Fin 16384 → Fin 64 → EReal) (xb : Fin 16384 → Fin 32 → EReal)
    (w1 : Fin 32 → Fin 32 → EReal) (w2 : Fin 64 → Fin 32 → EReal) (b : Fin 32 → EReal) (p : Fin 16384) (q : Fin 32) : EReal :=
  max (((∑ j : Fin 16384, L p j * ∑ f : Fin 32, xb j f * w1 f q) + ∑ f : Fin 64, x p f * w2 f q) + b q) 0

/-- One stack: a first layer from the input features, then a second layer from its output. -/
def stack (L : Fin 16384 → Fin 16384 → EReal) (x : Fin 16384 → Fin 64 → EReal)
    (w1a w2a : Fin 64 → Fin 32 → EReal) (ba : Fin 32 → EReal)
    (w1b : Fin 32 → Fin 32 → EReal) (w2b : Fin 64 → Fin 32 → EReal) (bb : Fin 32 → EReal) : Fin 16384 → Fin 32 → EReal :=
  layerB L x (layerA L x x w1a w2a ba) w1b w2b bb

/-- The mean of two extended reals, as the half of their sum. -/
def mean2 (a b : EReal) : EReal := ((1 / 2 : ℝ) : EReal) * (a + b)

/-- The whole function: the mean of the two stacks, node by node and channel by channel. The arguments come in the
    programs' argument order: x, L, then per stack (w1a, w2a, ba, w1b, w2b, bb). -/
def G (x : Fin 16384 → Fin 64 → EReal) (L : Fin 16384 → Fin 16384 → EReal)
    (w1a0 w2a0 : Fin 64 → Fin 32 → EReal) (ba0 : Fin 32 → EReal)
    (w1b0 : Fin 32 → Fin 32 → EReal) (w2b0 : Fin 64 → Fin 32 → EReal) (bb0 : Fin 32 → EReal)
    (w1a1 w2a1 : Fin 64 → Fin 32 → EReal) (ba1 : Fin 32 → EReal)
    (w1b1 : Fin 32 → Fin 32 → EReal) (w2b1 : Fin 64 → Fin 32 → EReal) (bb1 : Fin 32 → EReal)
    (p : Fin 16384) (q : Fin 32) : EReal :=
  mean2 (stack L x w1a0 w2a0 ba0 w1b0 w2b0 bb0 p q) (stack L x w1a1 w2a1 ba1 w1b1 w2b1 bb1 p q)

open Idealize.ShloMosaic Idealize.ShloMosaic.ValueIdx in
/-- The result array as a function of the fourteen argument arrays, in the programs' argument order: the arrays are
    read by coordinates (a matrix at ix2 p q, a vector at ix1 q) and the result at node i 0 and channel i 1. -/
def Gbuf (x0 : (⟨2, ![16384, 64]⟩ : Shape).Idx → EReal) (x1 : (⟨2, ![16384, 16384]⟩ : Shape).Idx → EReal)
    (x2 x3 : (⟨2, ![64, 32]⟩ : Shape).Idx → EReal) (x4 : (⟨1, ![32]⟩ : Shape).Idx → EReal)
    (x5 : (⟨2, ![32, 32]⟩ : Shape).Idx → EReal) (x6 : (⟨2, ![64, 32]⟩ : Shape).Idx → EReal) (x7 : (⟨1, ![32]⟩ : Shape).Idx → EReal)
    (x8 x9 : (⟨2, ![64, 32]⟩ : Shape).Idx → EReal) (x10 : (⟨1, ![32]⟩ : Shape).Idx → EReal)
    (x11 : (⟨2, ![32, 32]⟩ : Shape).Idx → EReal) (x12 : (⟨2, ![64, 32]⟩ : Shape).Idx → EReal) (x13 : (⟨1, ![32]⟩ : Shape).Idx → EReal) :
    (⟨2, ![16384, 32]⟩ : Shape).Idx → EReal := fun i =>
  G (fun p f => x0 (ix2 p f)) (fun p j => x1 (ix2 p j))
    (fun f q => x2 (ix2 f q)) (fun f q => x3 (ix2 f q)) (fun q => x4 (ix1 q))
    (fun f q => x5 (ix2 f q)) (fun f q => x6 (ix2 f q)) (fun q => x7 (ix1 q))
    (fun f q => x8 (ix2 f q)) (fun f q => x9 (ix2 f q)) (fun q => x10 (ix1 q))
    (fun f q => x11 (ix2 f q)) (fun f q => x12 (ix2 f q)) (fun q => x13 (ix1 q)) (i 0) (i 1)

end Cert.Arma

end
-- ==== Proof.Payloads.lean ====
/-
  The kernel's arithmetic read at an index, over the extended reals.

  Each block value the two kernel bodies store is read here at a node p of the block (2048 rows) and a channel q (32
  columns). Over the extended reals a change of number format is the identity, a rows-by-columns product into a zero
  accumulator is the plain sum over the contracted coordinate, a cast of a shape to itself is the identity, a bias row
  broadcast over the block reads the row's entry of the channel, and the words of +0 and of one half denote 0 and 1/2.
  So each stored value is one of four things: the zero fill; a carried partial sum plus one block (1024 source nodes) of
  the propagation  Σ_j L p j · (Σ_f x j f · w f q);  a layer's output  max (acc + Σ_f x p f · w f q + b q) 0;  or the
  half of the sum of two such outputs.
-/
import proofs.«160956_j71236327571877_2_alg».proof.Proof.Gen.KernelIdeal.Skeleton
import proofs.«160956_j71236327571877_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Arma.Pay

open Idealize.ShloMosaic Idealize.ShloMosaic.ValueIdx Cert.KernelIdeal Cert.KernelIdeal.Gen

/-- The left operand's row coordinate of a product's operand index is the output's row. -/
theorem mm_1024x64x32_l0 (i : S1024x32.Idx) (c : dot_S1024x64_S64x32_S1024x32_1_0_0_1_n_n.contr.Idx) :
    (dot_S1024x64_S64x32_S1024x32_1_0_0_1_n_n.lhsIdx i c 0).val = (i 0).val := by
  unfold DotDims.lhsIdx
  rw [dif_neg (show ¬(0 : Fin S1024x64.rank) ∈ dot_S1024x64_S64x32_S1024x32_1_0_0_1_n_n.lhsBatch by decide),
    dif_pos (show (0 : Fin S1024x64.rank) ∈ dot_S1024x64_S64x32_S1024x32_1_0_0_1_n_n.lhsNonContracting by decide)]
  rfl
/-- The left operand's column coordinate is the contracted coordinate. -/
theorem mm_1024x64x32_l1 (i : S1024x32.Idx) (c : dot_S1024x64_S64x32_S1024x32_1_0_0_1_n_n.contr.Idx) :
    (dot_S1024x64_S64x32_S1024x32_1_0_0_1_n_n.lhsIdx i c 1).val = (c ⟨0, by decide⟩).val :=
  dot_S1024x64_S64x32_S1024x32_1_0_0_1_n_n.lhsIdx_val_of_single rfl i c
/-- The right operand's row coordinate is the contracted coordinate. -/
theorem mm_1024x64x32_r0 (i : S1024x32.Idx) (c : dot_S1024x64_S64x32_S1024x32_1_0_0_1_n_n.contr.Idx) :
    (dot_S1024x64_S64x32_S1024x32_1_0_0_1_n_n.rhsIdx i c 0).val = (c ⟨0, by decide⟩).val :=
  dot_S1024x64_S64x32_S1024x32_1_0_0_1_n_n.rhsIdx_val_of_single rfl i c
/-- The right operand's column coordinate is the output's column. -/
theorem mm_1024x64x32_r1 (i : S1024x32.Idx) (c : dot_S1024x64_S64x32_S1024x32_1_0_0_1_n_n.contr.Idx) :
    (dot_S1024x64_S64x32_S1024x32_1_0_0_1_n_n.rhsIdx i c 1).val = (i 1).val := by
  unfold DotDims.rhsIdx
  rw [dif_neg (show ¬(1 : Fin S64x32.rank) ∈ dot_S1024x64_S64x32_S1024x32_1_0_0_1_n_n.rhsBatch by decide),
    dif_pos (show (1 : Fin S64x32.rank) ∈ dot_S1024x64_S64x32_S1024x32_1_0_0_1_n_n.rhsNonContracting by decide)]
  rfl

/-- A plain rows-by-columns product (1024 x 64 times 64 x 32) into the zero accumulator, read at row p and column q:
    the sum over the contracted coordinate of the row's entry times the column's entry. -/
theorem mm_1024x64x32 {φ₁ φ₂ : FTy} (a : FVec Ideal S1024x64 φ₁) (b : FVec Ideal S64x32 φ₂) (p : Fin 1024) (q : Fin 32) :
    matmul dot_S1024x64_S64x32_S1024x32_1_0_0_1_n_n none a b (constant S1024x32 .f32 0x00000000#32) (ix2 p q)
      = ∑ k : Fin 64, a (ix2 p k) * b (ix2 k q) := by
  refine (Ideal.matmul_constant_zero_apply dot_S1024x64_S64x32_S1024x32_1_0_0_1_n_n none a b (ix2 p q)).trans ?_
  rw [← Equiv.sum_comp (contrEquiv1 dot_S1024x64_S64x32_S1024x32_1_0_0_1_n_n 64 rfl rfl).symm]
  refine Finset.sum_congr rfl fun k _ => ?_
  have hk := contrEquiv1_symm_val dot_S1024x64_S64x32_S1024x32_1_0_0_1_n_n 64 rfl rfl k
  have el : dot_S1024x64_S64x32_S1024x32_1_0_0_1_n_n.lhsIdx (ix2 p q) ((contrEquiv1 dot_S1024x64_S64x32_S1024x32_1_0_0_1_n_n 64 rfl rfl).symm k) = ix2 p k :=
    funext fun ax => Fin.ext (by
      match ax with
      | ⟨0, _⟩ => exact mm_1024x64x32_l0 _ _
      | ⟨1, _⟩ => exact (mm_1024x64x32_l1 _ _).trans hk)
  have er : dot_S1024x64_S64x32_S1024x32_1_0_0_1_n_n.rhsIdx (ix2 p q) ((contrEquiv1 dot_S1024x64_S64x32_S1024x32_1_0_0_1_n_n 64 rfl rfl).symm k) = ix2 k q :=
    funext fun ax => Fin.ext (by
      match ax with
      | ⟨0, _⟩ => exact (mm_1024x64x32_r0 _ _).trans hk
      | ⟨1, _⟩ => exact mm_1024x64x32_r1 _ _)
  rw [el, er]

/-- The left operand's row coordinate of a product's operand index is the output's row. -/
theorem mm_2048x1024x32_l0 (i : S2048x32.Idx) (c : dot_S2048x1024_S1024x32_S2048x32_1_0_0_1_n_n.contr.Idx) :
    (dot_S2048x1024_S1024x32_S2048x32_1_0_0_1_n_n.lhsIdx i c 0).val = (i 0).val := by
  unfold DotDims.lhsIdx
  rw [dif_neg (show ¬(0 : Fin S2048x1024.rank) ∈ dot_S2048x1024_S1024x32_S2048x32_1_0_0_1_n_n.lhsBatch by decide),
    dif_pos (show (0 : Fin S2048x1024.rank) ∈ dot_S2048x1024_S1024x32_S2048x32_1_0_0_1_n_n.lhsNonContracting by decide)]
  rfl
/-- The left operand's column coordinate is the contracted coordinate. -/
theorem mm_2048x1024x32_l1 (i : S2048x32.Idx) (c : dot_S2048x1024_S1024x32_S2048x32_1_0_0_1_n_n.contr.Idx) :
    (dot_S2048x1024_S1024x32_S2048x32_1_0_0_1_n_n.lhsIdx i c 1).val = (c ⟨0, by decide⟩).val :=
  dot_S2048x1024_S1024x32_S2048x32_1_0_0_1_n_n.lhsIdx_val_of_single rfl i c
/-- The right operand's row coordinate is the contracted coordinate. -/
theorem mm_2048x1024x32_r0 (i : S2048x32.Idx) (c : dot_S2048x1024_S1024x32_S2048x32_1_0_0_1_n_n.contr.Idx) :
    (dot_S2048x1024_S1024x32_S2048x32_1_0_0_1_n_n.rhsIdx i c 0).val = (c ⟨0, by decide⟩).val :=
  dot_S2048x1024_S1024x32_S2048x32_1_0_0_1_n_n.rhsIdx_val_of_single rfl i c
/-- The right operand's column coordinate is the output's column. -/
theorem mm_2048x1024x32_r1 (i : S2048x32.Idx) (c : dot_S2048x1024_S1024x32_S2048x32_1_0_0_1_n_n.contr.Idx) :
    (dot_S2048x1024_S1024x32_S2048x32_1_0_0_1_n_n.rhsIdx i c 1).val = (i 1).val := by
  unfold DotDims.rhsIdx
  rw [dif_neg (show ¬(1 : Fin S1024x32.rank) ∈ dot_S2048x1024_S1024x32_S2048x32_1_0_0_1_n_n.rhsBatch by decide),
    dif_pos (show (1 : Fin S1024x32.rank) ∈ dot_S2048x1024_S1024x32_S2048x32_1_0_0_1_n_n.rhsNonContracting by decide)]
  rfl

/-- A plain rows-by-columns product (2048 x 1024 times 1024 x 32) into the zero accumulator, read at row p and column q:
    the sum over the contracted coordinate of the row's entry times the column's entry. -/
theorem mm_2048x1024x32 {φ₁ φ₂ : FTy} (a : FVec Ideal S2048x1024 φ₁) (b : FVec Ideal S1024x32 φ₂) (p : Fin 2048) (q : Fin 32) :
    matmul dot_S2048x1024_S1024x32_S2048x32_1_0_0_1_n_n none a b (constant S2048x32 .f32 0x00000000#32) (ix2 p q)
      = ∑ k : Fin 1024, a (ix2 p k) * b (ix2 k q) := by
  refine (Ideal.matmul_constant_zero_apply dot_S2048x1024_S1024x32_S2048x32_1_0_0_1_n_n none a b (ix2 p q)).trans ?_
  rw [← Equiv.sum_comp (contrEquiv1 dot_S2048x1024_S1024x32_S2048x32_1_0_0_1_n_n 1024 rfl rfl).symm]
  refine Finset.sum_congr rfl fun k _ => ?_
  have hk := contrEquiv1_symm_val dot_S2048x1024_S1024x32_S2048x32_1_0_0_1_n_n 1024 rfl rfl k
  have el : dot_S2048x1024_S1024x32_S2048x32_1_0_0_1_n_n.lhsIdx (ix2 p q) ((contrEquiv1 dot_S2048x1024_S1024x32_S2048x32_1_0_0_1_n_n 1024 rfl rfl).symm k) = ix2 p k :=
    funext fun ax => Fin.ext (by
      match ax with
      | ⟨0, _⟩ => exact mm_2048x1024x32_l0 _ _
      | ⟨1, _⟩ => exact (mm_2048x1024x32_l1 _ _).trans hk)
  have er : dot_S2048x1024_S1024x32_S2048x32_1_0_0_1_n_n.rhsIdx (ix2 p q) ((contrEquiv1 dot_S2048x1024_S1024x32_S2048x32_1_0_0_1_n_n 1024 rfl rfl).symm k) = ix2 k q :=
    funext fun ax => Fin.ext (by
      match ax with
      | ⟨0, _⟩ => exact (mm_2048x1024x32_r0 _ _).trans hk
      | ⟨1, _⟩ => exact mm_2048x1024x32_r1 _ _)
  rw [el, er]

/-- The left operand's row coordinate of a product's operand index is the output's row. -/
theorem mm_2048x64x32_l0 (i : S2048x32.Idx) (c : dot_S2048x64_S64x32_S2048x32_1_0_0_1_n_n.contr.Idx) :
    (dot_S2048x64_S64x32_S2048x32_1_0_0_1_n_n.lhsIdx i c 0).val = (i 0).val := by
  unfold DotDims.lhsIdx
  rw [dif_neg (show ¬(0 : Fin S2048x64.rank) ∈ dot_S2048x64_S64x32_S2048x32_1_0_0_1_n_n.lhsBatch by decide),
    dif_pos (show (0 : Fin S2048x64.rank) ∈ dot_S2048x64_S64x32_S2048x32_1_0_0_1_n_n.lhsNonContracting by decide)]
  rfl
/-- The left operand's column coordinate is the contracted coordinate. -/
theorem mm_2048x64x32_l1 (i : S2048x32.Idx) (c : dot_S2048x64_S64x32_S2048x32_1_0_0_1_n_n.contr.Idx) :
    (dot_S2048x64_S64x32_S2048x32_1_0_0_1_n_n.lhsIdx i c 1).val = (c ⟨0, by decide⟩).val :=
  dot_S2048x64_S64x32_S2048x32_1_0_0_1_n_n.lhsIdx_val_of_single rfl i c
/-- The right operand's row coordinate is the contracted coordinate. -/
theorem mm_2048x64x32_r0 (i : S2048x32.Idx) (c : dot_S2048x64_S64x32_S2048x32_1_0_0_1_n_n.contr.Idx) :
    (dot_S2048x64_S64x32_S2048x32_1_0_0_1_n_n.rhsIdx i c 0).val = (c ⟨0, by decide⟩).val :=
  dot_S2048x64_S64x32_S2048x32_1_0_0_1_n_n.rhsIdx_val_of_single rfl i c
/-- The right operand's column coordinate is the output's column. -/
theorem mm_2048x64x32_r1 (i : S2048x32.Idx) (c : dot_S2048x64_S64x32_S2048x32_1_0_0_1_n_n.contr.Idx) :
    (dot_S2048x64_S64x32_S2048x32_1_0_0_1_n_n.rhsIdx i c 1).val = (i 1).val := by
  unfold DotDims.rhsIdx
  rw [dif_neg (show ¬(1 : Fin S64x32.rank) ∈ dot_S2048x64_S64x32_S2048x32_1_0_0_1_n_n.rhsBatch by decide),
    dif_pos (show (1 : Fin S64x32.rank) ∈ dot_S2048x64_S64x32_S2048x32_1_0_0_1_n_n.rhsNonContracting by decide)]
  rfl

/-- A plain rows-by-columns product (2048 x 64 times 64 x 32) into the zero accumulator, read at row p and column q:
    the sum over the contracted coordinate of the row's entry times the column's entry. -/
theorem mm_2048x64x32 {φ₁ φ₂ : FTy} (a : FVec Ideal S2048x64 φ₁) (b : FVec Ideal S64x32 φ₂) (p : Fin 2048) (q : Fin 32) :
    matmul dot_S2048x64_S64x32_S2048x32_1_0_0_1_n_n none a b (constant S2048x32 .f32 0x00000000#32) (ix2 p q)
      = ∑ k : Fin 64, a (ix2 p k) * b (ix2 k q) := by
  refine (Ideal.matmul_constant_zero_apply dot_S2048x64_S64x32_S2048x32_1_0_0_1_n_n none a b (ix2 p q)).trans ?_
  rw [← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 p q) ((contrEquiv1 dot_S2048x64_S64x32_S2048x32_1_0_0_1_n_n 64 rfl rfl).symm k) = ix2 p k :=
    funext fun ax => Fin.ext (by
      match ax with
      | ⟨0, _⟩ => exact mm_2048x64x32_l0 _ _
      | ⟨1, _⟩ => exact (mm_2048x64x32_l1 _ _).trans hk)
  have er : dot_S2048x64_S64x32_S2048x32_1_0_0_1_n_n.rhsIdx (ix2 p q) ((contrEquiv1 dot_S2048x64_S64x32_S2048x32_1_0_0_1_n_n 64 rfl rfl).symm k) = ix2 k q :=
    funext fun ax => Fin.ext (by
      match ax with
      | ⟨0, _⟩ => exact (mm_2048x64x32_r0 _ _).trans hk
      | ⟨1, _⟩ => exact mm_2048x64x32_r1 _ _)
  rw [el, er]

/-- The left operand's row coordinate of a product's operand index is the output's row. -/
theorem mm_1024x32x32_l0 (i : S1024x32.Idx) (c : dot_S1024x32_S32x32_S1024x32_1_0_0_1_n_n.contr.Idx) :
    (dot_S1024x32_S32x32_S1024x32_1_0_0_1_n_n.lhsIdx i c 0).val = (i 0).val := by
  unfold DotDims.lhsIdx
  rw [dif_neg (show ¬(0 : Fin S1024x32.rank) ∈ dot_S1024x32_S32x32_S1024x32_1_0_0_1_n_n.lhsBatch by decide),
    dif_pos (show (0 : Fin S1024x32.rank) ∈ dot_S1024x32_S32x32_S1024x32_1_0_0_1_n_n.lhsNonContracting by decide)]
  rfl
/-- The left operand's column coordinate is the contracted coordinate. -/
theorem mm_1024x32x32_l1 (i : S1024x32.Idx) (c : dot_S1024x32_S32x32_S1024x32_1_0_0_1_n_n.contr.Idx) :
    (dot_S1024x32_S32x32_S1024x32_1_0_0_1_n_n.lhsIdx i c 1).val = (c ⟨0, by decide⟩).val :=
  dot_S1024x32_S32x32_S1024x32_1_0_0_1_n_n.lhsIdx_val_of_single rfl i c
/-- The right operand's row coordinate is the contracted coordinate. -/
theorem mm_1024x32x32_r0 (i : S1024x32.Idx) (c : dot_S1024x32_S32x32_S1024x32_1_0_0_1_n_n.contr.Idx) :
    (dot_S1024x32_S32x32_S1024x32_1_0_0_1_n_n.rhsIdx i c 0).val = (c ⟨0, by decide⟩).val :=
  dot_S1024x32_S32x32_S1024x32_1_0_0_1_n_n.rhsIdx_val_of_single rfl i c
/-- The right operand's column coordinate is the output's column. -/
theorem mm_1024x32x32_r1 (i : S1024x32.Idx) (c : dot_S1024x32_S32x32_S1024x32_1_0_0_1_n_n.contr.Idx) :
    (dot_S1024x32_S32x32_S1024x32_1_0_0_1_n_n.rhsIdx i c 1).val = (i 1).val := by
  unfold DotDims.rhsIdx
  rw [dif_neg (show ¬(1 : Fin S32x32.rank) ∈ dot_S1024x32_S32x32_S1024x32_1_0_0_1_n_n.rhsBatch by decide),
    dif_pos (show (1 : Fin S32x32.rank) ∈ dot_S1024x32_S32x32_S1024x32_1_0_0_1_n_n.rhsNonContracting by decide)]
  rfl

/-- A plain rows-by-columns product (1024 x 32 times 32 x 32) into the zero accumulator, read at row p and column q:
    the sum over the contracted coordinate of the row's entry times the column's entry. -/
theorem mm_1024x32x32 {φ₁ φ₂ : FTy} (a : FVec Ideal S1024x32 φ₁) (b : FVec Ideal S32x32 φ₂) (p : Fin 1024) (q : Fin 32) :
    matmul dot_S1024x32_S32x32_S1024x32_1_0_0_1_n_n none a b (constant S1024x32 .f32 0x00000000#32) (ix2 p q)
      = ∑ k : Fin 32, a (ix2 p k) * b (ix2 k q) := by
  refine (Ideal.matmul_constant_zero_apply dot_S1024x32_S32x32_S1024x32_1_0_0_1_n_n none a b (ix2 p q)).trans ?_
  rw [← Equiv.sum_comp (contrEquiv1 dot_S1024x32_S32x32_S1024x32_1_0_0_1_n_n 32 rfl rfl).symm]
  refine Finset.sum_congr rfl fun k _ => ?_
  have hk := contrEquiv1_symm_val dot_S1024x32_S32x32_S1024x32_1_0_0_1_n_n 32 rfl rfl k
  have el : dot_S1024x32_S32x32_S1024x32_1_0_0_1_n_n.lhsIdx (ix2 p q) ((contrEquiv1 dot_S1024x32_S32x32_S1024x32_1_0_0_1_n_n 32 rfl rfl).symm k) = ix2 p k :=
    funext fun ax => Fin.ext (by
      match ax with
      | ⟨0, _⟩ => exact mm_1024x32x32_l0 _ _
      | ⟨1, _⟩ => exact (mm_1024x32x32_l1 _ _).trans hk)
  have er : dot_S1024x32_S32x32_S1024x32_1_0_0_1_n_n.rhsIdx (ix2 p q) ((contrEquiv1 dot_S1024x32_S32x32_S1024x32_1_0_0_1_n_n 32 rfl rfl).symm k) = ix2 k q :=
    funext fun ax => Fin.ext (by
      match ax with
      | ⟨0, _⟩ => exact (mm_1024x32x32_r0 _ _).trans hk
      | ⟨1, _⟩ => exact mm_1024x32x32_r1 _ _)
  rw [el, er]

/-- The zero fill: the splat of the word of +0 is the extended real 0 at every node and channel. -/
theorem k0_pay1_apply (p : Fin 2048) (q : Fin 32) : k0_pay1 (F := Ideal) (ix2 p q) = 0 := by
  unfold k0_pay1
  rw [shapeCast_self]
  exact Ideal.ofBits_zero_f32

/-- The zero fill: the splat of the word of +0 is the extended real 0 at every node and channel. -/
theorem k0_pay2_apply (p : Fin 2048) (q : Fin 32) : k0_pay2 (F := Ideal) (ix2 p q) = 0 := by
  unfold k0_pay2
  rw [shapeCast_self]
  exact Ideal.ofBits_zero_f32

/-- One block step of the propagation: the carried partial sum plus, over the block's 1024 source nodes, the operator's
    entry times the projected state of that node (the format changes between the products are the identity on
    extended reals). -/
theorem k0_pay5_apply (v3 : Vec Ideal S1024x64 .f32) (v5 : Vec Ideal S64x32 .f32) (v13 : Vec Ideal S2048x1024 .f32) (v15 : Vec Ideal S2048x32 .f32) (p : Fin 2048) (q : Fin 32) :
    k0_pay5 v3 v5 v13 v15 (ix2 p q)
      = v15 (ix2 p q) + ∑ j : Fin 1024, v13 (ix2 p j) * ∑ f : Fin 64, v3 (ix2 j f) * v5 (ix2 f q) := by
  unfold k0_pay5 k0_pay3 k0_pay4
  rw [shapeCast_self]
  refine (addf_apply _ _ _).trans ?_
  refine congrArg (v15 (ix2 p q) + ·) ?_
  refine (mm_2048x1024x32 _ _ p q).trans ?_
  refine Finset.sum_congr rfl fun j _ => ?_
  refine congrArg (v13 (ix2 p j) * ·) ?_
  exact mm_1024x64x32 _ _ j q

/-- One block step of the propagation: the carried partial sum plus, over the block's 1024 source nodes, the operator's
    entry times the projected state of that node (the format changes between the products are the identity on
    extended reals). -/
theorem k0_pay6_apply (v3 : Vec Ideal S1024x64 .f32) (v7 : Vec Ideal S64x32 .f32) (v13 : Vec Ideal S2048x1024 .f32) (v21 : Vec Ideal S2048x32 .f32) (p : Fin 2048) (q : Fin 32) :
    k0_pay6 v3 v7 v13 v21 (ix2 p q)
      = v21 (ix2 p q) + ∑ j : Fin 1024, v13 (ix2 p j) * ∑ f : Fin 64, v3 (ix2 j f) * v7 (ix2 f q) := by
  unfold k0_pay6 k0_pay3 k0_pay4
  rw [shapeCast_self]
  refine (addf_apply _ _ _).trans ?_
  refine congrArg (v21 (ix2 p q) + ·) ?_
  refine (mm_2048x1024x32 _ _ p q).trans ?_
  refine Finset.sum_congr rfl fun j _ => ?_
  refine congrArg (v13 (ix2 p j) * ·) ?_
  exact mm_1024x64x32 _ _ j q

/-- The word 0x3F000000 is one half. -/
theorem ofBits_half_f32 : Ideal.ofBits .f32 0x3F000000#32 = ((1 / 2 : ℝ) : EReal) := by
  simp [Ideal.ofBits, Ideal.ieee, -EReal.coe_mul]; norm_num

/-- A layer's last step read at node p and channel q: the carried propagation sum plus the skip product of the node's
    64 input features with the skip weights, plus the bias row's entry of the channel, cut off below at zero. -/
theorem layer_tail_apply {φ₁ φ₂ : FTy} (x : FVec Ideal S2048x64 φ₁) (w : FVec Ideal S64x32 φ₂) (acc : FVec Ideal S2048x32 .f32)
    (b : FVec Ideal S1x32 .f32) (hc : S1x32.ShapeCasts S1x32) (hb : S1x32.Broadcasts S2048x32) (p : Fin 2048) (q : Fin 32) :
    maximumf (addf (addf acc (matmul dot_S2048x64_S64x32_S2048x32_1_0_0_1_n_n none x w (constant S2048x32 .f32 0x00000000#32)))
        (broadcastTo S2048x32 (shapeCast S1x32 b hc) hb)) (broadcast S2048x32 (Scalar.ofBits .f32 0x00000000#32)) (ix2 p q)
      = max ((acc (ix2 p q) + ∑ f : Fin 64, x (ix2 p f) * w (ix2 f q)) + b (ix2 (0 : Fin 1) q)) 0 := by
  refine (maximumf_apply _ _ _).trans ?_
  refine congrArg₂ max ?_ ?_
  · refine (addf_apply _ _ _).trans ?_
    refine congrArg₂ (· + ·) ?_ ?_
    · refine (addf_apply _ _ _).trans ?_
      exact congrArg (acc (ix2 p q) + ·) (mm_2048x64x32 x w p q)
    · rw [shapeCast_self]
      exact broadcastTo_1b_ab_apply b hb p q
  · exact Ideal.ofBits_zero_f32

/-- The first layer's output block: the propagation sum, the skip term and the bias, cut off below at zero. -/
theorem k0_pay8_apply (v30 : Vec Ideal S2048x64 .f32) (v32 : Vec Ideal S64x32 .f32) (v38 : Vec Ideal S2048x32 .f32) (v40 : Vec Ideal S1x32 .f32) (p : Fin 2048) (q : Fin 32) :
    k0_pay8 v30 v32 v38 v40 (ix2 p q)
      = max ((v38 (ix2 p q) + ∑ f : Fin 64, v30 (ix2 p f) * v32 (ix2 f q)) + v40 (ix2 (0 : Fin 1) q)) 0 := by
  unfold k0_pay8 k0_pay7
  exact layer_tail_apply _ _ v38 v40 _ _ p q

/-- The first layer's output block: the propagation sum, the skip term and the bias, cut off below at zero. -/
theorem k0_pay9_apply (v30 : Vec Ideal S2048x64 .f32) (v34 : Vec Ideal S64x32 .f32) (v44 : Vec Ideal S2048x32 .f32) (v46 : Vec Ideal S1x32 .f32) (p : Fin 2048) (q : Fin 32) :
    k0_pay9 v30 v34 v44 v46 (ix2 p q)
      = max ((v44 (ix2 p q) + ∑ f : Fin 64, v30 (ix2 p f) * v34 (ix2 f q)) + v46 (ix2 (0 : Fin 1) q)) 0 := by
  unfold k0_pay9 k0_pay7
  exact layer_tail_apply _ _ v44 v46 _ _ p q

/-- The zero fill: the splat of the word of +0 is the extended real 0 at every node and channel. -/
theorem k1_pay2_apply (p : Fin 2048) (q : Fin 32) : k1_pay2 (F := Ideal) (ix2 p q) = 0 := by
  unfold k1_pay2
  rw [shapeCast_self]
  exact Ideal.ofBits_zero_f32

/-- The zero fill: the splat of the word of +0 is the extended real 0 at every node and channel. -/
theorem k1_pay3_apply (p : Fin 2048) (q : Fin 32) : k1_pay3 (F := Ideal) (ix2 p q) = 0 := by
  unfold k1_pay3
  rw [shapeCast_self]
  exact Ideal.ofBits_zero_f32

/-- One block step of the second layer's propagation: the carried partial sum plus, over the block's 1024 source nodes,
    the operator's entry times the projected first-layer state of that node. -/
theorem k1_pay5_apply (v3 : Vec Ideal S1024x32 .f32) (v9 : Vec Ideal S32x32 .f32) (v17 : Vec Ideal S2048x1024 .f32) (v19 : Vec Ideal S2048x32 .f32) (p : Fin 2048) (q : Fin 32) :
    k1_pay5 v3 v9 v17 v19 (ix2 p q)
      = v19 (ix2 p q) + ∑ j : Fin 1024, v17 (ix2 p j) * ∑ f : Fin 32, v3 (ix2 j f) * v9 (ix2 f q) := by
  unfold k1_pay5 k1_pay4
  rw [shapeCast_self, shapeCast_self]
  refine (addf_apply _ _ _).trans ?_
  refine congrArg (v19 (ix2 p q) + ·) ?_
  refine (mm_2048x1024x32 _ _ p q).trans ?_
  refine Finset.sum_congr rfl fun j _ => ?_
  refine congrArg (v17 (ix2 p j) * ·) ?_
  exact mm_1024x32x32 _ _ j q

/-- One block step of the second layer's propagation: the carried partial sum plus, over the block's 1024 source nodes,
    the operator's entry times the projected first-layer state of that node. -/
theorem k1_pay6_apply (v6 : Vec Ideal S1024x32 .f32) (v11 : Vec Ideal S32x32 .f32) (v17 : Vec Ideal S2048x1024 .f32) (v25 : Vec Ideal S2048x32 .f32) (p : Fin 2048) (q : Fin 32) :
    k1_pay6 v6 v11 v17 v25 (ix2 p q)
      = v25 (ix2 p q) + ∑ j : Fin 1024, v17 (ix2 p j) * ∑ f : Fin 32, v6 (ix2 j f) * v11 (ix2 f q) := by
  unfold k1_pay6 k1_pay4
  rw [shapeCast_self, shapeCast_self]
  refine (addf_apply _ _ _).trans ?_
  refine congrArg (v25 (ix2 p q) + ·) ?_
  refine (mm_2048x1024x32 _ _ p q).trans ?_
  refine Finset.sum_congr rfl fun j _ => ?_
  refine congrArg (v17 (ix2 p j) * ·) ?_
  exact mm_1024x32x32 _ _ j q

/-- The result block: the half of the sum of the two stacks' second-layer outputs. -/
theorem k1_pay1_apply (v34 : Vec Ideal S2048x64 .f32) (v36 v38 : Vec Ideal S64x32 .f32) (v42 : Vec Ideal S2048x32 .f32)
    (v44 : Vec Ideal S1x32 .f32) (v50 : Vec Ideal S2048x32 .f32) (v52 : Vec Ideal S1x32 .f32) (p : Fin 2048) (q : Fin 32) :
    k1_pay1 v34 v36 v38 v42 v44 v50 v52 (ix2 p q)
      = Cert.Arma.mean2
          (max ((v42 (ix2 p q) + ∑ f : Fin 64, v34 (ix2 p f) * v36 (ix2 f q)) + v44 (ix2 (0 : Fin 1) q)) 0)
          (max ((v50 (ix2 p q) + ∑ f : Fin 64, v34 (ix2 p f) * v38 (ix2 f q)) + v52 (ix2 (0 : Fin 1) q)) 0) := by
  unfold k1_pay1 Cert.Arma.mean2
  refine (mulf_apply _ _ _).trans ?_
  refine congrArg₂ (· * ·) ofBits_half_f32 ?_
  refine (addf_apply _ _ _).trans ?_
  exact congrArg₂ (· + ·) (layer_tail_apply _ _ v42 v44 _ _ p q) (layer_tail_apply _ _ v50 v52 _ _ p q)

end Cert.Arma.Pay

end
-- ==== Proof.BlockSum.lean ====
/-
  Two facts about finite sums in the extended reals.

  The sum over 16384 source nodes splits into 16 consecutive blocks of 1024: node number kb · 1024 + j is the j-th node of
  block kb, and every node is reached once. And a running total that starts from zero and adds one block's sum at a time
  is, after block n, the sum of the blocks 0 … n. Only the commutative monoid structure of the extended reals under
  addition is used, so nothing has to be finite.
-/
import Mathlib.Data.EReal.Basic
import Mathlib.Data.Fintype.BigOperators
import Mathlib.Logic.Equiv.Fin.Basic
import Mathlib.Algebra.BigOperators.Group.Finset.Basic

noncomputable section

open scoped BigOperators

namespace Cert.Arma.Blocks

/-- The sum over the 16 blocks of the sum over each block's 1024 positions is the sum over all 16384 positions. -/
theorem sum_blocks16 (f : Fin 16384 → EReal) :
    ∑ kb : Fin 16, ∑ j : Fin 1024, f ⟨kb.val * 1024 + j.val, by omega⟩ = ∑ i : Fin 16384, f i := by
  have h := (Equiv.sum_comp (finProdFinEquiv : Fin 16 × Fin 1024 ≃ Fin (16 * 1024)) (fun i => f i)).symm
  rw [Fintype.sum_prod_type] at h
  refine Eq.trans (Finset.sum_congr rfl fun kb _ => Finset.sum_congr rfl fun j _ => ?_) h.symm
  refine congrArg f (Fin.ext ?_)
  show kb.val * 1024 + j.val = j.val + 1024 * kb.val
  omega

/-- The running total over blocks: it starts as zero plus block 0 and adds the next block at each step. -/
def acc (S : ℕ → EReal) : ℕ → EReal
  | 0 => 0 + S 0
  | n + 1 => acc S n + S (n + 1)

/-- After block n the running total is the sum of the blocks 0 … n. -/
theorem acc_eq (S : ℕ → EReal) (n : ℕ) : acc S n = ∑ kb ∈ Finset.range (n + 1), S kb := by
  induction n with
  | zero => simp [acc]
  | succ n ih => rw [acc, ih, Finset.sum_range_succ _ (n + 1)]

end Cert.Arma.Blocks

end
-- ==== Proof.IdealValue1.lean ====
/-
  The second kernel region's output array.

  Point t = 16·i + k of the 8 × 16 grid works on row block i (2048 target nodes) and column block k (1024 source
  nodes). The operator's block at t holds its entries (2048 i + r, 1024 k + j); each stack's first-layer block holds
  the rows 1024 k + j of that stack's first-layer array; the target-node features' block holds the rows 2048 i + r;
  the four weight arrays and the two bias rows are single blocks, the arrays themselves.

  At target node P and channel q a stack's propagation is  Σ_J L P J · (Σ_f xb J f · w f q)  over all 16384 source
  nodes J. The kernel gathers it one column block at a time: the accumulator is cleared at the first column block of
  a row block and every point adds its block's part, so after the last column block it holds the sum over the 16
  blocks, which is the sum over all source nodes (sums in the extended reals form a commutative monoid, so no entry
  has to be finite). A row block's last point then writes the output block back: for each stack the propagation sum
  plus the skip product of the target node's own features plus the bias, cut off below at zero, and the half of the
  sum of the two. Node p lies in row block p / 2048, whose last point is 16 (p / 2048) + 15, so the written blocks
  cover the array.
-/
import proofs.«160956_j71236327571877_2_alg».proof.Proof.IdealData1
import proofs.«160956_j71236327571877_2_alg».proof.Proof.Payloads
import proofs.«160956_j71236327571877_2_alg».proof.Proof.BlockSum
import proofs.«160956_j71236327571877_2_alg».proof.Proof.Spec
import Idealize.ShloMosaic.Lib.Pipeline.Value

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The block indices over the grid -/

/-- Point t = 16·i + k names row block i = t / 16 and column block k = t % 16. -/
theorem idx_facts1 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0
    ∧ win1_10.index t (0 : Fin 2) = t.val / 16 ∧ win1_10.index t (1 : Fin 2) = 0 :=
  (by decide +kernel : ∀ t : Fin grid1.N, _)

/-- The weights and the bias rows are single blocks. -/
theorem idx_whole1_4 : ∀ t : Fin cfg1.N, win1_4.index t (0 : Fin 2) = 0 ∧ win1_4.index t (1 : Fin 2) = 0 :=
  (by decide +kernel : ∀ t : Fin grid1.N, _)
theorem idx_whole1_5 : ∀ t : Fin cfg1.N, win1_5.index t (0 : Fin 2) = 0 ∧ win1_5.index t (1 : Fin 2) = 0 :=
  (by decide +kernel : ∀ t : Fin grid1.N, _)
theorem idx_whole1_6 : ∀ t : Fin cfg1.N, win1_6.index t (0 : Fin 2) = 0 ∧ win1_6.index t (1 : Fin 2) = 0 :=
  (by decide +kernel : ∀ t : Fin grid1.N, _)
theorem idx_whole1_7 : ∀ t : Fin cfg1.N, win1_7.index t (0 : Fin 2) = 0 ∧ win1_7.index t (1 : Fin 2) = 0 :=
  (by decide +kernel : ∀ t : Fin grid1.N, _)
theorem idx_whole1_8 : ∀ t : Fin cfg1.N, win1_8.index t (0 : Fin 2) = 0 ∧ win1_8.index t (1 : Fin 2) = 0 :=
  (by decide +kernel : ∀ t : Fin grid1.N, _)
theorem idx_whole1_9 : ∀ t : Fin cfg1.N, win1_9.index t (0 : Fin 2) = 0 ∧ win1_9.index t (1 : Fin 2) = 0 :=
  (by decide +kernel : ∀ t : Fin grid1.N, _)

/-! ## The blocks read at coordinates -/

/-- The operator's block at point t: entry (r, j) is the operator's entry (2048 (t / 16) + r, 1024 (t % 16) + j). -/
theorem iblk1_0_apply (c : Dev nD) (t : Fin cfg1.N) (r : Fin 2048) (j : Fin 1024) (P J : Fin 16384)
    (hP : P.val = 2048 * (t.val / 16) + r.val) (hJ : J.val = 1024 * (t.val % 16) + j.val) :
    (iblk1 V c 0 t : Vec Ideal S2048x1024 .f32) (ix2 r j) = (V c main_arg1 : S16384x16384.Idx → EReal) (ix2 P J) := by
  obtain ⟨e0, e1, -⟩ := idx_facts1 t
  unfold iblk1
  rw [View.read_apply]
  show V c main_arg1 _ = V c main_arg1 _
  congr 1
  funext ax
  apply Fin.ext
  match ax with
  | ⟨0, _⟩ => show win1_0.index t 0 * 2048 + 1 * r.val = P.val; rw [e0, hP]; omega
  | ⟨1, _⟩ => show win1_0.index t 1 * 1024 + 1 * j.val = J.val; rw [e1, hJ]; omega

/-- The first stack's source-node block at point t: row j is the first-layer row of node 1024 (t % 16) + j. -/
theorem iblk1_1_apply (c : Dev nD) (t : Fin cfg1.N) (j : Fin 1024) (f : Fin 32) (J : Fin 16384)
    (hJ : J.val = 1024 * (t.val % 16) + j.val) :
    (iblk1 V c 1 t : Vec Ideal S1024x32 .f32) (ix2 j f) = (V c main_v2_0 : S16384x32.Idx → EReal) (ix2 J f) := by
  obtain ⟨-, -, e0, e1, -⟩ := idx_facts1 t
  unfold iblk1
  rw [View.read_apply]
  show V c main_v2_0 _ = V c main_v2_0 _
  congr 1
  funext ax
  apply Fin.ext
  match ax with
  | ⟨0, _⟩ => show win1_1.index t 0 * 1024 + 1 * j.val = J.val; rw [e0, hJ]; omega
  | ⟨1, _⟩ => show win1_1.index t 1 * 32 + 1 * f.val = f.val; rw [e1]; omega

/-- The second stack's source-node block, likewise. -/
theorem iblk1_2_apply (c : Dev nD) (t : Fin cfg1.N) (j : Fin 1024) (f : Fin 32) (J : Fin 16384)
    (hJ : J.val = 1024 * (t.val % 16) + j.val) :
    (iblk1 V c 2 t : Vec Ideal S1024x32 .f32) (ix2 j f) = (V c main_v2_1 : S16384x32.Idx → EReal) (ix2 J f) := by
  obtain ⟨-, -, -, -, e0, e1, -⟩ := idx_facts1 t
  unfold iblk1
  rw [View.read_apply]
  show V c main_v2_1 _ = V c main_v2_1 _
  congr 1
  funext ax
  apply Fin.ext
  match ax with
  | ⟨0, _⟩ => show win1_2.index t 0 * 1024 + 1 * j.val = J.val; rw [e0, hJ]; omega
  | ⟨1, _⟩ => show win1_2.index t 1 * 32 + 1 * f.val = f.val; rw [e1]; omega

/-- The target nodes' feature block at point t: row r is the feature row of node 2048 (t / 16) + r. -/
theorem iblk1_3_apply (c : Dev nD) (t : Fin cfg1.N) (r : Fin 2048) (f : Fin 64) (P : Fin 16384)
    (hP : P.val = 2048 * (t.val / 16) + r.val) :
    (iblk1 V c 3 t : Vec Ideal S2048x64 .f32) (ix2 r f) = (V c main_arg0 : S16384x64.Idx → EReal) (ix2 P f) := by
  obtain ⟨-, -, -, -, -, -, e0, e1, -⟩ := idx_facts1 t
  unfold iblk1
  rw [View.read_apply]
  show V c main_arg0 _ = V c main_arg0 _
  congr 1
  funext ax
  apply Fin.ext
  match ax with
  | ⟨0, _⟩ => show win1_3.index t 0 * 2048 + 1 * r.val = P.val; rw [e0, hP]; omega
  | ⟨1, _⟩ => show win1_3.index t 1 * 64 + 1 * f.val = f.val; rw [e1]; omega

theorem iblk1_4_apply (c : Dev nD) (t : Fin cfg1.N) (f : Fin 32) (q : Fin 32) :
    (iblk1 V c 4 t : Vec Ideal S32x32 .f32) (ix2 f q) = (V c main_arg5 : S32x32.Idx → EReal) (ix2 f q) := by
  obtain ⟨e0, e1⟩ := idx_whole1_4 t
  unfold iblk1
  rw [View.read_apply]
  show V c main_arg5 _ = V c main_arg5 _
  congr 1
  funext ax
  apply Fin.ext
  match ax with
  | ⟨0, _⟩ => show win1_4.index t 0 * 32 + 1 * f.val = f.val; rw [e0]; omega
  | ⟨1, _⟩ => show win1_4.index t 1 * 32 + 1 * q.val = q.val; rw [e1]; omega

theorem iblk1_5_apply (c : Dev nD) (t : Fin cfg1.N) (f : Fin 32) (q : Fin 32) :
    (iblk1 V c 5 t : Vec Ideal S32x32 .f32) (ix2 f q) = (V c main_arg11 : S32x32.Idx → EReal) (ix2 f q) := by
  obtain ⟨e0, e1⟩ := idx_whole1_5 t
  unfold iblk1
  rw [View.read_apply]
  show V c main_arg11 _ = V c main_arg11 _
  congr 1
  funext ax
  apply Fin.ext
  match ax with
  | ⟨0, _⟩ => show win1_5.index t 0 * 32 + 1 * f.val = f.val; rw [e0]; omega
  | ⟨1, _⟩ => show win1_5.index t 1 * 32 + 1 * q.val = q.val; rw [e1]; omega

theorem iblk1_6_apply (c : Dev nD) (t : Fin cfg1.N) (f : Fin 64) (q : Fin 32) :
    (iblk1 V c 6 t : Vec Ideal S64x32 .f32) (ix2 f q) = (V c main_arg6 : S64x32.Idx → EReal) (ix2 f q) := by
  obtain ⟨e0, e1⟩ := idx_whole1_6 t
  unfold iblk1
  rw [View.read_apply]
  show V c main_arg6 _ = V c main_arg6 _
  congr 1
  funext ax
  apply Fin.ext
  match ax with
  | ⟨0, _⟩ => show win1_6.index t 0 * 64 + 1 * f.val = f.val; rw [e0]; omega
  | ⟨1, _⟩ => show win1_6.index t 1 * 32 + 1 * q.val = q.val; rw [e1]; omega

theorem iblk1_7_apply (c : Dev nD) (t : Fin cfg1.N) (f : Fin 64) (q : Fin 32) :
    (iblk1 V c 7 t : Vec Ideal S64x32 .f32) (ix2 f q) = (V c main_arg12 : S64x32.Idx → EReal) (ix2 f q) := by
  obtain ⟨e0, e1⟩ := idx_whole1_7 t
  unfold iblk1
  rw [View.read_apply]
  show V c main_arg12 _ = V c main_arg12 _
  congr 1
  funext ax
  apply Fin.ext
  match ax with
  | ⟨0, _⟩ => show win1_7.index t 0 * 64 + 1 * f.val = f.val; rw [e0]; omega
  | ⟨1, _⟩ => show win1_7.index t 1 * 32 + 1 * q.val = q.val; rw [e1]; omega

theorem iblk1_8_apply (c : Dev nD) (t : Fin cfg1.N) (z : Fin 1) (q : Fin 32) :
    (iblk1 V c 8 t : Vec Ideal S1x32 .f32) (ix2 z q) = (V c main_v3 : S1x32.Idx → EReal) (ix2 z q) := by
  obtain ⟨e0, e1⟩ := idx_whole1_8 t
  unfold iblk1
  rw [View.read_apply]
  show V c main_v3 _ = V c main_v3 _
  congr 1
  funext ax
  apply Fin.ext
  match ax with
  | ⟨0, _⟩ => show win1_8.index t 0 * 1 + 1 * z.val = z.val; rw [e0]; omega
  | ⟨1, _⟩ => show win1_8.index t 1 * 32 + 1 * q.val = q.val; rw [e1]; omega

theorem iblk1_9_apply (c : Dev nD) (t : Fin cfg1.N) (z : Fin 1) (q : Fin 32) :
    (iblk1 V c 9 t : Vec Ideal S1x32 .f32) (ix2 z q) = (V c main_v4 : S1x32.Idx → EReal) (ix2 z q) := by
  obtain ⟨e0, e1⟩ := idx_whole1_9 t
  unfold iblk1
  rw [View.read_apply]
  show V c main_v4 _ = V c main_v4 _
  congr 1
  funext ax
  apply Fin.ext
  match ax with
  | ⟨0, _⟩ => show win1_9.index t 0 * 1 + 1 * z.val = z.val; rw [e0]; omega
  | ⟨1, _⟩ => show win1_9.index t 1 * 32 + 1 * q.val = q.val; rw [e1]; omega

/-! ## The propagation sum in column blocks -/

/-- Source node J's contribution to a second layer's propagation at target node P and channel q. -/
def term1 (L : Fin 16384 → Fin 16384 → EReal) (x : Fin 16384 → Fin 32 → EReal) (w : Fin 32 → Fin 32 → EReal)
    (P : Fin 16384) (q : Fin 32) (J : Fin 16384) : EReal := L P J * ∑ f : Fin 32, x J f * w f q

/-- Column block kb's part of the propagation: its 1024 source nodes' contributions. -/
def blockSum1 (L : Fin 16384 → Fin 16384 → EReal) (x : Fin 16384 → Fin 32 → EReal) (w : Fin 32 → Fin 32 → EReal)
    (P : Fin 16384) (q : Fin 32) (kb : ℕ) : EReal :=
  if h : kb < 16 then ∑ j : Fin 1024, term1 L x w P q ⟨kb * 1024 + j.val, by omega⟩ else 0

/-- The running total after the last column block is the sum over all source nodes. -/
theorem acc_blockSum1_last (L : Fin 16384 → Fin 16384 → EReal) (x : Fin 16384 → Fin 32 → EReal) (w : Fin 32 → Fin 32 → EReal)
    (P : Fin 16384) (q : Fin 32) :
    Cert.Arma.Blocks.acc (blockSum1 L x w P q) 15 = ∑ J : Fin 16384, term1 L x w P q J := by
  rw [Cert.Arma.Blocks.acc_eq]
  show ∑ kb ∈ Finset.range 16, blockSum1 L x w P q kb = _
  rw [Finset.sum_range]
  refine Eq.trans (Finset.sum_congr rfl fun kb _ => ?_) (Cert.Arma.Blocks.sum_blocks16 (term1 L x w P q))
  exact dif_pos kb.isLt

/-- A sequence that is cleared at every sixteenth step and otherwise gains the step's block is, after step n, the
    running total of the blocks of n's row block up to n's column block. -/
theorem acc_inv1 (a : ℕ → EReal) (S : Fin 16384 → ℕ → EReal) (r : ℕ)
    (hstep : ∀ n, n < 128 → ∀ P : Fin 16384, P.val = 2048 * (n / 16) + r →
      a (n + 1) = (if n % 16 = 0 then 0 else a n) + S P (n % 16)) :
    ∀ n, n < 128 → ∀ P : Fin 16384, P.val = 2048 * (n / 16) + r → a (n + 1) = Cert.Arma.Blocks.acc (S P) (n % 16) := by
  intro n
  induction n with
  | zero =>
    intro h P hP
    rw [hstep 0 h P hP, if_pos (by norm_num)]
    rfl
  | succ m ih =>
    intro h P hP
    by_cases hm : (m + 1) % 16 = 0
    · rw [hstep (m + 1) h P hP, if_pos hm, hm]
      rfl
    · rw [hstep (m + 1) h P hP, if_neg hm]
      have hP' : P.val = 2048 * (m / 16) + r := by omega
      rw [ih (by omega) P hP']
      have e : (m + 1) % 16 = m % 16 + 1 := by omega
      rw [e]
      rfl

/-- Row block i, column block k: the operator's block B0 times the projected source block B1 · W, at row r and channel
    q, is column block k of the propagation sum of the target node 2048 i + r. The blocks are any arrays that read as
    the operator L, the states x and the weights w at the block's coordinates. -/
theorem blockSum1_of (L : Fin 16384 → Fin 16384 → EReal) (x : Fin 16384 → Fin 32 → EReal) (w : Fin 32 → Fin 32 → EReal)
    (i k : ℕ) (hk : k < 16) (B0 : Vec Ideal S2048x1024 .f32) (B1 : Vec Ideal S1024x32 .f32) (W : Vec Ideal S32x32 .f32)
    (h0 : ∀ (r : Fin 2048) (j : Fin 1024) (P J : Fin 16384), P.val = 2048 * i + r.val → J.val = 1024 * k + j.val →
      B0 (ix2 r j) = L P J)
    (h1 : ∀ (j : Fin 1024) (f : Fin 32) (J : Fin 16384), J.val = 1024 * k + j.val → B1 (ix2 j f) = x J f)
    (hW : ∀ f q, W (ix2 f q) = w f q) (r : Fin 2048) (q : Fin 32) (P : Fin 16384) (hP : P.val = 2048 * i + r.val) :
    ∑ j : Fin 1024, B0 (ix2 r j) * ∑ f : Fin 32, B1 (ix2 j f) * W (ix2 f q) = blockSum1 L x w P q k := by
  unfold blockSum1
  rw [dif_pos hk]
  refine Finset.sum_congr rfl fun j _ => ?_
  have hj := j.isLt
  have hJ : (⟨k * 1024 + j.val, by omega⟩ : Fin 16384).val = 1024 * k + j.val := by
    show k * 1024 + j.val = 1024 * k + j.val
    omega
  unfold term1
  refine congrArg₂ (· * ·) (h0 r j P _ hP hJ) ?_
  refine Finset.sum_congr rfl fun f _ => ?_
  exact congrArg₂ (· * ·) (h1 j f _ hJ) (hW f q)

/-! ## The accumulators -/

/-- One point's step of accumulator 0 at row r and channel q: cleared at a row block's first point, it gains the
    point's block of the propagation sum. -/
theorem acc1_0_step (c : Dev nD) (t : Fin cfg1.N) (r : Fin 2048) (q : Fin 32) (P : Fin 16384)
    (hP : P.val = 2048 * (t.val / 16) + r.val) :
    acc1_0 V c (t.val + 1) (ix2 r q)
      = (if t.val % 16 = 0 then 0 else acc1_0 V c t.val (ix2 r q))
        + blockSum1 (fun p j => V c main_arg1 (ix2 p j)) (fun p f => V c main_v2_0 (ix2 p f)) (fun f q => V c main_arg5 (ix2 f q)) P q (t.val % 16) := by
  rw [acc1_0_succ]
  refine (Cert.Arma.Pay.k1_pay5_apply (iblk1 V c 1 t) (iblk1 V c 4 t) (iblk1 V c 0 t)
    (if t.val % 16 = 0 then k1_pay2 (F := Ideal) else acc1_0 V c t.val) r q).trans ?_
  refine congrArg₂ (· + ·) ?_
    (blockSum1_of (fun p j => V c main_arg1 (ix2 p j)) (fun p f => V c main_v2_0 (ix2 p f)) (fun f q => V c main_arg5 (ix2 f q))
      (t.val / 16) (t.val % 16) (Nat.mod_lt _ (by norm_num)) (iblk1 V c 0 t) (iblk1 V c 1 t) (iblk1 V c 4 t)
      (fun r j P J hP hJ => iblk1_0_apply V c t r j P J hP hJ) (fun j f J hJ => iblk1_1_apply V c t j f J hJ)
      (fun f q => iblk1_4_apply V c t f q) r q P hP)
  split_ifs with h
  · exact Cert.Arma.Pay.k1_pay2_apply r q
  · rfl

/-- After a row block's last point accumulator 0 holds, at row r and channel q, the whole propagation sum of the
    target node 2048 (t / 16) + r over all 16384 source nodes. -/
theorem acc1_0_last (c : Dev nD) (t : Fin cfg1.N) (ht : t.val % 16 = 15) (r : Fin 2048) (q : Fin 32) (P : Fin 16384)
    (hP : P.val = 2048 * (t.val / 16) + r.val) :
    acc1_0 V c (t.val + 1) (ix2 r q)
      = ∑ J : Fin 16384, term1 (fun p j => V c main_arg1 (ix2 p j)) (fun p f => V c main_v2_0 (ix2 p f)) (fun f q => V c main_arg5 (ix2 f q)) P q J := by
  have hN : cfg1.N = 128 := N_1
  have ht' : t.val < 128 := lt_of_lt_of_eq t.isLt hN
  have h := acc_inv1 (fun n => acc1_0 V c n (ix2 r q))
    (fun P kb => blockSum1 (fun p j => V c main_arg1 (ix2 p j)) (fun p f => V c main_v2_0 (ix2 p f)) (fun f q => V c main_arg5 (ix2 f q)) P q kb)
    r.val (fun n hn P hP => acc1_0_step V c ⟨n, lt_of_lt_of_eq hn hN.symm⟩ r q P hP) t.val ht' P hP
  refine h.trans ?_
  rw [ht]
  exact acc_blockSum1_last _ _ _ P q

/-- One point's step of accumulator 1 at row r and channel q: cleared at a row block's first point, it gains the
    point's block of the propagation sum. -/
theorem acc1_1_step (c : Dev nD) (t : Fin cfg1.N) (r : Fin 2048) (q : Fin 32) (P : Fin 16384)
    (hP : P.val = 2048 * (t.val / 16) + r.val) :
    acc1_1 V c (t.val + 1) (ix2 r q)
      = (if t.val % 16 = 0 then 0 else acc1_1 V c t.val (ix2 r q))
        + blockSum1 (fun p j => V c main_arg1 (ix2 p j)) (fun p f => V c main_v2_1 (ix2 p f)) (fun f q => V c main_arg11 (ix2 f q)) P q (t.val % 16) := by
  rw [acc1_1_succ]
  refine (Cert.Arma.Pay.k1_pay6_apply (iblk1 V c 2 t) (iblk1 V c 5 t) (iblk1 V c 0 t)
    (if t.val % 16 = 0 then k1_pay3 (F := Ideal) else acc1_1 V c t.val) r q).trans ?_
  refine congrArg₂ (· + ·) ?_
    (blockSum1_of (fun p j => V c main_arg1 (ix2 p j)) (fun p f => V c main_v2_1 (ix2 p f)) (fun f q => V c main_arg11 (ix2 f q))
      (t.val / 16) (t.val % 16) (Nat.mod_lt _ (by norm_num)) (iblk1 V c 0 t) (iblk1 V c 2 t) (iblk1 V c 5 t)
      (fun r j P J hP hJ => iblk1_0_apply V c t r j P J hP hJ) (fun j f J hJ => iblk1_2_apply V c t j f J hJ)
      (fun f q => iblk1_5_apply V c t f q) r q P hP)
  split_ifs with h
  · exact Cert.Arma.Pay.k1_pay3_apply r q
  · rfl

/-- After a row block's last point accumulator 1 holds, at row r and channel q, the whole propagation sum of the
    target node 2048 (t / 16) + r over all 16384 source nodes. -/
theorem acc1_1_last (c : Dev nD) (t : Fin cfg1.N) (ht : t.val % 16 = 15) (r : Fin 2048) (q : Fin 32) (P : Fin 16384)
    (hP : P.val = 2048 * (t.val / 16) + r.val) :
    acc1_1 V c (t.val + 1) (ix2 r q)
      = ∑ J : Fin 16384, term1 (fun p j => V c main_arg1 (ix2 p j)) (fun p f => V c main_v2_1 (ix2 p f)) (fun f q => V c main_arg11 (ix2 f q)) P q J := by
  have hN : cfg1.N = 128 := N_1
  have ht' : t.val < 128 := lt_of_lt_of_eq t.isLt hN
  have h := acc_inv1 (fun n => acc1_1 V c n (ix2 r q))
    (fun P kb => blockSum1 (fun p j => V c main_arg1 (ix2 p j)) (fun p f => V c main_v2_1 (ix2 p f)) (fun f q => V c main_arg11 (ix2 f q)) P q kb)
    r.val (fun n hn P hP => acc1_1_step V c ⟨n, lt_of_lt_of_eq hn hN.symm⟩ r q P hP) t.val ht' P hP
  refine h.trans ?_
  rw [ht]
  exact acc_blockSum1_last _ _ _ P q

/-! ## The output -/

/-- One stack's second layer at target node P and channel q, from the full propagation sum, the skip product and the
    bias: the arithmetic a row block's last point does for that stack. -/
theorem layerB_of (L : Fin 16384 → Fin 16384 → EReal) (x : Fin 16384 → Fin 64 → EReal) (xb : Fin 16384 → Fin 32 → EReal)
    (w1 : Fin 32 → Fin 32 → EReal) (w2 : Fin 64 → Fin 32 → EReal) (b : Fin 32 → EReal) (P : Fin 16384) (q : Fin 32)
    (a s bq : EReal) (ha : a = ∑ J : Fin 16384, term1 L xb w1 P q J) (hs : s = ∑ f : Fin 64, x P f * w2 f q) (hb : bq = b q) :
    max ((a + s) + bq) 0 = Cert.Arma.layerB L x xb w1 w2 b P q := by
  rw [ha, hs, hb]
  rfl

/-- What point t, the last of its row block, leaves in the output window at row r and channel q: the mean of the two
    stacks' second layers at the target node 2048 (t / 16) + r. -/
theorem out1_10_at (c : Dev nD) (t : Fin cfg1.N) (ht : t.val % 16 = 15) (r : Fin 2048) (q : Fin 32) (P : Fin 16384)
    (hP : P.val = 2048 * (t.val / 16) + r.val) :
    k1_pay1 (iblk1 V c 3 t) (iblk1 V c 6 t) (iblk1 V c 7 t) (acc1_0 V c (t.val + 1)) (iblk1 V c 8 t) (acc1_1 V c (t.val + 1)) (iblk1 V c 9 t) (ix2 r q)
      = Cert.Arma.mean2 (Cert.Arma.layerB (fun p j => V c main_arg1 (ix2 p j)) (fun p f => V c main_arg0 (ix2 p f)) (fun p f => V c main_v2_0 (ix2 p f)) (fun f q => V c main_arg5 (ix2 f q)) (fun f q => V c main_arg6 (ix2 f q)) (fun q => V c main_v3 (ix2 (0 : Fin 1) q)) P q) (Cert.Arma.layerB (fun p j => V c main_arg1 (ix2 p j)) (fun p f => V c main_arg0 (ix2 p f)) (fun p f => V c main_v2_1 (ix2 p f)) (fun f q => V c main_arg11 (ix2 f q)) (fun f q => V c main_arg12 (ix2 f q)) (fun q => V c main_v4 (ix2 (0 : Fin 1) q)) P q) := by
  refine (Cert.Arma.Pay.k1_pay1_apply (iblk1 V c 3 t) (iblk1 V c 6 t) (iblk1 V c 7 t) (acc1_0 V c (t.val + 1)) (iblk1 V c 8 t)
    (acc1_1 V c (t.val + 1)) (iblk1 V c 9 t) r q).trans ?_
  refine congrArg₂ Cert.Arma.mean2 ?_ ?_
  · refine layerB_of _ _ _ _ _ _ P q _ _ _ (acc1_0_last V c t ht r q P hP) ?_ (iblk1_8_apply V c t 0 q)
    refine Finset.sum_congr rfl fun f _ => ?_
    exact congrArg₂ (· * ·) (iblk1_3_apply V c t r f P hP) (iblk1_6_apply V c t f q)
  · refine layerB_of _ _ _ _ _ _ P q _ _ _ (acc1_1_last V c t ht r q P hP) ?_ (iblk1_9_apply V c t 0 q)
    refine Finset.sum_congr rfl fun f _ => ?_
    exact congrArg₂ (· * ·) (iblk1_3_apply V c t r f P hP) (iblk1_7_apply V c t f q)

/-- The mean of the two stacks' second layers as an array over the output's index set. -/
abbrev G1_10 (c : Dev nD) : Buf (Elt Ideal) ((cfg1.win 10).arr.view.loc (c.tc : Thread nD τ)) := fun i =>
  Cert.Arma.mean2 (Cert.Arma.layerB (fun p j => V c main_arg1 (ix2 p j)) (fun p f => V c main_arg0 (ix2 p f)) (fun p f => V c main_v2_0 (ix2 p f)) (fun f q => V c main_arg5 (ix2 f q)) (fun f q => V c main_arg6 (ix2 f q)) (fun q => V c main_v3 (ix2 (0 : Fin 1) q)) (i 0) (i 1)) (Cert.Arma.layerB (fun p j => V c main_arg1 (ix2 p j)) (fun p f => V c main_arg0 (ix2 p f)) (fun p f => V c main_v2_1 (ix2 p f)) (fun f q => V c main_arg11 (ix2 f q)) (fun f q => V c main_arg12 (ix2 f q)) (fun q => V c main_v4 (ix2 (0 : Fin 1) q)) (i 0) (i 1))

/-- What a row block's last point writes back is that row block of the mean. -/
theorem flushed1_10_eq (c : Dev nD) (t : Fin cfg1.N) (hf : (cfg1.win 10).flush t = true) :
    (dat1 V c).flushed 10 t = ((cfg1.win 10).blk t).view.read (Elt Ideal) (G1_10 V c) := by
  have ht : t.val % 16 = 15 := (flush1_10 t).mp hf
  have hN : cfg1.N = 128 := N_1
  have htl : t.val < 128 := lt_of_lt_of_eq t.isLt hN
  obtain ⟨-, -, -, -, -, -, -, -, e10_0, e10_1⟩ := idx_facts1 t
  show (cfg1.win 10).cut (grid1.coords t) ((dat1 V c).after 10 t) = _
  rw [after1_10]
  funext y
  have hy0 : (y 0).val < 2048 := (y 0).isLt
  have hy1 : (y 1).val < 32 := (y 1).isLt
  have hx : (cfg1.win 10).xinj (grid1.coords t) y = ix2 (⟨(y 0).val, hy0⟩ : Fin 2048) (⟨(y 1).val, hy1⟩ : Fin 32) := by
    funext a
    match a with
    | ⟨0, _⟩ => rfl
    | ⟨1, _⟩ => rfl
  show k1_pay1 (iblk1 V c 3 t) (iblk1 V c 6 t) (iblk1 V c 7 t) (acc1_0 V c (t.val + 1)) (iblk1 V c 8 t) (acc1_1 V c (t.val + 1)) (iblk1 V c 9 t) ((cfg1.win 10).xinj (grid1.coords t) y)
    = G1_10 V c (((cfg1.win 10).blk t).view.emb y)
  rw [hx]
  refine (out1_10_at V c t ht ⟨(y 0).val, hy0⟩ ⟨(y 1).val, hy1⟩ ⟨2048 * (t.val / 16) + (y 0).val, by omega⟩ rfl).trans ?_
  have h0 : (⟨2048 * (t.val / 16) + (y 0).val, by omega⟩ : Fin 16384) = (((cfg1.win 10).blk t).view.emb y) 0 := by
    apply Fin.ext
    show 2048 * (t.val / 16) + (y 0).val = win1_10.index t 0 * 2048 + 1 * (y 0).val
    rw [e10_0]; omega
  have h1 : (⟨(y 1).val, hy1⟩ : Fin 32) = (((cfg1.win 10).blk t).view.emb y) 1 := by
    apply Fin.ext
    show (y 1).val = win1_10.index t 1 * 32 + 1 * (y 1).val
    rw [e10_1]; omega
  rw [h0, h1]

/-- Every node's row lies in the block its row block's last point writes back. -/
theorem cover1_10 (c : Dev nD) (i : ((cfg1.win 10).arr.view.loc (c.tc : Thread nD τ)).2.ty.Idx) :
    ∃ t : Fin cfg1.N, (cfg1.win 10).flush t = true ∧ i ∈ ((cfg1.win 10).blk t).view.set := by
  have hN : cfg1.N = 128 := N_1
  have hi0 : (i 0).val < 16384 := (i 0).isLt
  have hi1 : (i 1).val < 32 := (i 1).isLt
  obtain ⟨t, tv⟩ : ∃ t : Fin cfg1.N, t.val = 16 * ((i 0).val / 2048) + 15 := ⟨⟨16 * ((i 0).val / 2048) + 15, by rw [hN]; omega⟩, rfl⟩
  obtain ⟨-, -, -, -, -, -, -, -, e10_0, e10_1⟩ := idx_facts1 t
  refine ⟨t, (flush1_10 t).mpr (by omega), ?_⟩
  show i ∈ ((View.whole main_v5).slice (win1_10.rect t)).set
  rw [View.set_slice_whole, Rect.mem_set_unit]
  intro a
  match a with
  | ⟨0, _⟩ =>
    show win1_10.index t 0 * 2048 ≤ (i 0).val ∧ (i 0).val < win1_10.index t 0 * 2048 + 2048
    rw [e10_0]; omega
  | ⟨1, _⟩ =>
    show win1_10.index t 1 * 32 ≤ (i 1).val ∧ (i 1).val < win1_10.index t 1 * 32 + 32
    rw [e10_1]; omega

/-- After the region the output array holds the mean of the two stacks' second layers, node by node and channel by
    channel. -/
theorem final1_10 (c : Dev nD) : (dat1 V c).arrAt 10 cfg1.N = fun i =>
    Cert.Arma.mean2 (Cert.Arma.layerB (fun p j => V c main_arg1 (ix2 p j)) (fun p f => V c main_arg0 (ix2 p f)) (fun p f => V c main_v2_0 (ix2 p f)) (fun f q => V c main_arg5 (ix2 f q)) (fun f q => V c main_arg6 (ix2 f q)) (fun q => V c main_v3 (ix2 (0 : Fin 1) q)) (i 0) (i 1)) (Cert.Arma.layerB (fun p j => V c main_arg1 (ix2 p j)) (fun p f => V c main_arg0 (ix2 p f)) (fun p f => V c main_v2_1 (ix2 p f)) (fun f q => V c main_arg11 (ix2 f q)) (fun f q => V c main_arg12 (ix2 f q)) (fun q => V c main_v4 (ix2 (0 : Fin 1) q)) (i 0) (i 1)) :=
  (dat1 V c).arrAt_eq_of_cover 10 (G1_10 V c) (fun t hf => flushed1_10_eq V c t hf) (cover1_10 c)

end Cert.KernelIdeal.Gen

end
-- ==== Proof.IdealValue0A.lean ====
/-
  The first kernel region's input blocks, read off the arrays the region finds.

  Point t = 16·i + k of the 8 × 16 grid works on row block i (2048 target nodes) and column block k (1024 source
  nodes). The operator's block at t holds its entries (2048 i + r, 1024 k + j); the source-node features' block holds
  the rows 1024 k + j of the feature array; the target-node features' block holds the rows 2048 i + r; the four weight
  arrays and the two bias rows are single blocks, the arrays themselves. A block's coordinate in its array is always
  block index × block size + the coordinate inside the block, and the block indices are decided once over the grid.
-/
import proofs.«160956_j71236327571877_2_alg».proof.Proof.IdealData0
import proofs.«160956_j71236327571877_2_alg».proof.Proof.Payloads
import proofs.«160956_j71236327571877_2_alg».proof.Proof.BlockSum
import proofs.«160956_j71236327571877_2_alg».proof.Proof.Spec
import Idealize.ShloMosaic.Lib.Pipeline.Value

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The block indices over the grid -/

/-- Point t = 16·i + k names row block i = t / 16 and column block k = t % 16. -/
theorem idx_facts0 : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0
    ∧ win0_9.index t (0 : Fin 2) = t.val / 16 ∧ win0_9.index t (1 : Fin 2) = 0
    ∧ win0_10.index t (0 : Fin 2) = t.val / 16 ∧ win0_10.index t (1 : Fin 2) = 0 :=
  (by decide +kernel : ∀ t : Fin grid0.N, _)

/-- The weights and the bias rows are single blocks. -/
theorem idx_whole0_3 : ∀ t : Fin cfg0.N, win0_3.index t (0 : Fin 2) = 0 ∧ win0_3.index t (1 : Fin 2) = 0 :=
  (by decide +kernel : ∀ t : Fin grid0.N, _)
theorem idx_whole0_4 : ∀ t : Fin cfg0.N, win0_4.index t (0 : Fin 2) = 0 ∧ win0_4.index t (1 : Fin 2) = 0 :=
  (by decide +kernel : ∀ t : Fin grid0.N, _)
theorem idx_whole0_5 : ∀ t : Fin cfg0.N, win0_5.index t (0 : Fin 2) = 0 ∧ win0_5.index t (1 : Fin 2) = 0 :=
  (by decide +kernel : ∀ t : Fin grid0.N, _)
theorem idx_whole0_6 : ∀ t : Fin cfg0.N, win0_6.index t (0 : Fin 2) = 0 ∧ win0_6.index t (1 : Fin 2) = 0 :=
  (by decide +kernel : ∀ t : Fin grid0.N, _)
theorem idx_whole0_7 : ∀ t : Fin cfg0.N, win0_7.index t (0 : Fin 2) = 0 ∧ win0_7.index t (1 : Fin 2) = 0 :=
  (by decide +kernel : ∀ t : Fin grid0.N, _)
theorem idx_whole0_8 : ∀ t : Fin cfg0.N, win0_8.index t (0 : Fin 2) = 0 ∧ win0_8.index t (1 : Fin 2) = 0 :=
  (by decide +kernel : ∀ t : Fin grid0.N, _)

/-! ## The blocks read at coordinates -/

/-- The operator's block at point t: entry (r, j) is the operator's entry (2048 (t / 16) + r, 1024 (t % 16) + j). -/
theorem iblk0_0_apply (c : Dev nD) (t : Fin cfg0.N) (r : Fin 2048) (j : Fin 1024) (P J : Fin 16384)
    (hP : P.val = 2048 * (t.val / 16) + r.val) (hJ : J.val = 1024 * (t.val % 16) + j.val) :
    (iblk0 V c 0 t : Vec Ideal S2048x1024 .f32) (ix2 r j) = (V c main_arg1 : S16384x16384.Idx → EReal) (ix2 P J) := by
  obtain ⟨e0, e1, -⟩ := idx_facts0 t
  unfold iblk0
  rw [View.read_apply]
  show V c main_arg1 _ = V c main_arg1 _
  congr 1
  funext ax
  apply Fin.ext
  match ax with
  | ⟨0, _⟩ => show win0_0.index t 0 * 2048 + 1 * r.val = P.val; rw [e0, hP]; omega
  | ⟨1, _⟩ => show win0_0.index t 1 * 1024 + 1 * j.val = J.val; rw [e1, hJ]; omega

/-- The source nodes' feature block at point t: row j is the feature row of node 1024 (t % 16) + j. -/
theorem iblk0_1_apply (c : Dev nD) (t : Fin cfg0.N) (j : Fin 1024) (f : Fin 64) (J : Fin 16384)
    (hJ : J.val = 1024 * (t.val % 16) + j.val) :
    (iblk0 V c 1 t : Vec Ideal S1024x64 .f32) (ix2 j f) = (V c main_arg0 : S16384x64.Idx → EReal) (ix2 J f) := by
  obtain ⟨-, -, e0, e1, -⟩ := idx_facts0 t
  unfold iblk0
  rw [View.read_apply]
  show V c main_arg0 _ = V c main_arg0 _
  congr 1
  funext ax
  apply Fin.ext
  match ax with
  | ⟨0, _⟩ => show win0_1.index t 0 * 1024 + 1 * j.val = J.val; rw [e0, hJ]; omega
  | ⟨1, _⟩ => show win0_1.index t 1 * 64 + 1 * f.val = f.val; rw [e1]; omega

/-- The target nodes' feature block at point t: row r is the feature row of node 2048 (t / 16) + r. -/
theorem iblk0_2_apply (c : Dev nD) (t : Fin cfg0.N) (r : Fin 2048) (f : Fin 64) (P : Fin 16384)
    (hP : P.val = 2048 * (t.val / 16) + r.val) :
    (iblk0 V c 2 t : Vec Ideal S2048x64 .f32) (ix2 r f) = (V c main_arg0 : S16384x64.Idx → EReal) (ix2 P f) := by
  obtain ⟨-, -, -, -, e0, e1, -⟩ := idx_facts0 t
  unfold iblk0
  rw [View.read_apply]
  show V c main_arg0 _ = V c main_arg0 _
  congr 1
  funext ax
  apply Fin.ext
  match ax with
  | ⟨0, _⟩ => show win0_2.index t 0 * 2048 + 1 * r.val = P.val; rw [e0, hP]; omega
  | ⟨1, _⟩ => show win0_2.index t 1 * 64 + 1 * f.val = f.val; rw [e1]; omega

theorem iblk0_3_apply (c : Dev nD) (t : Fin cfg0.N) (f : Fin 64) (q : Fin 32) :
    (iblk0 V c 3 t : Vec Ideal S64x32 .f32) (ix2 f q) = (V c main_arg2 : S64x32.Idx → EReal) (ix2 f q) := by
  obtain ⟨e0, e1⟩ := idx_whole0_3 t
  unfold iblk0
  rw [View.read_apply]
  show V c main_arg2 _ = V c main_arg2 _
  congr 1
  funext ax
  apply Fin.ext
  match ax with
  | ⟨0, _⟩ => show win0_3.index t 0 * 64 + 1 * f.val = f.val; rw [e0]; omega
  | ⟨1, _⟩ => show win0_3.index t 1 * 32 + 1 * q.val = q.val; rw [e1]; omega

theorem iblk0_4_apply (c : Dev nD) (t : Fin cfg0.N) (f : Fin 64) (q : Fin 32) :
    (iblk0 V c 4 t : Vec Ideal S64x32 .f32) (ix2 f q) = (V c main_arg8 : S64x32.Idx → EReal) (ix2 f q) := by
  obtain ⟨e0, e1⟩ := idx_whole0_4 t
  unfold iblk0
  rw [View.read_apply]
  show V c main_arg8 _ = V c main_arg8 _
  congr 1
  funext ax
  apply Fin.ext
  match ax with
  | ⟨0, _⟩ => show win0_4.index t 0 * 64 + 1 * f.val = f.val; rw [e0]; omega
  | ⟨1, _⟩ => show win0_4.index t 1 * 32 + 1 * q.val = q.val; rw [e1]; omega

theorem iblk0_5_apply (c : Dev nD) (t : Fin cfg0.N) (f : Fin 64) (q : Fin 32) :
    (iblk0 V c 5 t : Vec Ideal S64x32 .f32) (ix2 f q) = (V c main_arg3 : S64x32.Idx → EReal) (ix2 f q) := by
  obtain ⟨e0, e1⟩ := idx_whole0_5 t
  unfold iblk0
  rw [View.read_apply]
  show V c main_arg3 _ = V c main_arg3 _
  congr 1
  funext ax
  apply Fin.ext
  match ax with
  | ⟨0, _⟩ => show win0_5.index t 0 * 64 + 1 * f.val = f.val; rw [e0]; omega
  | ⟨1, _⟩ => show win0_5.index t 1 * 32 + 1 * q.val = q.val; rw [e1]; omega

theorem iblk0_6_apply (c : Dev nD) (t : Fin cfg0.N) (f : Fin 64) (q : Fin 32) :
    (iblk0 V c 6 t : Vec Ideal S64x32 .f32) (ix2 f q) = (V c main_arg9 : S64x32.Idx → EReal) (ix2 f q) := by
  obtain ⟨e0, e1⟩ := idx_whole0_6 t
  unfold iblk0
  rw [View.read_apply]
  show V c main_arg9 _ = V c main_arg9 _
  congr 1
  funext ax
  apply Fin.ext
  match ax with
  | ⟨0, _⟩ => show win0_6.index t 0 * 64 + 1 * f.val = f.val; rw [e0]; omega
  | ⟨1, _⟩ => show win0_6.index t 1 * 32 + 1 * q.val = q.val; rw [e1]; omega

theorem iblk0_7_apply (c : Dev nD) (t : Fin cfg0.N) (z : Fin 1) (q : Fin 32) :
    (iblk0 V c 7 t : Vec Ideal S1x32 .f32) (ix2 z q) = (V c main_v0 : S1x32.Idx → EReal) (ix2 z q) := by
  obtain ⟨e0, e1⟩ := idx_whole0_7 t
  unfold iblk0
  rw [View.read_apply]
  show V c main_v0 _ = V c main_v0 _
  congr 1
  funext ax
  apply Fin.ext
  match ax with
  | ⟨0, _⟩ => show win0_7.index t 0 * 1 + 1 * z.val = z.val; rw [e0]; omega
  | ⟨1, _⟩ => show win0_7.index t 1 * 32 + 1 * q.val = q.val; rw [e1]; omega

theorem iblk0_8_apply (c : Dev nD) (t : Fin cfg0.N) (z : Fin 1) (q : Fin 32) :
    (iblk0 V c 8 t : Vec Ideal S1x32 .f32) (ix2 z q) = (V c main_v1 : S1x32.Idx → EReal) (ix2 z q) := by
  obtain ⟨e0, e1⟩ := idx_whole0_8 t
  unfold iblk0
  rw [View.read_apply]
  show V c main_v1 _ = V c main_v1 _
  congr 1
  funext ax
  apply Fin.ext
  match ax with
  | ⟨0, _⟩ => show win0_8.index t 0 * 1 + 1 * z.val = z.val; rw [e0]; omega
  | ⟨1, _⟩ => show win0_8.index t 1 * 32 + 1 * q.val = q.val; rw [e1]; omega

end Cert.KernelIdeal.Gen

end
-- ==== Proof.IdealValue0B.lean ====
/-
  The first kernel region's two accumulators.

  At target node P and channel q the propagation is  Σ_J L P J · (Σ_f x J f · w f q)  over all 16384 source nodes J.
  The kernel gathers it one column block of 1024 source nodes at a time: at the first column block of a row block the
  accumulator is cleared, and every point adds its block's part. So after column block k it holds the running total of
  the blocks 0 … k, and after the last (k = 15) the sum over the 16 blocks, which is the sum over all source nodes.
  Sums in the extended reals form a commutative monoid, so no entry has to be finite.
-/
import proofs.«160956_j71236327571877_2_alg».proof.Proof.IdealValue0A

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The propagation sum in column blocks -/

/-- Source node J's contribution to the propagation at target node P and channel q. -/
def term (L : Fin 16384 → Fin 16384 → EReal) (x : Fin 16384 → Fin 64 → EReal) (w : Fin 64 → Fin 32 → EReal)
    (P : Fin 16384) (q : Fin 32) (J : Fin 16384) : EReal := L P J * ∑ f : Fin 64, x J f * w f q

/-- Column block kb's part of the propagation: its 1024 source nodes' contributions. -/
def blockSum (L : Fin 16384 → Fin 16384 → EReal) (x : Fin 16384 → Fin 64 → EReal) (w : Fin 64 → Fin 32 → EReal)
    (P : Fin 16384) (q : Fin 32) (kb : ℕ) : EReal :=
  if h : kb < 16 then ∑ j : Fin 1024, term L x w P q ⟨kb * 1024 + j.val, by omega⟩ else 0

/-- The running total after the last column block is the sum over all source nodes. -/
theorem acc_blockSum_last (L : Fin 16384 → Fin 16384 → EReal) (x : Fin 16384 → Fin 64 → EReal) (w : Fin 64 → Fin 32 → EReal)
    (P : Fin 16384) (q : Fin 32) :
    Cert.Arma.Blocks.acc (blockSum L x w P q) 15 = ∑ J : Fin 16384, term L x w P q J := by
  rw [Cert.Arma.Blocks.acc_eq]
  show ∑ kb ∈ Finset.range 16, blockSum L x w P q kb = _
  rw [Finset.sum_range]
  refine Eq.trans (Finset.sum_congr rfl fun kb _ => ?_) (Cert.Arma.Blocks.sum_blocks16 (term L x w P q))
  exact dif_pos kb.isLt

/-- A sequence that is cleared at every sixteenth step and otherwise gains the step's block is, after step n, the
    running total of the blocks of n's row block up to n's column block. -/
theorem acc_inv (a : ℕ → EReal) (S : Fin 16384 → ℕ → EReal) (r : ℕ)
    (hstep : ∀ n, n < 128 → ∀ P : Fin 16384, P.val = 2048 * (n / 16) + r →
      a (n + 1) = (if n % 16 = 0 then 0 else a n) + S P (n % 16)) :
    ∀ n, n < 128 → ∀ P : Fin 16384, P.val = 2048 * (n / 16) + r → a (n + 1) = Cert.Arma.Blocks.acc (S P) (n % 16) := by
  intro n
  induction n with
  | zero =>
    intro h P hP
    rw [hstep 0 h P hP, if_pos (by norm_num)]
    rfl
  | succ m ih =>
    intro h P hP
    by_cases hm : (m + 1) % 16 = 0
    · rw [hstep (m + 1) h P hP, if_pos hm, hm]
      rfl
    · rw [hstep (m + 1) h P hP, if_neg hm]
      have hP' : P.val = 2048 * (m / 16) + r := by omega
      rw [ih (by omega) P hP']
      have e : (m + 1) % 16 = m % 16 + 1 := by omega
      rw [e]
      rfl

/-! ## One point's block of the propagation -/

/-- Row block i, column block k: the operator's block B0 times the projected source block B1 · W, at row r and channel
    q, is column block k of the propagation sum of the target node 2048 i + r. The blocks are any arrays that read as
    the operator L, the features x and the weights w at the block's coordinates. -/
theorem blockSum_of (L : Fin 16384 → Fin 16384 → EReal) (x : Fin 16384 → Fin 64 → EReal) (w : Fin 64 → Fin 32 → EReal)
    (i k : ℕ) (hk : k < 16) (B0 : Vec Ideal S2048x1024 .f32) (B1 : Vec Ideal S1024x64 .f32) (W : Vec Ideal S64x32 .f32)
    (h0 : ∀ (r : Fin 2048) (j : Fin 1024) (P J : Fin 16384), P.val = 2048 * i + r.val → J.val = 1024 * k + j.val →
      B0 (ix2 r j) = L P J)
    (h1 : ∀ (j : Fin 1024) (f : Fin 64) (J : Fin 16384), J.val = 1024 * k + j.val → B1 (ix2 j f) = x J f)
    (hW : ∀ f q, W (ix2 f q) = w f q) (r : Fin 2048) (q : Fin 32) (P : Fin 16384) (hP : P.val = 2048 * i + r.val) :
    ∑ j : Fin 1024, B0 (ix2 r j) * ∑ f : Fin 64, B1 (ix2 j f) * W (ix2 f q) = blockSum L x w P q k := by
  unfold blockSum
  rw [dif_pos hk]
  refine Finset.sum_congr rfl fun j _ => ?_
  have hj := j.isLt
  have hJ : (⟨k * 1024 + j.val, by omega⟩ : Fin 16384).val = 1024 * k + j.val := by
    show k * 1024 + j.val = 1024 * k + j.val
    omega
  unfold term
  refine congrArg₂ (· * ·) (h0 r j P _ hP hJ) ?_
  refine Finset.sum_congr rfl fun f _ => ?_
  exact congrArg₂ (· * ·) (h1 j f _ hJ) (hW f q)

/-! ## The accumulators -/

/-- One point's step of the first accumulator at row r and channel q: cleared at a row block's first point, it gains the
    point's block of the propagation sum. -/
theorem acc0_0_step (c : Dev nD) (t : Fin cfg0.N) (r : Fin 2048) (q : Fin 32) (P : Fin 16384)
    (hP : P.val = 2048 * (t.val / 16) + r.val) :
    acc0_0 V c (t.val + 1) (ix2 r q)
      = (if t.val % 16 = 0 then 0 else acc0_0 V c t.val (ix2 r q))
        + blockSum (fun p j => V c main_arg1 (ix2 p j)) (fun p f => V c main_arg0 (ix2 p f)) (fun f q => V c main_arg2 (ix2 f q)) P q (t.val % 16) := by
  rw [acc0_0_succ]
  refine (Cert.Arma.Pay.k0_pay5_apply (iblk0 V c 1 t) (iblk0 V c 3 t) (iblk0 V c 0 t)
    (if t.val % 16 = 0 then k0_pay1 (F := Ideal) else acc0_0 V c t.val) r q).trans ?_
  refine congrArg₂ (· + ·) ?_
    (blockSum_of (fun p j => V c main_arg1 (ix2 p j)) (fun p f => V c main_arg0 (ix2 p f)) (fun f q => V c main_arg2 (ix2 f q))
      (t.val / 16) (t.val % 16) (Nat.mod_lt _ (by norm_num)) (iblk0 V c 0 t) (iblk0 V c 1 t) (iblk0 V c 3 t)
      (fun r j P J hP hJ => iblk0_0_apply V c t r j P J hP hJ) (fun j f J hJ => iblk0_1_apply V c t j f J hJ)
      (fun f q => iblk0_3_apply V c t f q) r q P hP)
  split_ifs with h
  · exact Cert.Arma.Pay.k0_pay1_apply r q
  · rfl

/-- After a row block's last point the first accumulator holds, at row r and channel q, the whole propagation sum of
    the target node 2048 (t / 16) + r over all 16384 source nodes. -/
theorem acc0_0_last (c : Dev nD) (t : Fin cfg0.N) (ht : t.val % 16 = 15) (r : Fin 2048) (q : Fin 32) (P : Fin 16384)
    (hP : P.val = 2048 * (t.val / 16) + r.val) :
    acc0_0 V c (t.val + 1) (ix2 r q)
      = ∑ J : Fin 16384, term (fun p j => V c main_arg1 (ix2 p j)) (fun p f => V c main_arg0 (ix2 p f)) (fun f q => V c main_arg2 (ix2 f q)) P q J := by
  have hN : cfg0.N = 128 := N_0
  have ht' : t.val < 128 := lt_of_lt_of_eq t.isLt hN
  have h := acc_inv (fun n => acc0_0 V c n (ix2 r q))
    (fun P kb => blockSum (fun p j => V c main_arg1 (ix2 p j)) (fun p f => V c main_arg0 (ix2 p f)) (fun f q => V c main_arg2 (ix2 f q)) P q kb)
    r.val (fun n hn P hP => acc0_0_step V c ⟨n, lt_of_lt_of_eq hn hN.symm⟩ r q P hP) t.val ht' P hP
  refine h.trans ?_
  rw [ht]
  exact acc_blockSum_last _ _ _ P q

/-- One point's step of the second accumulator at row r and channel q: cleared at a row block's first point, it gains the
    point's block of the propagation sum. -/
theorem acc0_1_step (c : Dev nD) (t : Fin cfg0.N) (r : Fin 2048) (q : Fin 32) (P : Fin 16384)
    (hP : P.val = 2048 * (t.val / 16) + r.val) :
    acc0_1 V c (t.val + 1) (ix2 r q)
      = (if t.val % 16 = 0 then 0 else acc0_1 V c t.val (ix2 r q))
        + blockSum (fun p j => V c main_arg1 (ix2 p j)) (fun p f => V c main_arg0 (ix2 p f)) (fun f q => V c main_arg8 (ix2 f q)) P q (t.val % 16) := by
  rw [acc0_1_succ]
  refine (Cert.Arma.Pay.k0_pay6_apply (iblk0 V c 1 t) (iblk0 V c 4 t) (iblk0 V c 0 t)
    (if t.val % 16 = 0 then k0_pay2 (F := Ideal) else acc0_1 V c t.val) r q).trans ?_
  refine congrArg₂ (· + ·) ?_
    (blockSum_of (fun p j => V c main_arg1 (ix2 p j)) (fun p f => V c main_arg0 (ix2 p f)) (fun f q => V c main_arg8 (ix2 f q))
      (t.val / 16) (t.val % 16) (Nat.mod_lt _ (by norm_num)) (iblk0 V c 0 t) (iblk0 V c 1 t) (iblk0 V c 4 t)
      (fun r j P J hP hJ => iblk0_0_apply V c t r j P J hP hJ) (fun j f J hJ => iblk0_1_apply V c t j f J hJ)
      (fun f q => iblk0_4_apply V c t f q) r q P hP)
  split_ifs with h
  · exact Cert.Arma.Pay.k0_pay2_apply r q
  · rfl

/-- After a row block's last point the second accumulator holds, at row r and channel q, the whole propagation sum of
    the target node 2048 (t / 16) + r over all 16384 source nodes. -/
theorem acc0_1_last (c : Dev nD) (t : Fin cfg0.N) (ht : t.val % 16 = 15) (r : Fin 2048) (q : Fin 32) (P : Fin 16384)
    (hP : P.val = 2048 * (t.val / 16) + r.val) :
    acc0_1 V c (t.val + 1) (ix2 r q)
      = ∑ J : Fin 16384, term (fun p j => V c main_arg1 (ix2 p j)) (fun p f => V c main_arg0 (ix2 p f)) (fun f q => V c main_arg8 (ix2 f q)) P q J := by
  have hN : cfg0.N = 128 := N_0
  have ht' : t.val < 128 := lt_of_lt_of_eq t.isLt hN
  have h := acc_inv (fun n => acc0_1 V c n (ix2 r q))
    (fun P kb => blockSum (fun p j => V c main_arg1 (ix2 p j)) (fun p f => V c main_arg0 (ix2 p f)) (fun f q => V c main_arg8 (ix2 f q)) P q kb)
    r.val (fun n hn P hP => acc0_1_step V c ⟨n, lt_of_lt_of_eq hn hN.symm⟩ r q P hP) t.val ht' P hP
  refine h.trans ?_
  rw [ht]
  exact acc_blockSum_last _ _ _ P q

end Cert.KernelIdeal.Gen

end
-- ==== Proof.IdealValue0.lean ====
/-
  The first kernel region's two output arrays.

  A row block's last point (column block 15) writes the output blocks back: the full propagation sum the accumulator
  has gathered, plus the skip product of the target nodes' own features, plus the bias row, cut off below at zero.
  At row r of row block i that is the layer's value at node 2048 i + r. Node p lies in row block p / 2048, whose last
  point is 16 (p / 2048) + 15, so the written blocks cover the array, and the array ends holding the layer's value at
  every node and channel.
-/
import proofs.«160956_j71236327571877_2_alg».proof.Proof.IdealValue0B

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- What point t, the last of its row block, leaves in output window 9 at row r and channel q: the layer's value at
    the target node 2048 (t / 16) + r. -/
theorem out0_9_at (c : Dev nD) (t : Fin cfg0.N) (ht : t.val % 16 = 15) (r : Fin 2048) (q : Fin 32) (P : Fin 16384)
    (hP : P.val = 2048 * (t.val / 16) + r.val) :
    k0_pay8 (iblk0 V c 2 t) (iblk0 V c 5 t) (acc0_0 V c (t.val + 1)) (iblk0 V c 7 t) (ix2 r q)
      = Cert.Arma.layerA (fun p j => V c main_arg1 (ix2 p j)) (fun p f => V c main_arg0 (ix2 p f)) (fun p f => V c main_arg0 (ix2 p f))
          (fun f q => V c main_arg2 (ix2 f q)) (fun f q => V c main_arg3 (ix2 f q)) (fun q => V c main_v0 (ix2 (0 : Fin 1) q)) P q := by
  refine (Cert.Arma.Pay.k0_pay8_apply (iblk0 V c 2 t) (iblk0 V c 5 t) (acc0_0 V c (t.val + 1)) (iblk0 V c 7 t) r q).trans ?_
  unfold Cert.Arma.layerA
  refine congrArg₂ max (congrArg₂ (· + ·) (congrArg₂ (· + ·) (acc0_0_last V c t ht r q P hP) ?_) (iblk0_7_apply V c t 0 q)) rfl
  refine Finset.sum_congr rfl fun f _ => ?_
  exact congrArg₂ (· * ·) (iblk0_2_apply V c t r f P hP) (iblk0_5_apply V c t f q)

/-- The layer's value as an array over the output's index set. -/
abbrev G0_9 (c : Dev nD) : Buf (Elt Ideal) ((cfg0.win 9).arr.view.loc (c.tc : Thread nD τ)) := fun i =>
  Cert.Arma.layerA (fun p j => V c main_arg1 (ix2 p j)) (fun p f => V c main_arg0 (ix2 p f)) (fun p f => V c main_arg0 (ix2 p f))
    (fun f q => V c main_arg2 (ix2 f q)) (fun f q => V c main_arg3 (ix2 f q)) (fun q => V c main_v0 (ix2 (0 : Fin 1) q)) (i 0) (i 1)

/-- What a row block's last point writes back is that row block of the layer's value. -/
theorem flushed0_9_eq (c : Dev nD) (t : Fin cfg0.N) (hf : (cfg0.win 9).flush t = true) :
    (dat0 V c).flushed 9 t = ((cfg0.win 9).blk t).view.read (Elt Ideal) (G0_9 V c) := by
  have ht : t.val % 16 = 15 := (flush0_9 t).mp hf
  have hN : cfg0.N = 128 := N_0
  have htl : t.val < 128 := lt_of_lt_of_eq t.isLt hN
  obtain ⟨-, -, -, -, -, -, e9_0, e9_1, e10_0, e10_1⟩ := idx_facts0 t
  show (cfg0.win 9).cut (grid0.coords t) ((dat0 V c).after 9 t) = _
  rw [after0_9]
  funext y
  have hy0 : (y 0).val < 2048 := (y 0).isLt
  have hy1 : (y 1).val < 32 := (y 1).isLt
  have hx : (cfg0.win 9).xinj (grid0.coords t) y = ix2 (⟨(y 0).val, hy0⟩ : Fin 2048) (⟨(y 1).val, hy1⟩ : Fin 32) := by
    funext a
    match a with
    | ⟨0, _⟩ => rfl
    | ⟨1, _⟩ => rfl
  show k0_pay8 (iblk0 V c 2 t) (iblk0 V c 5 t) (acc0_0 V c (t.val + 1)) (iblk0 V c 7 t) ((cfg0.win 9).xinj (grid0.coords t) y)
    = G0_9 V c (((cfg0.win 9).blk t).view.emb y)
  rw [hx]
  refine (out0_9_at V c t ht ⟨(y 0).val, hy0⟩ ⟨(y 1).val, hy1⟩ ⟨2048 * (t.val / 16) + (y 0).val, by omega⟩ rfl).trans ?_
  show Cert.Arma.layerA _ _ _ _ _ _ _ _ = Cert.Arma.layerA _ _ _ _ _ _ ((((cfg0.win 9).blk t).view.emb y) 0) ((((cfg0.win 9).blk t).view.emb y) 1)
  congr 1
  · apply Fin.ext
    show 2048 * (t.val / 16) + (y 0).val = win0_9.index t 0 * 2048 + 1 * (y 0).val
    rw [e9_0]; omega
  · apply Fin.ext
    show (y 1).val = win0_9.index t 1 * 32 + 1 * (y 1).val
    rw [e9_1]; omega

/-- Every node's row lies in the block its row block's last point writes back. -/
theorem cover0_9 (c : Dev nD) (i : ((cfg0.win 9).arr.view.loc (c.tc : Thread nD τ)).2.ty.Idx) :
    ∃ t : Fin cfg0.N, (cfg0.win 9).flush t = true ∧ i ∈ ((cfg0.win 9).blk t).view.set := by
  have hN : cfg0.N = 128 := N_0
  have hi0 : (i 0).val < 16384 := (i 0).isLt
  have hi1 : (i 1).val < 32 := (i 1).isLt
  obtain ⟨t, tv⟩ : ∃ t : Fin cfg0.N, t.val = 16 * ((i 0).val / 2048) + 15 := ⟨⟨16 * ((i 0).val / 2048) + 15, by rw [hN]; omega⟩, rfl⟩
  obtain ⟨-, -, -, -, -, -, e9_0, e9_1, e10_0, e10_1⟩ := idx_facts0 t
  refine ⟨t, (flush0_9 t).mpr (by omega), ?_⟩
  show i ∈ ((View.whole main_v2_0).slice (win0_9.rect t)).set
  rw [View.set_slice_whole, Rect.mem_set_unit]
  intro a
  match a with
  | ⟨0, _⟩ =>
    show win0_9.index t 0 * 2048 ≤ (i 0).val ∧ (i 0).val < win0_9.index t 0 * 2048 + 2048
    rw [e9_0]; omega
  | ⟨1, _⟩ =>
    show win0_9.index t 1 * 32 ≤ (i 1).val ∧ (i 1).val < win0_9.index t 1 * 32 + 32
    rw [e9_1]; omega

/-- After the region, output array one holds the first stack's first layer, node by node and channel by channel. -/
theorem final0_9 (c : Dev nD) : (dat0 V c).arrAt 9 cfg0.N = fun i =>
    Cert.Arma.layerA (fun p j => V c main_arg1 (ix2 p j)) (fun p f => V c main_arg0 (ix2 p f)) (fun p f => V c main_arg0 (ix2 p f))
      (fun f q => V c main_arg2 (ix2 f q)) (fun f q => V c main_arg3 (ix2 f q)) (fun q => V c main_v0 (ix2 (0 : Fin 1) q)) (i 0) (i 1) :=
  (dat0 V c).arrAt_eq_of_cover 9 (G0_9 V c) (fun t hf => flushed0_9_eq V c t hf) (cover0_9 c)

/-- What point t, the last of its row block, leaves in output window 10 at row r and channel q: the layer's value at
    the target node 2048 (t / 16) + r. -/
theorem out0_10_at (c : Dev nD) (t : Fin cfg0.N) (ht : t.val % 16 = 15) (r : Fin 2048) (q : Fin 32) (P : Fin 16384)
    (hP : P.val = 2048 * (t.val / 16) + r.val) :
    k0_pay9 (iblk0 V c 2 t) (iblk0 V c 6 t) (acc0_1 V c (t.val + 1)) (iblk0 V c 8 t) (ix2 r q)
      = Cert.Arma.layerA (fun p j => V c main_arg1 (ix2 p j)) (fun p f => V c main_arg0 (ix2 p f)) (fun p f => V c main_arg0 (ix2 p f))
          (fun f q => V c main_arg8 (ix2 f q)) (fun f q => V c main_arg9 (ix2 f q)) (fun q => V c main_v1 (ix2 (0 : Fin 1) q)) P q := by
  refine (Cert.Arma.Pay.k0_pay9_apply (iblk0 V c 2 t) (iblk0 V c 6 t) (acc0_1 V c (t.val + 1)) (iblk0 V c 8 t) r q).trans ?_
  unfold Cert.Arma.layerA
  refine congrArg₂ max (congrArg₂ (· + ·) (congrArg₂ (· + ·) (acc0_1_last V c t ht r q P hP) ?_) (iblk0_8_apply V c t 0 q)) rfl
  refine Finset.sum_congr rfl fun f _ => ?_
  exact congrArg₂ (· * ·) (iblk0_2_apply V c t r f P hP) (iblk0_6_apply V c t f q)

/-- The layer's value as an array over the output's index set. -/
abbrev G0_10 (c : Dev nD) : Buf (Elt Ideal) ((cfg0.win 10).arr.view.loc (c.tc : Thread nD τ)) := fun i =>
  Cert.Arma.layerA (fun p j => V c main_arg1 (ix2 p j)) (fun p f => V c main_arg0 (ix2 p f)) (fun p f => V c main_arg0 (ix2 p f))
    (fun f q => V c main_arg8 (ix2 f q)) (fun f q => V c main_arg9 (ix2 f q)) (fun q => V c main_v1 (ix2 (0 : Fin 1) q)) (i 0) (i 1)

/-- What a row block's last point writes back is that row block of the layer's value. -/
theorem flushed0_10_eq (c : Dev nD) (t : Fin cfg0.N) (hf : (cfg0.win 10).flush t = true) :
    (dat0 V c).flushed 10 t = ((cfg0.win 10).blk t).view.read (Elt Ideal) (G0_10 V c) := by
  have ht : t.val % 16 = 15 := (flush0_10 t).mp hf
  have hN : cfg0.N = 128 := N_0
  have htl : t.val < 128 := lt_of_lt_of_eq t.isLt hN
  obtain ⟨-, -, -, -, -, -, e9_0, e9_1, e10_0, e10_1⟩ := idx_facts0 t
  show (cfg0.win 10).cut (grid0.coords t) ((dat0 V c).after 10 t) = _
  rw [after0_10]
  funext y
  have hy0 : (y 0).val < 2048 := (y 0).isLt
  have hy1 : (y 1).val < 32 := (y 1).isLt
  have hx : (cfg0.win 10).xinj (grid0.coords t) y = ix2 (⟨(y 0).val, hy0⟩ : Fin 2048) (⟨(y 1).val, hy1⟩ : Fin 32) := by
    funext a
    match a with
    | ⟨0, _⟩ => rfl
    | ⟨1, _⟩ => rfl
  show k0_pay9 (iblk0 V c 2 t) (iblk0 V c 6 t) (acc0_1 V c (t.val + 1)) (iblk0 V c 8 t) ((cfg0.win 10).xinj (grid0.coords t) y)
    = G0_10 V c (((cfg0.win 10).blk t).view.emb y)
  rw [hx]
  refine (out0_10_at V c t ht ⟨(y 0).val, hy0⟩ ⟨(y 1).val, hy1⟩ ⟨2048 * (t.val / 16) + (y 0).val, by omega⟩ rfl).trans ?_
  show Cert.Arma.layerA _ _ _ _ _ _ _ _ = Cert.Arma.layerA _ _ _ _ _ _ ((((cfg0.win 10).blk t).view.emb y) 0) ((((cfg0.win 10).blk t).view.emb y) 1)
  congr 1
  · apply Fin.ext
    show 2048 * (t.val / 16) + (y 0).val = win0_10.index t 0 * 2048 + 1 * (y 0).val
    rw [e10_0]; omega
  · apply Fin.ext
    show (y 1).val = win0_10.index t 1 * 32 + 1 * (y 1).val
    rw [e10_1]; omega

/-- Every node's row lies in the block its row block's last point writes back. -/
theorem cover0_10 (c : Dev nD) (i : ((cfg0.win 10).arr.view.loc (c.tc : Thread nD τ)).2.ty.Idx) :
    ∃ t : Fin cfg0.N, (cfg0.win 10).flush t = true ∧ i ∈ ((cfg0.win 10).blk t).view.set := by
  have hN : cfg0.N = 128 := N_0
  have hi0 : (i 0).val < 16384 := (i 0).isLt
  have hi1 : (i 1).val < 32 := (i 1).isLt
  obtain ⟨t, tv⟩ : ∃ t : Fin cfg0.N, t.val = 16 * ((i 0).val / 2048) + 15 := ⟨⟨16 * ((i 0).val / 2048) + 15, by rw [hN]; omega⟩, rfl⟩
  obtain ⟨-, -, -, -, -, -, e9_0, e9_1, e10_0, e10_1⟩ := idx_facts0 t
  refine ⟨t, (flush0_10 t).mpr (by omega), ?_⟩
  show i ∈ ((View.whole main_v2_1).slice (win0_10.rect t)).set
  rw [View.set_slice_whole, Rect.mem_set_unit]
  intro a
  match a with
  | ⟨0, _⟩ =>
    show win0_10.index t 0 * 2048 ≤ (i 0).val ∧ (i 0).val < win0_10.index t 0 * 2048 + 2048
    rw [e10_0]; omega
  | ⟨1, _⟩ =>
    show win0_10.index t 1 * 32 ≤ (i 1).val ∧ (i 1).val < win0_10.index t 1 * 32 + 32
    rw [e10_1]; omega

/-- After the region, output array two holds the second stack's first layer, node by node and channel by channel. -/
theorem final0_10 (c : Dev nD) : (dat0 V c).arrAt 10 cfg0.N = fun i =>
    Cert.Arma.layerA (fun p j => V c main_arg1 (ix2 p j)) (fun p f => V c main_arg0 (ix2 p f)) (fun p f => V c main_arg0 (ix2 p f))
      (fun f q => V c main_arg8 (ix2 f q)) (fun f q => V c main_arg9 (ix2 f q)) (fun q => V c main_v1 (ix2 (0 : Fin 1) q)) (i 0) (i 1) :=
  (dat0 V c).arrAt_eq_of_cover 10 (G0_10 V c) (fun t hf => flushed0_10_eq V c t hf) (cover0_10 c)

end Cert.KernelIdeal.Gen

end
-- ==== Proof.IdealResultA.lean ====
/-
  The buffers' contents between the items of the idealized kernel program, read back to the launch memory.

  The program is: two reshapes of bias vectors into rows, the first kernel's region, two more reshapes, the second
  kernel's region. No item writes an argument array, so each argument is read as launched at every stage. A reshape of
  a vector of 32 entries into a row [1, 32] reads, at channel q, the vector's entry q. And the first region's two
  output arrays hold, when the second region is entered, the two stacks' first layers of the launch arguments.
-/
import proofs.«160956_j71236327571877_2_alg».proof.Proof.IdealSeg0
import proofs.«160956_j71236327571877_2_alg».proof.Proof.Gen.KernelIdeal.Regions
import proofs.«160956_j71236327571877_2_alg».proof.Proof.IdealValue0
import Idealize.ShloMosaic.Lib.ValueLayout
import Idealize.ShloMosaic.Lib.StableHlo.Run

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The contents between the items -/

/-- The buffers' contents when the first region is left, -/
abbrev E2 (c : Dev nD) : Valuation τ sig (Elt Ideal) := exitV0 (fun c => V1 m c) c
/-- and when the second region is entered. -/
abbrev E3 (c : Dev nD) : Valuation τ sig (Elt Ideal) := StableHlo.after hostOps1 (E2 m c)

/-- The first two reshapes write only the two bias rows, -/
theorem V1_arg (c : Dev nD) (r : Ref sig .tc) (h0 : r ∉ hostOps0_W) : V1 m c r = m ((c : Thread nD τ).loc r) :=
  (V1_of m c r h0).trans rfl
/-- the first region only its two output arrays, -/
theorem E2_of (c : Dev nD) (r : Ref sig .tc) (h : r ≠ main_v2_0) (h' : r ≠ main_v2_1) : E2 m c r = V1 m c r :=
  exitV0_of_ne (fun c => V1 m c) c r h h'
/-- the next two reshapes only the next two bias rows. -/
theorem E3_of (c : Dev nD) (r : Ref sig .tc) (h1 : r ∉ hostOps1_W) : E3 m c r = E2 m c r :=
  StableHlo.after_of_writes_sub hostOps1 _ hostOps1_writes h1
/-- So a buffer none of them writes is, entering the second region, as launched. -/
theorem E3_arg (c : Dev nD) (r : Ref sig .tc) (h0 : r ∉ hostOps0_W) (h : r ≠ main_v2_0) (h' : r ≠ main_v2_1) (h1 : r ∉ hostOps1_W) :
    E3 m c r = m ((c : Thread nD τ).loc r) :=
  (E3_of m c r h1).trans ((E2_of m c r h h').trans (V1_arg m c r h0))

/-! ## The bias rows -/

theorem V1_v0 (c : Dev nD) : (V1 m c main_v0 : S1x32.Idx → EReal)
    = shapeCast S1x32 (m ((c : Thread nD τ).loc main_arg4) : S32.Idx → EReal) shapeCasts_S32_S1x32 := by
  show StableHlo.after hostOps0 (V0 m c) (Proc.devRef .tc main_v0) = _
  after_results
  rfl

/-- The bias row main_v0 entering the first region reads, at channel q, the bias vector main_arg4 at q. -/
theorem V1_v0_at (c : Dev nD) (q : Fin 32) :
    (V1 m c main_v0 : S1x32.Idx → EReal) (ix2 (0 : Fin 1) q) = (m ((c : Thread nD τ).loc main_arg4) : S32.Idx → EReal) (ix1 q) := by
  rw [V1_v0]
  exact shapeCast_a_1a_apply _ _ 0 q

theorem V1_v1 (c : Dev nD) : (V1 m c main_v1 : S1x32.Idx → EReal)
    = shapeCast S1x32 (m ((c : Thread nD τ).loc main_arg10) : S32.Idx → EReal) shapeCasts_S32_S1x32 := by
  show StableHlo.after hostOps0 (V0 m c) (Proc.devRef .tc main_v1) = _
  after_results
  rfl

/-- The bias row main_v1 entering the first region reads, at channel q, the bias vector main_arg10 at q. -/
theorem V1_v1_at (c : Dev nD) (q : Fin 32) :
    (V1 m c main_v1 : S1x32.Idx → EReal) (ix2 (0 : Fin 1) q) = (m ((c : Thread nD τ).loc main_arg10) : S32.Idx → EReal) (ix1 q) := by
  rw [V1_v1]
  exact shapeCast_a_1a_apply _ _ 0 q

theorem E3_v3 (c : Dev nD) : (E3 m c main_v3 : S1x32.Idx → EReal)
    = shapeCast S1x32 (E2 m c main_arg7 : S32.Idx → EReal) shapeCasts_S32_S1x32 := by
  show StableHlo.after hostOps1 (E2 m c) (Proc.devRef .tc main_v3) = _
  after_results
  rfl

/-- The bias row main_v3 entering the second region reads, at channel q, the bias vector main_arg7 at q. -/
theorem E3_v3_at (c : Dev nD) (q : Fin 32) :
    (E3 m c main_v3 : S1x32.Idx → EReal) (ix2 (0 : Fin 1) q) = (m ((c : Thread nD τ).loc main_arg7) : S32.Idx → EReal) (ix1 q) := by
  rw [E3_v3]
  refine (shapeCast_a_1a_apply _ _ 0 q).trans ?_
  exact congrFun ((E2_of m c main_arg7 (by decide) (by decide)).trans (V1_arg m c main_arg7 (by decide))) (ix1 q)

theorem E3_v4 (c : Dev nD) : (E3 m c main_v4 : S1x32.Idx → EReal)
    = shapeCast S1x32 (E2 m c main_arg13 : S32.Idx → EReal) shapeCasts_S32_S1x32 := by
  show StableHlo.after hostOps1 (E2 m c) (Proc.devRef .tc main_v4) = _
  after_results
  rfl

/-- The bias row main_v4 entering the second region reads, at channel q, the bias vector main_arg13 at q. -/
theorem E3_v4_at (c : Dev nD) (q : Fin 32) :
    (E3 m c main_v4 : S1x32.Idx → EReal) (ix2 (0 : Fin 1) q) = (m ((c : Thread nD τ).loc main_arg13) : S32.Idx → EReal) (ix1 q) := by
  rw [E3_v4]
  refine (shapeCast_a_1a_apply _ _ 0 q).trans ?_
  exact congrFun ((E2_of m c main_arg13 (by decide) (by decide)).trans (V1_arg m c main_arg13 (by decide))) (ix1 q)

/-! ## The first region's output arrays -/

/-- A layer's value depends on its six arrays only through their entries. -/
theorem layerA_congr {L L' : Fin 16384 → Fin 16384 → EReal} {x x' xb xb' : Fin 16384 → Fin 64 → EReal}
    {w1 w1' w2 w2' : Fin 64 → Fin 32 → EReal} {b b' : Fin 32 → EReal}
    (hL : ∀ p j, L p j = L' p j) (hx : ∀ p f, x p f = x' p f) (hxb : ∀ p f, xb p f = xb' p f)
    (hw1 : ∀ f q, w1 f q = w1' f q) (hw2 : ∀ f q, w2 f q = w2' f q) (hb : ∀ q, b q = b' q) (p : Fin 16384) (q : Fin 32) :
    Cert.Arma.layerA L x xb w1 w2 b p q = Cert.Arma.layerA L' x' xb' w1' w2' b' p q := by
  obtain rfl : L = L' := funext fun p => funext (hL p)
  obtain rfl : x = x' := funext fun p => funext (hx p)
  obtain rfl : xb = xb' := funext fun p => funext (hxb p)
  obtain rfl : w1 = w1' := funext fun f => funext (hw1 f)
  obtain rfl : w2 = w2' := funext fun f => funext (hw2 f)
  obtain rfl : b = b' := funext hb
  rfl

/-- A second layer's value, likewise. -/
theorem layerB_congr {L L' : Fin 16384 → Fin 16384 → EReal} {x x' : Fin 16384 → Fin 64 → EReal} {xb xb' : Fin 16384 → Fin 32 → EReal}
    {w1 w1' : Fin 32 → Fin 32 → EReal} {w2 w2' : Fin 64 → Fin 32 → EReal} {b b' : Fin 32 → EReal}
    (hL : ∀ p j, L p j = L' p j) (hx : ∀ p f, x p f = x' p f) (hxb : ∀ p f, xb p f = xb' p f)
    (hw1 : ∀ f q, w1 f q = w1' f q) (hw2 : ∀ f q, w2 f q = w2' f q) (hb : ∀ q, b q = b' q) (p : Fin 16384) (q : Fin 32) :
    Cert.Arma.layerB L x xb w1 w2 b p q = Cert.Arma.layerB L' x' xb' w1' w2' b' p q := by
  obtain rfl : L = L' := funext fun p => funext (hL p)
  obtain rfl : x = x' := funext fun p => funext (hx p)
  obtain rfl : xb = xb' := funext fun p => funext (hxb p)
  obtain rfl : w1 = w1' := funext fun f => funext (hw1 f)
  obtain rfl : w2 = w2' := funext fun f => funext (hw2 f)
  obtain rfl : b = b' := funext hb
  rfl

/-- Entering the second region, the first region's first output array holds the first stack's first layer of the launch
    arguments. -/
theorem E3_v2_0 (c : Dev nD) : (E3 m c main_v2_0 : S16384x32.Idx → EReal) = fun i =>
    Cert.Arma.layerA (fun p j => m ((c : Thread nD τ).loc main_arg1) (ix2 p j)) (fun p f => m ((c : Thread nD τ).loc main_arg0) (ix2 p f))
      (fun p f => m ((c : Thread nD τ).loc main_arg0) (ix2 p f)) (fun f q => m ((c : Thread nD τ).loc main_arg2) (ix2 f q)) (fun f q => m ((c : Thread nD τ).loc main_arg3) (ix2 f q))
      (fun q => m ((c : Thread nD τ).loc main_arg4) (ix1 q)) (i 0) (i 1) := by
  refine (E3_of m c main_v2_0 (by decide)).trans ?_
  refine (exitV0_A (fun c => V1 m c) c).trans ?_
  refine (final0_9 (rdV (fun c => V1 m c)) c).trans ?_
  funext i
  exact layerA_congr (fun p j => congrFun (V1_arg m c main_arg1 (by decide)) (ix2 p j))
    (fun p f => congrFun (V1_arg m c main_arg0 (by decide)) (ix2 p f))
    (fun p f => congrFun (V1_arg m c main_arg0 (by decide)) (ix2 p f))
    (fun f q => congrFun (V1_arg m c main_arg2 (by decide)) (ix2 f q))
    (fun f q => congrFun (V1_arg m c main_arg3 (by decide)) (ix2 f q))
    (fun q => V1_v0_at m c q) (i 0) (i 1)

/-- Entering the second region, the first region's second output array holds the second stack's first layer of the launch
    arguments. -/
theorem E3_v2_1 (c : Dev nD) : (E3 m c main_v2_1 : S16384x32.Idx → EReal) = fun i =>
    Cert.Arma.layerA (fun p j => m ((c : Thread nD τ).loc main_arg1) (ix2 p j)) (fun p f => m ((c : Thread nD τ).loc main_arg0) (ix2 p f))
      (fun p f => m ((c : Thread nD τ).loc main_arg0) (ix2 p f)) (fun f q => m ((c : Thread nD τ).loc main_arg8) (ix2 f q)) (fun f q => m ((c : Thread nD τ).loc main_arg9) (ix2 f q))
      (fun q => m ((c : Thread nD τ).loc main_arg10) (ix1 q)) (i 0) (i 1) := by
  refine (E3_of m c main_v2_1 (by decide)).trans ?_
  refine (exitV0_B (fun c => V1 m c) c).trans ?_
  refine (final0_10 (rdV (fun c => V1 m c)) c).trans ?_
  funext i
  exact layerA_congr (fun p j => congrFun (V1_arg m c main_arg1 (by decide)) (ix2 p j))
    (fun p f => congrFun (V1_arg m c main_arg0 (by decide)) (ix2 p f))
    (fun p f => congrFun (V1_arg m c main_arg0 (by decide)) (ix2 p f))
    (fun f q => congrFun (V1_arg m c main_arg8 (by decide)) (ix2 f q))
    (fun f q => congrFun (V1_arg m c main_arg9 (by decide)) (ix2 f q))
    (fun q => V1_v1_at m c q) (i 0) (i 1)

end Cert.KernelIdeal.Gen

end
-- ==== Proof.IdealResult.lean ====
/-
  The idealized kernel program's result array is the specification's function of the launch memory.

  The second region's write-backs leave, at node p and channel q, the mean of the two stacks' second layers, each over
  the contents the region is entered with: the arguments as launched, the first region's two output arrays — the two
  stacks' first layers of the launch arguments — as the states, and the bias rows reshaped from the bias vectors. A
  second layer over a first layer's output is a stack, and the mean of the two stacks is the specification.
-/
import proofs.«160956_j71236327571877_2_alg».proof.Proof.IdealSeg1
import proofs.«160956_j71236327571877_2_alg».proof.Proof.IdealValue1
import proofs.«160956_j71236327571877_2_alg».proof.Proof.IdealResultA
import Idealize.ShloMosaic.Lib.ValueLayout
import Idealize.ShloMosaic.Lib.StableHlo.Run

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The result array after the program: Gbuf of the fourteen argument arrays as launched. The contents the second
    region is entered with are written out: the launch memory after the first two reshapes, the first region and the
    next two reshapes. -/
theorem result_eq (m : (ℓ : Loc nD τ sig) → Buf (Elt Ideal) ℓ) (c : Dev nD) :
    outA1 (fun c => StableHlo.after hostOps1 (exitV0 (fun c => V1 m c) c)) c
      = Cert.Arma.Gbuf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show outA1 (fun c => E3 m c) c = _
  refine (final1_10 (rdV (fun c => E3 m c)) c).trans ?_
  funext i
  exact congrArg₂ Cert.Arma.mean2
    (layerB_congr (fun p j => congrFun (E3_arg m c main_arg1 (by decide) (by decide) (by decide) (by decide)) (ix2 p j)) (fun p f => congrFun (E3_arg m c main_arg0 (by decide) (by decide) (by decide) (by decide)) (ix2 p f))
      (fun p f => congrFun (E3_v2_0 m c) (ix2 p f))
      (fun f q => congrFun (E3_arg m c main_arg5 (by decide) (by decide) (by decide) (by decide)) (ix2 f q)) (fun f q => congrFun (E3_arg m c main_arg6 (by decide) (by decide) (by decide) (by decide)) (ix2 f q))
      (fun q => E3_v3_at m c q) (i 0) (i 1))
    (layerB_congr (fun p j => congrFun (E3_arg m c main_arg1 (by decide) (by decide) (by decide) (by decide)) (ix2 p j)) (fun p f => congrFun (E3_arg m c main_arg0 (by decide) (by decide) (by decide) (by decide)) (ix2 p f))
      (fun p f => congrFun (E3_v2_1 m c) (ix2 p f))
      (fun f q => congrFun (E3_arg m c main_arg11 (by decide) (by decide) (by decide) (by decide)) (ix2 f q)) (fun f q => congrFun (E3_arg m c main_arg12 (by decide) (by decide) (by decide) (by decide)) (ix2 f q))
      (fun q => E3_v4_at m c q) (i 0) (i 1))

end Cert.KernelIdeal.Gen

end
-- ==== Proof.RefSpecA.lean ====
/-
  The reference program read layer by layer.

  Each of the reference's two stacks is two graph-convolutional skip layers. Read at node p and channel q, a layer's
  result is  max ((Σ_j L p j · (Σ_f xb j f · w1 f q) + Σ_f x p f · w2 f q) + b q) 0 : the two contractions are
  sums over the contracted coordinate, the bias broadcast reads b at q, and the cut-off's zero array reads the
  extended real 0 everywhere. The index functions of the one-operation-at-a-time reading are identified with the
  coordinate constructors (a matrix at ix2, a vector at ix1, the rank-3 joined array at ix3).

  The two stacks' results are then joined along a new last axis of extent 2, summed over it from zero and divided
  by 2: at node p and channel q that is one half of the sum of the two stacks' values, the specification's mean.
  No finiteness of the arguments is used: only 0 + a = a, the two-term sum, and a / 2 = a · (1/2) for the real 2.
-/
import proofs.«160956_j71236327571877_2_alg».proof.Proof.Spec
import proofs.«160956_j71236327571877_2_alg».proof.Proof.Gen.ReferenceIdeal.Read

noncomputable section

open scoped BigOperators

namespace Cert.Arma.Ref

open Idealize.ShloMosaic Idealize.ShloMosaic.ValueIdx Cert.ReferenceIdeal
open Idealize.ShloMosaic.TcCoe Idealize.SL.Sem

/-! ## The index functions at coordinates -/

/-- two functions on a two-element axis set agree when they agree at both axes -/
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))
local macro "idx1" : tactic => `(tactic| (funext a; match a with | ⟨0, _⟩ => rfl))

theorem l0 (k : Fin 16384) (q : Fin 32) (f : Fin 64) : Read.lidx_main_v0 (ix2 k q) f = ix2 k f := by idx2
theorem r0 (k : Fin 16384) (q : Fin 32) (f : Fin 64) : Read.ridx_main_v0 (ix2 k q) f = ix2 f q := by idx2
theorem l1 (p : Fin 16384) (q : Fin 32) (k : Fin 16384) : Read.lidx_main_v1 (ix2 p q) k = ix2 p k := by idx2
theorem r1 (p : Fin 16384) (q : Fin 32) (k : Fin 16384) : Read.ridx_main_v1 (ix2 p q) k = ix2 k q := by idx2
theorem l2 (p : Fin 16384) (q : Fin 32) (f : Fin 64) : Read.lidx_main_v2 (ix2 p q) f = ix2 p f := by idx2
theorem r2 (p : Fin 16384) (q : Fin 32) (f : Fin 64) : Read.ridx_main_v2 (ix2 p q) f = ix2 f q := by idx2
theorem i45 (p : Fin 16384) (q : Fin 32) : Read.idx_main_v4 (Read.idx_main_v5 (ix2 p q)) = ix1 q := by idx1

theorem l8 (k : Fin 16384) (q : Fin 32) (f : Fin 32) : Read.lidx_main_v8 (ix2 k q) f = ix2 k f := by idx2
theorem r8 (k : Fin 16384) (q : Fin 32) (f : Fin 32) : Read.ridx_main_v8 (ix2 k q) f = ix2 f q := by idx2
theorem l9 (p : Fin 16384) (q : Fin 32) (k : Fin 16384) : Read.lidx_main_v9 (ix2 p q) k = ix2 p k := by idx2
theorem r9 (p : Fin 16384) (q : Fin 32) (k : Fin 16384) : Read.ridx_main_v9 (ix2 p q) k = ix2 k q := by idx2
theorem l10 (p : Fin 16384) (q : Fin 32) (f : Fin 64) : Read.lidx_main_v10 (ix2 p q) f = ix2 p f := by idx2
theorem r10 (p : Fin 16384) (q : Fin 32) (f : Fin 64) : Read.ridx_main_v10 (ix2 p q) f = ix2 f q := by idx2
theorem i1213 (p : Fin 16384) (q : Fin 32) : Read.idx_main_v12 (Read.idx_main_v13 (ix2 p q)) = ix1 q := by idx1

/-! ## A first layer -/

/-- The first stack's first layer at node p and channel q. -/
theorem layerA_v7 (x0 : (⟨S16384x64, .f32⟩ : BufTy).Contents (Elt Ideal)) (x1 : (⟨S16384x16384, .f32⟩ : BufTy).Contents (Elt Ideal))
    (x2 x3 : (⟨S64x32, .f32⟩ : BufTy).Contents (Elt Ideal)) (x4 : (⟨S32, .f32⟩ : BufTy).Contents (Elt Ideal))
    (p : Fin 16384) (q : Fin 32) :
    Read.val_main_v7 (F := Ideal) x0 x1 x2 x3 x4 (ix2 p q) =
      layerA (fun p j => x1 (ix2 p j)) (fun p f => x0 (ix2 p f)) (fun p f => x0 (ix2 p f))
        (fun f q => x2 (ix2 f q)) (fun f q => x3 (ix2 f q)) (fun q => x4 (ix1 q)) p q := by
  rw [Read.val_main_v7_apply, Read.val_main_v6_apply, Read.val_main_v3_apply, Read.val_main_v1_apply,
    Read.val_main_v2_apply, Read.val_main_v5_apply, Read.val_main_v4_apply, Read.val_main_call0_v0_apply,
    Read.val_main_call0_cst_apply]
  simp only [Read.val_main_v0_apply, l0, r0, l1, r1, l2, r2, i45, Ideal.addf_def, Ideal.maximumf_def, Ideal.ofBits_def,
    Ideal.ofBits_zero_f32]
  rfl

/-! ## A second layer, and a stack -/

/-- The first stack's second layer at node p and channel q, over the first layer's result as its states. -/
theorem layerB_v15 (x0 : (⟨S16384x64, .f32⟩ : BufTy).Contents (Elt Ideal)) (x1 : (⟨S16384x16384, .f32⟩ : BufTy).Contents (Elt Ideal))
    (x2 x3 : (⟨S64x32, .f32⟩ : BufTy).Contents (Elt Ideal)) (x4 : (⟨S32, .f32⟩ : BufTy).Contents (Elt Ideal))
    (x5 : (⟨S32x32, .f32⟩ : BufTy).Contents (Elt Ideal)) (x6 : (⟨S64x32, .f32⟩ : BufTy).Contents (Elt Ideal))
    (x7 : (⟨S32, .f32⟩ : BufTy).Contents (Elt Ideal)) (p : Fin 16384) (q : Fin 32) :
    Read.val_main_v15 (F := Ideal) x0 x1 x2 x3 x4 x5 x6 x7 (ix2 p q) =
      layerB (fun p j => x1 (ix2 p j)) (fun p f => x0 (ix2 p f))
        (fun j f => Read.val_main_v7 (F := Ideal) x0 x1 x2 x3 x4 (ix2 j f))
        (fun f q => x5 (ix2 f q)) (fun f q => x6 (ix2 f q)) (fun q => x7 (ix1 q)) p q := by
  rw [Read.val_main_v15_apply, Read.val_main_v14_apply, Read.val_main_v11_apply, Read.val_main_v9_apply,
    Read.val_main_v10_apply, Read.val_main_v13_apply, Read.val_main_v12_apply, Read.val_main_call1_v0_apply,
    Read.val_main_call1_cst_apply]
  simp only [Read.val_main_v8_apply, l8, r8, l9, r9, l10, r10, i1213, Ideal.addf_def, Ideal.maximumf_def, Ideal.ofBits_def,
    Ideal.ofBits_zero_f32]
  rfl

/-- The first stack at node p and channel q. -/
theorem stack_v15 (x0 : (⟨S16384x64, .f32⟩ : BufTy).Contents (Elt Ideal)) (x1 : (⟨S16384x16384, .f32⟩ : BufTy).Contents (Elt Ideal))
    (x2 x3 : (⟨S64x32, .f32⟩ : BufTy).Contents (Elt Ideal)) (x4 : (⟨S32, .f32⟩ : BufTy).Contents (Elt Ideal))
    (x5 : (⟨S32x32, .f32⟩ : BufTy).Contents (Elt Ideal)) (x6 : (⟨S64x32, .f32⟩ : BufTy).Contents (Elt Ideal))
    (x7 : (⟨S32, .f32⟩ : BufTy).Contents (Elt Ideal)) (p : Fin 16384) (q : Fin 32) :
    Read.val_main_v15 (F := Ideal) x0 x1 x2 x3 x4 x5 x6 x7 (ix2 p q) =
      stack (fun p j => x1 (ix2 p j)) (fun p f => x0 (ix2 p f))
        (fun f q => x2 (ix2 f q)) (fun f q => x3 (ix2 f q)) (fun q => x4 (ix1 q))
        (fun f q => x5 (ix2 f q)) (fun f q => x6 (ix2 f q)) (fun q => x7 (ix1 q)) p q := by
  rw [layerB_v15]
  unfold stack
  refine congrArg (fun xb => layerB (fun p j => x1 (ix2 p j)) (fun p f => x0 (ix2 p f)) xb
    (fun f q => x5 (ix2 f q)) (fun f q => x6 (ix2 f q)) (fun q => x7 (ix1 q)) p q) ?_
  funext j f
  exact layerA_v7 x0 x1 x2 x3 x4 j f

/-- The second stack is the first stack's function of its own six weight arrays: the two are the same composition
    of operations, one operation at a time. -/
theorem v31_eq_v15 (x0 : (⟨S16384x64, .f32⟩ : BufTy).Contents (Elt Ideal)) (x1 : (⟨S16384x16384, .f32⟩ : BufTy).Contents (Elt Ideal))
    (x8 x9 : (⟨S64x32, .f32⟩ : BufTy).Contents (Elt Ideal)) (x10 : (⟨S32, .f32⟩ : BufTy).Contents (Elt Ideal))
    (x11 : (⟨S32x32, .f32⟩ : BufTy).Contents (Elt Ideal)) (x12 : (⟨S64x32, .f32⟩ : BufTy).Contents (Elt Ideal))
    (x13 : (⟨S32, .f32⟩ : BufTy).Contents (Elt Ideal)) :
    Read.val_main_v31 (F := Ideal) x0 x1 x8 x9 x10 x11 x12 x13 = Read.val_main_v15 (F := Ideal) x0 x1 x8 x9 x10 x11 x12 x13 := rfl

/-! ## The joined array and the constants -/

theorem i35 (p : Fin 16384) (q : Fin 32) (k : Fin 2) : Read.idx_main_v35 (ix2 p q) k = ix3 p q k := by idx3
theorem i32 (p : Fin 16384) (q : Fin 32) (z : Fin 1) : Read.idx_main_v32 (ix3 p q z) = ix2 p q := by idx2
theorem i33 (p : Fin 16384) (q : Fin 32) (z : Fin 1) : Read.idx_main_v33 (ix3 p q z) = ix2 p q := by idx2

/-- Two arrays of last extent one, joined along the last axis: at last coordinate 0 the joined array reads the first. -/
theorem concat_at0 (a b : (⟨S16384x32x1, .f32⟩ : BufTy).Contents (Elt Ideal)) (p : Fin 16384) (q : Fin 32) :
    concatenate S16384x32x2 2 [⟨S16384x32x1, a⟩, ⟨S16384x32x1, b⟩] Gen.concatenates_S16384x32x1_S16384x32x1_S16384x32x2_d2
      (ix3 p q (0 : Fin 2)) = a (ix3 p q (0 : Fin 1)) :=
  concatenate_pair_apply_left (t := S16384x32x2) (s₁ := S16384x32x1) (s₂ := S16384x32x1) 2 a b
    Gen.concatenates_S16384x32x1_S16384x32x1_S16384x32x2_d2 (ix3 p q (0 : Fin 2)) rfl (ix3 p q (0 : Fin 1))
    (fun c => by match c with | ⟨0, _⟩ => rfl | ⟨1, _⟩ => rfl | ⟨2, _⟩ => rfl)

/-- … and at last coordinate 1 it reads the second. -/
theorem concat_at1 (a b : (⟨S16384x32x1, .f32⟩ : BufTy).Contents (Elt Ideal)) (p : Fin 16384) (q : Fin 32) :
    concatenate S16384x32x2 2 [⟨S16384x32x1, a⟩, ⟨S16384x32x1, b⟩] Gen.concatenates_S16384x32x1_S16384x32x1_S16384x32x2_d2
      (ix3 p q (1 : Fin 2)) = b (ix3 p q (0 : Fin 1)) :=
  concatenate_pair_apply_right (t := S16384x32x2) (s₁ := S16384x32x1) (s₂ := S16384x32x1) 2 a b
    Gen.concatenates_S16384x32x1_S16384x32x1_S16384x32x2_d2 (ix3 p q (1 : Fin 2)) rfl rfl (ix3 p q (0 : Fin 1))
    (fun c hc => by
      match c, hc with
      | ⟨0, _⟩, _ => rfl
      | ⟨1, _⟩, _ => rfl
      | ⟨2, _⟩, hc => exact absurd rfl hc)
    rfl

/-- The divisor's pattern denotes the real number 2. -/
theorem ofBits_two : Ideal.ofBits .f32 0x40000000#32 = ((2 : ℝ) : EReal) := by
  simp [Ideal.ofBits, Ideal.ieee, -EReal.coe_mul]; norm_num

/-! ## The whole result -/

/-- The reference's result is the mean of the two stacks: the sum over the joined axis from zero is the sum of the
    two stacks' values, and dividing by 2 is multiplying by one half. -/
theorem value (x0 : (⟨S16384x64, .f32⟩ : BufTy).Contents (Elt Ideal)) (x1 : (⟨S16384x16384, .f32⟩ : BufTy).Contents (Elt Ideal))
    (x2 x3 : (⟨S64x32, .f32⟩ : BufTy).Contents (Elt Ideal)) (x4 : (⟨S32, .f32⟩ : BufTy).Contents (Elt Ideal))
    (x5 : (⟨S32x32, .f32⟩ : BufTy).Contents (Elt Ideal)) (x6 : (⟨S64x32, .f32⟩ : BufTy).Contents (Elt Ideal))
    (x7 : (⟨S32, .f32⟩ : BufTy).Contents (Elt Ideal)) (x8 x9 : (⟨S64x32, .f32⟩ : BufTy).Contents (Elt Ideal))
    (x10 : (⟨S32, .f32⟩ : BufTy).Contents (Elt Ideal)) (x11 : (⟨S32x32, .f32⟩ : BufTy).Contents (Elt Ideal))
    (x12 : (⟨S64x32, .f32⟩ : BufTy).Contents (Elt Ideal)) (x13 : (⟨S32, .f32⟩ : BufTy).Contents (Elt Ideal)) :
    Read.val_main_v37 (F := Ideal) x0 x1 x2 x3 x4 x5 x6 x7 x8 x9 x10 x11 x12 x13
      = Cert.Arma.Gbuf x0 x1 x2 x3 x4 x5 x6 x7 x8 x9 x10 x11 x12 x13 := by
  funext i
  obtain ⟨p, q, rfl⟩ : ∃ (p : Fin 16384) (q : Fin 32), i = ix2 p q := ⟨i 0, i 1, eq_ix2 i⟩
  rw [Read.val_main_v37_apply, Read.val_main_v36_apply, Read.val_main_cst_0_apply, Read.val_main_v35_apply,
    Read.val_main_cst_apply, Fin.sum_univ_two, i35, i35]
  rw [show Read.val_main_v34 (F := Ideal) x0 x1 x2 x3 x4 x5 x6 x7 x8 x9 x10 x11 x12 x13 (ix3 p q (0 : Fin 2))
        = Read.val_main_v32 (F := Ideal) x0 x1 x2 x3 x4 x5 x6 x7 (ix3 p q (0 : Fin 1)) from concat_at0 _ _ p q,
    show Read.val_main_v34 (F := Ideal) x0 x1 x2 x3 x4 x5 x6 x7 x8 x9 x10 x11 x12 x13 (ix3 p q (1 : Fin 2))
        = Read.val_main_v33 (F := Ideal) x0 x1 x8 x9 x10 x11 x12 x13 (ix3 p q (0 : Fin 1)) from concat_at1 _ _ p q]
  rw [Read.val_main_v32_apply, Read.val_main_v33_apply, i32, i33, v31_eq_v15, stack_v15, stack_v15]
  rw [Ideal.hostDivf_def, Ideal.ofBits_def, Ideal.ofBits_def, Ideal.ofBits_zero_f32, ofBits_two,
    Ideal.div_coe two_ne_zero, zero_add, mul_comm]
  rfl

end Cert.Arma.Ref

end
-- ==== Proof.RefSpec.lean ====
/-
  The reference program's run, with its result stated as the specification's function of the argument arrays.

  The run of the reference, one operation after another, ends with the result array at the operations' composed
  term of the fourteen argument arrays; that term is the array read layer by layer in the companion module, which
  is the mean of the two stacks: Gbuf of the arguments.
-/
import proofs.«160956_j71236327571877_2_alg».proof.Proof.RefSpecA

noncomputable section

namespace Cert.Arma.Ref

open Idealize.ShloMosaic Idealize.ShloMosaic.ValueIdx Cert.ReferenceIdeal
open Idealize.ShloMosaic.TcCoe Idealize.SL.Sem

/-! ## The run -/

/-- Every weakly fair execution of the reference terminates with its result array the function Gbuf of the fourteen
    argument arrays' launch contents, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v37)
        = Cert.Arma.Gbuf (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg12))
            (m' ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run Cert.ReferenceIdeal.defs _ _).mono
    (fun _ h c => ⟨(h c).1.trans ((Read.val_main_v37_eq (F := Ideal) _ _ _ _ _ _ _ _ _ _ _ _ _ _).trans
      (value _ _ _ _ _ _ _ _ _ _ _ _ _ _)), (h c).2⟩)
    (Cert.ReferenceIdeal.Value.run (F := Ideal) m' ρ')

end Cert.Arma.Ref

end
-- ==== Proof.lean ====
/-
  Two stacks of two graph-convolutional skip layers over a dense 16384 × 16384 operator, averaged.

  Each layer sends node states xb to  relu( L · (xb · W1) + x · W2 + b ).  The reference program computes the four
  layers one after the other with whole-array products and takes the mean of the two stacks. The kernel program
  computes both stacks' first layers in one sweep over L and both second layers in a second sweep: a sweep visits
  L in blocks of 2048 rows by 1024 columns, adds each block's product into an accumulator that is cleared at the
  first column block of a row block, and at the last column block adds the skip term and the bias, cuts off at
  zero and (in the second sweep) halves the sum of the two stacks.

  Over the extended reals the two programs are one function (Spec.lean): a sum over 16384 columns accumulated
  sixteen blocks of 1024 at a time from zero is the plain sum, by associativity and commutativity of addition
  alone, and the half of a sum is the sum divided by two; no finiteness of the inputs is used. The kernel
  program's frame (it terminates, faults nowhere, leaves its arguments as launched) is proved once for any
  reading of the floats and used at both.
-/
import proofs.«160956_j71236327571877_2_alg».proof.Defs
import proofs.«160956_j71236327571877_2_alg».proof.Proof.Gen.Kernel
import proofs.«160956_j71236327571877_2_alg».proof.Proof.Gen.KernelIdeal
import proofs.«160956_j71236327571877_2_alg».proof.Proof.Gen.ReferenceIdeal
import proofs.«160956_j71236327571877_2_alg».proof.Proof.Gen.Pre_finite_inputs
import proofs.«160956_j71236327571877_2_alg».proof.Proof.Gen.ReferenceIdeal.Read
import proofs.«160956_j71236327571877_2_alg».proof.Proof.BitsRegions
import proofs.«160956_j71236327571877_2_alg».proof.Proof.IdealRegions
import proofs.«160956_j71236327571877_2_alg».proof.Proof.IdealResult
import proofs.«160956_j71236327571877_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k [Cert.Kernel.Facts] [Cert.Pre_finite_inputs.Facts] : Cert.frame_Kernel :=
  fun m ρ _ => Cert.Kernel.Gen.frame m ρ

/-- So does the kernel program read over the extended reals. -/
theorem frame_ki [Cert.KernelIdeal.Facts] [Cert.Pre_finite_inputs.Facts] : Cert.frame_KernelIdeal :=
  fun m ρ _ => Cert.KernelIdeal.Gen.frame m ρ

/-- The reference, a host program, runs to its operations' composed term; its arguments are never written. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs, from memories that agree on the arguments, end with the result array at the one function
    Gbuf of the arguments: the kernel program by its two regions' write-backs read as whole-array sums, the
    reference by its operations read one at a time. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Arma.Gbuf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Gen.result_eq m c), (h c).2⟩)
      (Cert.KernelIdeal.Gen.run_named m ρ)
  · refine (θ_run Cert.ReferenceIdeal.defs _ _).mono (fun _ h c => ⟨(h c).1.trans ?_, (h c).2⟩) (Cert.Arma.Ref.run m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
